-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64 .f32) (main_arg14 : FVec F S64 .f32) (main_arg15 : FVec F S64 .f32) (main_arg16 : FVec F S64 .f32) (main_arg17 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S_ : Shape := ⟨0, ![]⟩
abbrev S800000x1 : Shape := ⟨2, ![800000, 1]⟩
abbrev S8000x64 : Shape := ⟨2, ![8000, 64]⟩
abbrev S400000x128 : Shape := ⟨2, ![400000, 128]⟩
abbrev S1x128 : Shape := ⟨2, ![1, 128]⟩
abbrev S128 : Shape := ⟨1, ![128]⟩
abbrev S8000x128 : Shape := ⟨2, ![8000, 128]⟩

abbrev nBuf : Space → Nat
  | .hbm => 138
  | .vmem => 30
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S50000x64, .f32⟩
  | 19 => ⟨S1x64, .f32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x64, .f32⟩
  | 62 => ⟨S800000x64, .f32⟩
  | 63 => ⟨S800000x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S_, .f32⟩
  | 78 => ⟨S50000x64, .f32⟩
  | 79 => ⟨S800000x1, .i32⟩
  | 80 => ⟨S50000x64, .f32⟩
  | 81 => ⟨S_, .f32⟩
  | 82 => ⟨S50000x64, .f32⟩
  | 83 => ⟨S800000x1, .i32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S50000x64, .f32⟩
  | 90 => ⟨S_, .f32⟩
  | 91 => ⟨S64, .f32⟩
  | 92 => ⟨S_, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S50000x64, .f32⟩
  | 99 => ⟨S_, .f32⟩
  | 100 => ⟨S64, .f32⟩
  | 101 => ⟨S_, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S_, .f32⟩
  | 108 => ⟨S64, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S400000x128, .f32⟩
  | 3 => ⟨S400000x128, .f32⟩
  | 4 => ⟨S1x128, .f32⟩
  | 5 => ⟨S1x128, .f32⟩
  | 6 => ⟨S128, .f32⟩
  | 7 => ⟨S128, .f32⟩
  | 8 => ⟨S400000x128, .f32⟩
  | 9 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S64x64, .f32⟩
  | .local _ .vmem, ⟨9, _⟩ => ⟨S64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S8000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S1x128, .f32⟩
  | .local _ .vmem, ⟨25, _⟩ => ⟨S1x128, .f32⟩
  | .local _ .vmem, ⟨26, _⟩ => ⟨S128, .f32⟩
  | .local _ .vmem, ⟨27, _⟩ => ⟨S128, .f32⟩
  | .local _ .vmem, ⟨28, _⟩ => ⟨S8000x128, .f32⟩
  | .local _ .vmem, ⟨29, _⟩ => ⟨S8000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v37_2 : Ref sig .tc := ⟨.hbm, 63, rfl⟩
abbrev main_v37_3 : Ref sig .tc := ⟨.hbm, 64, rfl⟩
abbrev main_v37_4 : Ref sig .tc := ⟨.hbm, 65, rfl⟩
abbrev main_cst : Ref sig .tc := ⟨.hbm, 66, rfl⟩
abbrev main_v38 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_14 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v38 : BitVec 1 := Scalar.cmpi .eq arg0 c99_i32
  let v39 : BitVec 32 := Scalar.extui v38
  let c0_i32_27 : BitVec 32 := 0#32
  let v40 : BitVec 1 := Scalar.cmpi .ne v39 c0_i32_27
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  shapeCasts_S8000x64_S8000x64 : S8000x64.ShapeCasts S8000x64
  reduces_S8000x64_S64 : S8000x64.Reduces [0] S64
  bcast_S_S1x64 : S_.BroadcastsInDim S1x64 (![] : Fin 0 → Fin S1x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  shapeCasts_S800000x64_S400000x128 : S800000x64.ShapeCasts S400000x128
  concatenates_S1x64_S1x64_S1x128_d1 : Shape.Concatenates [S1x64, S1x64] S1x128 1
  concatenates_S64_S64_S128_d0 : Shape.Concatenates [S64, S64] S128 0
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  shapeCasts_S400000x128_S800000x64 : S400000x128.ShapeCasts S800000x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S800000x64.size a
  hwx0_3 : ∀ i : grid0.Coords, EltTy.bits .f32 = 32 ∨ (Rect.block (s := S800000x64) S8000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S800000x64.size a
  hwx0_6 : ∀ i : grid0.Coords, EltTy.bits .f32 = 32 ∨ (Rect.block (s := S800000x64) S8000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .f32 = 32 ∨ (Rect.block (s := S800000x64) S8000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x64.size a ≤ S800000x64.size a
  hwx0_8 : ∀ i : grid0.Coords, EltTy.bits .f32 = 32 ∨ (Rect.block (s := S800000x64) S8000x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S400000x128.size a
  hwx1_0 : ∀ i : grid1.Coords, EltTy.bits .f32 = 32 ∨ (Rect.block (s := S400000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S400000x128.size a
  hwx1_1 : ∀ i : grid1.Coords, EltTy.bits .f32 = 32 ∨ (Rect.block (s := S400000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S400000x128.size a
  hwx1_6 : ∀ i : grid1.Coords, EltTy.bits .f32 = 32 ∨ (Rect.block (s := S400000x128) S8000x128.size (cc1_transform_6 i) (hinb1_6 i)).WholeWords (EltTy.packing .f32)

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S8000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37_0) S8000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v37_1) S8000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v37_2) S8000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v37_3) S1x64.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37_4) S1x64.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v83) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v85) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v89) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S_ : Shape := ⟨0, ![]⟩
abbrev S800000x1 : Shape := ⟨2, ![800000, 1]⟩

abbrev nBuf : Space → Nat
  | .hbm => 169
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S50000x64, .f32⟩
  | 19 => ⟨S1x64, .f32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x64, .f32⟩
  | 45 => ⟨S800000x64, .f32⟩
  | 46 => ⟨S1x64, .f32⟩
  | 47 => ⟨S800000x64, .f32⟩
  | 48 => ⟨S800000x64, .f32⟩
  | 49 => ⟨S800000x64, .f32⟩
  | 50 => ⟨S800000x64, .f32⟩
  | 51 => ⟨S800000x64, .f32⟩
  | 52 => ⟨S_, .f32⟩
  | 53 => ⟨S800000x64, .f32⟩
  | 54 => ⟨S800000x64, .f32⟩
  | 55 => ⟨S_, .f32⟩
  | 56 => ⟨S800000x64, .f32⟩
  | 57 => ⟨S800000x64, .f32⟩
  | 58 => ⟨S50000x64, .f32⟩
  | 59 => ⟨S1x64, .f32⟩
  | 60 => ⟨S50000x64, .f32⟩
  | 61 => ⟨S50000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S_, .f32⟩
  | 77 => ⟨S50000x64, .f32⟩
  | 78 => ⟨S800000x1, .i32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S50000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S50000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S64, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S800000x64, .f32⟩
  | 7 => ⟨S800000x64, .f32⟩
  | 8 => ⟨S800000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S800000x64, .f32⟩
  | 16 => ⟨S800000x64, .f32⟩
  | 17 => ⟨S_, .f32⟩
  | 18 => ⟨S64, .f32⟩
  | 19 => ⟨S64, .f32⟩
  | 20 => ⟨S64, .f32⟩
  | 21 => ⟨S1x64, .f32⟩
  | 22 => ⟨S800000x64, .f32⟩
  | 23 => ⟨S800000x64, .f32⟩
  | 24 => ⟨S1x64, .f32⟩
  | 25 => ⟨S800000x64, .f32⟩
  | 26 => ⟨S800000x64, .f32⟩
  | 27 => ⟨S1x64, .f32⟩
  | 28 => ⟨S800000x64, .f32⟩
  | 29 => ⟨S800000x64, .f32⟩
  | 30 => ⟨S800000x64, .f32⟩
  | 31 => ⟨S800000x64, .f32⟩
  | 32 => ⟨S_, .f32⟩
  | 33 => ⟨S800000x64, .f32⟩
  | 34 => ⟨S800000x64, .f32⟩
  | 35 => ⟨S_, .f32⟩
  | 36 => ⟨S800000x64, .f32⟩
  | 37 => ⟨S800000x64, .f32⟩
  | 38 => ⟨S800000x64, .f32⟩
  | 39 => ⟨S50000x64, .f32⟩
  | 40 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v85 : Ref sig .tc := ⟨.hbm, 127, rfl⟩
abbrev main_cst_14 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_16 : Ref sig .tc := ⟨.hbm, 137, rfl⟩
abbrev main_v93 : Ref sig .tc := ⟨.hbm, 138, rfl⟩
abbrev main_cst_17 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_18 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call1_v0 : Ref sig .tc := ⟨.hbm, 158, rfl⟩
abbrev main_call1_v1 : Ref sig .tc := ⟨.hbm, 159, rfl⟩
abbrev main_call1_cst : Ref sig .tc := ⟨.hbm, 160, rfl⟩
abbrev main_call1_v2 : Ref sig .tc := ⟨.hbm, 161, rfl⟩
abbrev main_call1_v3 : Ref sig .tc := ⟨.hbm, 162, rfl⟩
abbrev main_call1_cst_0 : Ref sig .tc := ⟨.hbm, 163, rfl⟩
abbrev main_call1_v4 : Ref sig .tc := ⟨.hbm, 164, rfl⟩
abbrev main_call1_v5 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  reducesTo_S800000x64_S64_d0 : S800000x64.ReducesTo [0] S64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.WordEdgePassShared.lean ====
/-
  The first pallas region (the edge pass over 100 tiles of 8000 edges): what its runs share.

  The body tests the tile index twice: at the first tile it clears the two accumulator rows before anything else,
  and at the last tile it copies them into the two one-row outputs. Over the grid of 100 tiles these two tests
  are "the tile is number 0" and "the tile is number 99"; three kinds of tile occur (first, middle, last).
  The two one-row outputs are stored only at the last tile and are written back only there; at every other tile
  their staging buffers are handed back untouched.
-/
import proofs.«175570_j5823975653421_2_alg».proof.Proof.Gen.Kernel.Launch
import proofs.«175570_j5823975653421_2_alg».proof.Proof.Gen.Kernel.Skeleton
import proofs.«175570_j5823975653421_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the tile index -/

/-- The body's first test, on the tile's coordinate: the tile is the first one. -/
abbrev atFirst (i : grid0.Coords) : Prop :=
  (Scalar.cmpi .ne (Scalar.extui (Scalar.cmpi .eq (BitVec.ofNat 32 (i 0).val) 0#32)) 0#32) = 1#1

/-- Over the grid it holds at tile 0 only. -/
theorem atFirst_iff : ∀ t : Fin cfg0.N, atFirst (grid0.coords t) ↔ t.val = 0 :=
  (by decide +kernel : ∀ t : Fin grid0.N, atFirst (grid0.coords t) ↔ t.val = 0)

/-- The body's second test: the tile is the last one. -/
abbrev atLast (i : grid0.Coords) : Prop := k0_cond2 i = 1#1

/-- Over the grid it holds at tile 99 only. -/
theorem atLast_iff : ∀ t : Fin cfg0.N, atLast (grid0.coords t) ↔ t.val = 99 :=
  (by decide +kernel : ∀ t : Fin grid0.N, atLast (grid0.coords t) ↔ t.val = 99)

/-! ## Where the windows are idle, and where the one-row outputs are written back -/

theorem live_in : ∀ (w : Fin 11), w.val < 9 → ∀ t : Fin cfg0.N, cfg0.idle w (grid0.coords t) = false := by decide +kernel
theorem idle_sum : ∀ t : Fin cfg0.N, ¬ atLast (grid0.coords t) → cfg0.idle 9 (grid0.coords t) = true := by decide +kernel
theorem idle_sumsq : ∀ t : Fin cfg0.N, ¬ atLast (grid0.coords t) → cfg0.idle 10 (grid0.coords t) = true := by decide +kernel
theorem live_sum : ∀ t : Fin cfg0.N, atLast (grid0.coords t) → cfg0.idle 9 (grid0.coords t) = false := by decide +kernel
theorem live_sumsq : ∀ t : Fin cfg0.N, atLast (grid0.coords t) → cfg0.idle 10 (grid0.coords t) = false := by decide +kernel
theorem noFlush_sum : ∀ t : Fin cfg0.N, ¬ atLast (grid0.coords t) → (cfg0.win 9).flush t = false := by decide +kernel
theorem noFlush_sumsq : ∀ t : Fin cfg0.N, ¬ atLast (grid0.coords t) → (cfg0.win 10).flush t = false := by decide +kernel

/-! ## The accumulator rows -/

/-- The two accumulator rows: whole scoped buffers of the kernel's own, passed beside the windows. -/
abbrev accM : Memref sig .tc .vmem S1x64 .f32 := Memref.whole cc0_scratch0
abbrev accSqM : Memref sig .tc .vmem S1x64 .f32 := Memref.whole cc0_scratch1
abbrev accV : View sig .tc .vmem S1x64 .f32 := accM.view
abbrev accSqV : View sig .tc .vmem S1x64 .f32 := accSqM.view

end Cert.Kernel.R0

end
-- ==== Proof.WordEdgePassFirst.lean ====
/-
  The edge pass at its FIRST tile: the body clears both accumulator rows, computes the tile's pre-activations
  m = ((x·W + b) + s) + d, their logistic and the gated row product, stores the three tiles, and adds the tile's
  column sums of m and of m² to the cleared rows. It stores nothing into the two one-row outputs.
-/
import proofs.«175570_j5823975653421_2_alg».proof.Proof.WordEdgePassShared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)

set_option maxHeartbeats 4000000 in
/-- What the body leaves in the three tile outputs and in the two accumulator rows, as lists of stored pieces,
    with the proof that from whole staging buffers (the six inputs at given contents, the three tile outputs and
    the two accumulator rows at anything, the two one-row outputs at contents handed back untouched) the body runs
    to its end. -/
noncomputable def runFirst (hf : atFirst i) (hl : ¬ atLast i)
    (x1 x2 x3 x4 : Vec F S8000x64 .f32) (x5 : Vec F S64x64 .f32) (x6 : Vec F S64 .f32) :
    Σ' (L7 L8 L9 : List (View.Piece (Elt F) S8000x64 .f32)) (LA : List (View.Piece (Elt F) S1x64 .f32)),
      { LQ : List (View.Piece (Elt F) S1x64 .f32) //
      ∀ (y10 y11 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare y10 ∗ owns (c : Thread nD τ) arg11 fullShare y11
            ∗ (∃ d, owns (c : Thread nD τ) arg12 fullShare d) ∗ (∃ d, owns (c : Thread nD τ) arg13 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ owns (c : Thread nD τ) arg10 fullShare y10 ∗ owns (c : Thread nD τ) arg11 fullShare y11
                ∗ (∃ f, arg12.view.loc (c : Thread nD τ) ↦[arg12.view.set]{fullShare} arg12.view.writes (Elt F) f LA)
                ∗ (∃ f, arg13.view.loc (c : Thread nD τ) ↦[arg13.view.set]{fullShare} arg13.view.writes (Elt F) f LQ)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun y10 y11 E K => ?run⟩
  case run =>
    simp only [cc0__edge_kernel_eq_skeleton]; unfold cc0__edge_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%f10, %hf10, H10⟩, ⟨%f11, %hf11, H11⟩,
      ⟨%da, %fa, -, HA⟩, ⟨%dq, %fq, -, HQ⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg10.eq_unread hf10; obtain rfl := harg11.eq_unread hf11
    sl_exec (disch := first | exact hf | exact hl)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [HA]; · iexists _; iexact HA
    iexists _; iexact HQ

end

end Cert.Kernel.R0

end
-- ==== Proof.WordEdgePassMiddle.lean ====
/-
  The edge pass at a MIDDLE tile (neither the first nor the last): the two accumulator rows hold what the tiles
  before left; the body computes the tile's pre-activations, stores the three tiles, and adds the tile's column
  sums of m and of m² to the rows. It stores nothing into the two one-row outputs.
-/
import proofs.«175570_j5823975653421_2_alg».proof.Proof.WordEdgePassShared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)

set_option maxHeartbeats 4000000 in
/-- What the body leaves in the three tile outputs and in the two accumulator rows, as lists of stored pieces,
    with the proof that from whole staging buffers (the six inputs and the two accumulator rows at given contents,
    the three tile outputs at anything, the two one-row outputs at contents handed back untouched) the body runs
    to its end. -/
noncomputable def runMiddle (hf : ¬ atFirst i) (hl : ¬ atLast i)
    (x1 x2 x3 x4 : Vec F S8000x64 .f32) (x5 : Vec F S64x64 .f32) (x6 : Vec F S64 .f32) (xa xq : Vec F S1x64 .f32) :
    Σ' (L7 L8 L9 : List (View.Piece (Elt F) S8000x64 .f32)) (LA : List (View.Piece (Elt F) S1x64 .f32)),
      { LQ : List (View.Piece (Elt F) S1x64 .f32) //
      ∀ (y10 y11 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare y10 ∗ owns (c : Thread nD τ) arg11 fullShare y11
            ∗ owns (c : Thread nD τ) arg12 fullShare xa ∗ owns (c : Thread nD τ) arg13 fullShare xq
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ owns (c : Thread nD τ) arg10 fullShare y10 ∗ owns (c : Thread nD τ) arg11 fullShare y11
                ∗ (∃ f, arg12.view.loc (c : Thread nD τ) ↦[arg12.view.set]{fullShare} arg12.view.writes (Elt F) f LA)
                ∗ (∃ f, arg13.view.loc (c : Thread nD τ) ↦[arg13.view.set]{fullShare} arg13.view.writes (Elt F) f LQ)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun y10 y11 E K => ?run⟩
  case run =>
    simp only [cc0__edge_kernel_eq_skeleton]; unfold cc0__edge_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%f10, %hf10, H10⟩, ⟨%f11, %hf11, H11⟩,
      ⟨%fa, %hfa, HA⟩, ⟨%fq, %hfq, HQ⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg10.eq_unread hf10; obtain rfl := harg11.eq_unread hf11
    obtain rfl := harg12.eq_unread hfa; obtain rfl := harg13.eq_unread hfq
    sl_exec (disch := first | exact hf | exact hl)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [HA]; · iexists _; iexact HA
    iexists _; iexact HQ

end

end Cert.Kernel.R0

end
-- ==== Proof.WordEdgePassLast.lean ====
/-
  The edge pass at its LAST tile: as at a middle tile the two accumulator rows hold what the tiles before left and
  the body adds this tile's column sums of m and of m² to them; it then copies the two rows, now the sums over all
  800000 edges, into the two one-row outputs.
-/
import proofs.«175570_j5823975653421_2_alg».proof.Proof.WordEdgePassShared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)

set_option maxHeartbeats 4000000 in
/-- What the body leaves in the five outputs and in the two accumulator rows, as lists of stored pieces, with the
    proof that from whole staging buffers (the six inputs and the two accumulator rows at given contents, the five
    outputs at anything) the body runs to its end. -/
noncomputable def runLast (hf : ¬ atFirst i) (hl : atLast i)
    (x1 x2 x3 x4 : Vec F S8000x64 .f32) (x5 : Vec F S64x64 .f32) (x6 : Vec F S64 .f32) (xa xq : Vec F S1x64 .f32) :
    Σ' (L7 L8 L9 : List (View.Piece (Elt F) S8000x64 .f32)) (L10 L11 LA : List (View.Piece (Elt F) S1x64 .f32)),
      { LQ : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ owns (c : Thread nD τ) arg12 fullShare xa ∗ owns (c : Thread nD τ) arg13 fullShare xq
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f LA)
                ∗ (∃ f, arg13.view.loc (c : Thread nD τ) ↦[arg13.view.set]{fullShare} arg13.view.writes (Elt F) f LQ)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__edge_kernel_eq_skeleton]; unfold cc0__edge_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%d10, %f10, -, H10⟩, ⟨%d11, %f11, -, H11⟩,
      ⟨%fa, %hfa, HA⟩, ⟨%fq, %hfq, HQ⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg12.eq_unread hfa; obtain rfl := harg13.eq_unread hfq
    sl_exec (disch := first | exact hf | exact hl)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HA]; · iexists _; iexact HA
    iexists _; iexact HQ

end

end Cert.Kernel.R0

end
-- ==== Proof.WordEdgePassData.lean ====
/-
  The edge pass over its 100 tiles: what every buffer holds tile by tile.

  A tile's three outputs (the pre-activations m, their logistic, the gated product) depend on that tile's blocks
  only. The two accumulator rows are carried: after tile n they hold the column sums of m and of m² over tiles
  0..n, the first tile starting from rows it has just cleared. The two one-row outputs are stored at the last tile
  only, with the accumulator rows' final contents. All of this is stated through the pieces each kind of tile
  stores, read back; the recursion over the tile number threads the accumulator rows from one tile to the next.
-/
import proofs.«175570_j5823975653421_2_alg».proof.Proof.WordEdgePassFirst
import proofs.«175570_j5823975653421_2_alg».proof.Proof.WordEdgePassMiddle
import proofs.«175570_j5823975653421_2_alg».proof.Proof.WordEdgePassLast

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and staging buffers -/

/-- Window `w`'s block at tile `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every tile, fetched there or not (the weight matrix and the
    bias are fetched at the first tile only and their block never moves), for any proof data whose array is the
    region-entry one and whose body leaves the block in place. -/
theorem held0_of {c : Dev nD} (dat : Dat τ (Elt F) Unit ℕ (UR sig nD τ) ℕ cfg0 c) (hA : dat.A 0 = V c (Pipeline.arrRef spec0 0))
    (hkept : ∀ t, dat.after 0 t = blk V c 0 t) (t : Fin cfg0.N) (d) : dat.before 0 t d = blk V c 0 t :=
  (dat.before_in_eq_fetched 0 rfl (fun _ => rfl) (fun _ _ _ => rfl) (fun t => by rw [hkept]; unfold Dat.blockOf blk; rw [hA]; try rfl) t d).trans
    (by unfold Dat.fetched Dat.blockOf blk; rw [hA]; try rfl)
theorem held1_of {c : Dev nD} (dat : Dat τ (Elt F) Unit ℕ (UR sig nD τ) ℕ cfg0 c) (hA : dat.A 1 = V c (Pipeline.arrRef spec0 1))
    (hkept : ∀ t, dat.after 1 t = blk V c 1 t) (t : Fin cfg0.N) (d) : dat.before 1 t d = blk V c 1 t :=
  (dat.before_in_eq_fetched 1 rfl (fun _ => rfl) (fun _ _ _ => rfl) (fun t => by rw [hkept]; unfold Dat.blockOf blk; rw [hA]; try rfl) t d).trans
    (by unfold Dat.fetched Dat.blockOf blk; rw [hA]; try rfl)
theorem held2_of {c : Dev nD} (dat : Dat τ (Elt F) Unit ℕ (UR sig nD τ) ℕ cfg0 c) (hA : dat.A 2 = V c (Pipeline.arrRef spec0 2))
    (hkept : ∀ t, dat.after 2 t = blk V c 2 t) (t : Fin cfg0.N) (d) : dat.before 2 t d = blk V c 2 t :=
  (dat.before_in_eq_fetched 2 rfl (fun _ => rfl) (fun _ _ _ => rfl) (fun t => by rw [hkept]; unfold Dat.blockOf blk; rw [hA]; try rfl) t d).trans
    (by unfold Dat.fetched Dat.blockOf blk; rw [hA]; try rfl)
theorem held3_of {c : Dev nD} (dat : Dat τ (Elt F) Unit ℕ (UR sig nD τ) ℕ cfg0 c) (hA : dat.A 3 = V c (Pipeline.arrRef spec0 3))
    (hkept : ∀ t, dat.after 3 t = blk V c 3 t) (t : Fin cfg0.N) (d) : dat.before 3 t d = blk V c 3 t :=
  (dat.before_in_eq_fetched 3 rfl (fun _ => rfl) (fun _ _ _ => rfl) (fun t => by rw [hkept]; unfold Dat.blockOf blk; rw [hA]; try rfl) t d).trans
    (by unfold Dat.fetched Dat.blockOf blk; rw [hA]; try rfl)
theorem held4_of {c : Dev nD} (dat : Dat τ (Elt F) Unit ℕ (UR sig nD τ) ℕ cfg0 c) (hA : dat.A 4 = V c (Pipeline.arrRef spec0 4))
    (hkept : ∀ t, dat.after 4 t = blk V c 4 t) (t : Fin cfg0.N) (d) : dat.before 4 t d = blk V c 4 t :=
  (dat.before_in_eq_fetched 4 rfl (fun _ => rfl) (fun _ _ _ => rfl) (fun t => by rw [hkept]; unfold Dat.blockOf blk; rw [hA]; try rfl) t d).trans
    (by unfold Dat.fetched Dat.blockOf blk; rw [hA]; try rfl)
theorem held5_of {c : Dev nD} (dat : Dat τ (Elt F) Unit ℕ (UR sig nD τ) ℕ cfg0 c) (hA : dat.A 5 = V c (Pipeline.arrRef spec0 5))
    (hkept : ∀ t, dat.after 5 t = blk V c 5 t) (t : Fin cfg0.N) (d) : dat.before 5 t d = blk V c 5 t :=
  (dat.before_in_eq_fetched 5 rfl (fun _ => rfl) (fun _ _ _ => rfl) (fun t => by rw [hkept]; unfold Dat.blockOf blk; rw [hA]; try rfl) t d).trans
    (by unfold Dat.fetched Dat.blockOf blk; rw [hA]; try rfl)

/-- Each window's current staging buffer at tile `t`, as the pipeline passes it to the body, and its wholeness. -/
abbrev ms0 (t : Fin cfg0.N) : Memref sig .tc .vmem S8000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8000x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8000x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8000x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8000x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8000x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8000x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)

/-! ## Stored pieces read back -/

/-- One staging buffer of a tile output and one of a one-row buffer, through which contents are stated (which one
    does not matter once the pieces cover the buffer). -/
abbrev tileV : View sig .tc .vmem S8000x64 .f32 := (Memref.whole cc0_stg6_0 : Memref sig .tc .vmem S8000x64 .f32).view
abbrev rowV : View sig .tc .vmem S1x64 .f32 := (Memref.whole cc0_stg9_0 : Memref sig .tc .vmem S1x64 .f32).view

def readTile (L : List (View.Piece (Elt F) S8000x64 .f32)) : Vec F S8000x64 .f32 := tileV.read (Elt F) (tileV.writes (Elt F) tileV.junk L)
def readRow (L : List (View.Piece (Elt F) S1x64 .f32)) : Vec F S1x64 .f32 := rowV.read (Elt F) (rowV.writes (Elt F) rowV.junk L)

/-- What the seven buffers the body stores into hold after a tile: the three tile outputs, the two one-row
    outputs, the two accumulator rows. -/
structure TileState (F : FTy → Type) [FloatOps F] where
  m : Vec F S8000x64 .f32
  s : Vec F S8000x64 .f32
  g : Vec F S8000x64 .f32
  sumOut : Vec F S1x64 .f32
  sqOut : Vec F S1x64 .f32
  acc : Vec F S1x64 .f32
  accSq : Vec F S1x64 .f32

/-! ## The three kinds of tile at a point of the grid -/

section Point
variable (c : Dev nD) (t : Fin cfg0.N)

abbrev firstAt (hf : atFirst (grid0.coords t)) (hl : ¬ atLast (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) accSqM (Memref.isWhole_whole _) hf hl (blk V c 0 t) (blk V c 1 t) (blk V c 2 t) (blk V c 3 t) (blk V c 4 t) (blk V c 5 t)
abbrev middleAt (hf : ¬ atFirst (grid0.coords t)) (hl : ¬ atLast (grid0.coords t)) (xa xq : Vec F S1x64 .f32) :=
  runMiddle (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) accSqM (Memref.isWhole_whole _) hf hl (blk V c 0 t) (blk V c 1 t) (blk V c 2 t) (blk V c 3 t) (blk V c 4 t) (blk V c 5 t) xa xq
abbrev lastAt (hf : ¬ atFirst (grid0.coords t)) (hl : atLast (grid0.coords t)) (xa xq : Vec F S1x64 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) accSqM (Memref.isWhole_whole _) hf hl (blk V c 0 t) (blk V c 1 t) (blk V c 2 t) (blk V c 3 t) (blk V c 4 t) (blk V c 5 t) xa xq

/-- The first tile's state: the one-row outputs are not stored (placeholders nothing consults). -/
def firstState (hf : atFirst (grid0.coords t)) (hl : ¬ atLast (grid0.coords t)) : TileState F :=
  ⟨readTile (firstAt V c t hf hl).1, readTile (firstAt V c t hf hl).2.1, readTile (firstAt V c t hf hl).2.2.1, readRow [], readRow [],
   readRow (firstAt V c t hf hl).2.2.2.1, readRow (firstAt V c t hf hl).2.2.2.2.1⟩
/-- A middle tile's state over the accumulator rows the tile before left. -/
def middleState (hf : ¬ atFirst (grid0.coords t)) (hl : ¬ atLast (grid0.coords t)) (p : TileState F) : TileState F :=
  ⟨readTile (middleAt V c t hf hl p.acc p.accSq).1, readTile (middleAt V c t hf hl p.acc p.accSq).2.1, readTile (middleAt V c t hf hl p.acc p.accSq).2.2.1, readRow [], readRow [],
   readRow (middleAt V c t hf hl p.acc p.accSq).2.2.2.1, readRow (middleAt V c t hf hl p.acc p.accSq).2.2.2.2.1⟩
/-- The last tile's state over the accumulator rows the tile before left. -/
def lastState (hf : ¬ atFirst (grid0.coords t)) (hl : atLast (grid0.coords t)) (p : TileState F) : TileState F :=
  ⟨readTile (lastAt V c t hf hl p.acc p.accSq).1, readTile (lastAt V c t hf hl p.acc p.accSq).2.1, readTile (lastAt V c t hf hl p.acc p.accSq).2.2.1,
   readRow (lastAt V c t hf hl p.acc p.accSq).2.2.2.1, readRow (lastAt V c t hf hl p.acc p.accSq).2.2.2.2.1,
   readRow (lastAt V c t hf hl p.acc p.accSq).2.2.2.2.2.1, readRow (lastAt V c t hf hl p.acc p.accSq).2.2.2.2.2.2.1⟩

end Point

/-! ## The state tile by tile -/

/-- The state after the tile at position `n`: the first tile's at 0; afterwards the last tile's at 99 and a middle
    tile's elsewhere, each over the state at `n - 1`. -/
def stateAt (c : Dev nD) : (n : ℕ) → n < cfg0.N → TileState F
  | 0, hn => firstState V c ⟨0, hn⟩ ((atFirst_iff ⟨0, hn⟩).mpr rfl) (fun h => absurd ((atLast_iff ⟨0, hn⟩).mp h) (show ¬ (0 : ℕ) = 99 by decide))
  | n + 1, hn =>
    if h : n + 1 = 99 then
      lastState V c ⟨n + 1, hn⟩ (fun hf => absurd ((atFirst_iff ⟨n + 1, hn⟩).mp hf) (Nat.succ_ne_zero n)) ((atLast_iff ⟨n + 1, hn⟩).mpr h) (stateAt c n (Nat.lt_of_succ_lt hn))
    else
      middleState V c ⟨n + 1, hn⟩ (fun hf => absurd ((atFirst_iff ⟨n + 1, hn⟩).mp hf) (Nat.succ_ne_zero n)) (fun hl => h ((atLast_iff ⟨n + 1, hn⟩).mp hl)) (stateAt c n (Nat.lt_of_succ_lt hn))

theorem stateAt_first (c : Dev nD) (t : Fin cfg0.N) (h : t.val = 0) :
    stateAt V c t.val t.isLt = firstState V c t ((atFirst_iff t).mpr h) (fun hl => by have := (atLast_iff t).mp hl; omega) := by
  obtain ⟨n, hn⟩ := t
  cases n with
  | zero => exact rfl
  | succ n => exact absurd h (Nat.succ_ne_zero n)

theorem stateAt_middle (c : Dev nD) (t : Fin cfg0.N) (h0 : t.val ≠ 0) (h99 : t.val ≠ 99) :
    stateAt V c t.val t.isLt = middleState V c t (fun hf => h0 ((atFirst_iff t).mp hf)) (fun hl => h99 ((atLast_iff t).mp hl))
      (stateAt V c (t.val - 1) (by have := t.isLt; omega)) := by
  obtain ⟨n, hn⟩ := t
  cases n with
  | zero => exact absurd rfl h0
  | succ n => exact (dif_neg h99).trans rfl

theorem stateAt_last (c : Dev nD) (t : Fin cfg0.N) (h0 : t.val ≠ 0) (h99 : t.val = 99) :
    stateAt V c t.val t.isLt = lastState V c t (fun hf => h0 ((atFirst_iff t).mp hf)) ((atLast_iff t).mpr h99)
      (stateAt V c (t.val - 1) (by have := t.isLt; omega)) := by
  obtain ⟨n, hn⟩ := t
  cases n with
  | zero => exact absurd rfl h0
  | succ n => exact (dif_pos h99).trans rfl

/-! ## The invariant carried from tile to tile -/

/-- The scoped buffers that belong to the other region's pipeline, each whole at some contents: they ride along. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the launch hands the region, with the two accumulator rows as memrefs owned at some contents. -/
theorem PhiA_eq (c : Dev nD) :
    (Pipeline.ΦA spec0 c : sProp 𝕄)
      = iprop(iprop((∃ d, owns (c : Thread nD τ) accM fullShare d) ∗ (∃ d, owns (c : Thread nD τ) accSqM fullShare d) ∗ others c) ∗ (∃ r, prngReg c r)) := by
  unfold Pipeline.ΦA others; rw [scopedRest0_eq]; simp only [accM, accSqM, owns_whole]; try rfl

/-- Before position `n`: at the first tile what the launch hands over (the accumulator rows at anything); afterwards
    the accumulator rows at what the tile before left, the other region's buffers and the generator register at
    some state. -/
def inv (c : Dev nD) : (n : ℕ) → n ≤ cfg0.N → sProp 𝕄
  | 0, _ => Pipeline.ΦA spec0 c
  | n + 1, hn => iprop(iprop(owns (c : Thread nD τ) accM fullShare (stateAt V c n hn).acc ∗ owns (c : Thread nD τ) accSqM fullShare (stateAt V c n hn).accSq ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) accM fullShare (stateAt V c n hn).acc ∗ owns (c : Thread nD τ) accSqM fullShare (stateAt V c n hn).accSq ∗ others c) ∗ (∃ r, prngReg c r)) := rfl
theorem inv_pos (c : Dev nD) (n : ℕ) (h : n ≤ cfg0.N) (hz : n ≠ 0) :
    inv V c n h = iprop(iprop(owns (c : Thread nD τ) accM fullShare (stateAt V c (n - 1) (by omega)).acc ∗ owns (c : Thread nD τ) accSqM fullShare (stateAt V c (n - 1) (by omega)).accSq ∗ others c) ∗ (∃ r, prngReg c r)) := by
  cases n with
  | zero => exact absurd rfl hz
  | succ n => rfl

/-! ## The proof data -/

/-- The region's proof data on core `c`: the arrays as the region finds them; after the body at tile `t` each
    input's buffer at its block and each output's at the tile state's component; the invariant above; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (stateAt V c t.val t.isLt).m
    | ⟨7, _⟩ => (stateAt V c t.val t.isLt).s
    | ⟨8, _⟩ => (stateAt V c t.val t.isLt).g
    | ⟨9, _⟩ => (stateAt V c t.val t.isLt).sumOut
    | ⟨10, _⟩ => (stateAt V c t.val t.isLt).sqOut
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; simp only [Fin.coe_castSucc]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = (stateAt V c t.val t.isLt).m := by dsimp only [dat]
theorem after_7 (c : Dev nD) (t : Fin cfg0.N) : (dat V c).after 7 t = (stateAt V c t.val t.isLt).s := by dsimp only [dat]
theorem after_8 (c : Dev nD) (t : Fin cfg0.N) : (dat V c).after 8 t = (stateAt V c t.val t.isLt).g := by dsimp only [dat]
theorem after_9 (c : Dev nD) (t : Fin cfg0.N) : (dat V c).after 9 t = (stateAt V c t.val t.isLt).sumOut := by dsimp only [dat]
theorem after_10 (c : Dev nD) (t : Fin cfg0.N) : (dat V c).after 10 t = (stateAt V c t.val t.isLt).sqOut := by dsimp only [dat]

theorem before_0 (c : Dev nD) (t : Fin cfg0.N) (d) : (dat V c).before 0 t d = blk V c 0 t :=
  held0_of V (dat V c) (A_eq V c 0) (after_0 V c) t d
theorem before_1 (c : Dev nD) (t : Fin cfg0.N) (d) : (dat V c).before 1 t d = blk V c 1 t :=
  held1_of V (dat V c) (A_eq V c 1) (after_1 V c) t d
theorem before_2 (c : Dev nD) (t : Fin cfg0.N) (d) : (dat V c).before 2 t d = blk V c 2 t :=
  held2_of V (dat V c) (A_eq V c 2) (after_2 V c) t d
theorem before_3 (c : Dev nD) (t : Fin cfg0.N) (d) : (dat V c).before 3 t d = blk V c 3 t :=
  held3_of V (dat V c) (A_eq V c 3) (after_3 V c) t d
theorem before_4 (c : Dev nD) (t : Fin cfg0.N) (d) : (dat V c).before 4 t d = blk V c 4 t :=
  held4_of V (dat V c) (A_eq V c 4) (after_4 V c) t d
theorem before_5 (c : Dev nD) (t : Fin cfg0.N) (d) : (dat V c).before 5 t d = blk V c 5 t :=
  held5_of V (dat V c) (A_eq V c 5) (after_5 V c) t d

end Cert.Kernel.R0

end
-- ==== Proof.WordEdgePassCovers.lean ====
/-
  Every buffer the edge pass stores into is stored WHOLE: at each kind of tile the pieces stored into a buffer
  tile it completely (one piece, the whole block or the whole row). So what the buffer holds afterwards does not
  depend on what it held before, and can be read back through any view of that shape.
-/
import proofs.«175570_j5823975653421_2_alg».proof.Proof.WordEdgePassFirst
import proofs.«175570_j5823975653421_2_alg».proof.Proof.WordEdgePassMiddle
import proofs.«175570_j5823975653421_2_alg».proof.Proof.WordEdgePassLast

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section First
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : atFirst i) (hl : ¬ atLast i) (x1 x2 x3 x4 : Vec F S8000x64 .f32) (x5 : Vec F S64x64 .f32) (x6 : Vec F S64 .f32)
theorem coverFirst_m (y : S8000x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).1 S8000x64.size (by sl_kernel_rfl) y
theorem coverFirst_s (y : S8000x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.1 S8000x64.size (by sl_kernel_rfl) y
theorem coverFirst_g (y : S8000x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.1 S8000x64.size (by sl_kernel_rfl) y
theorem coverFirst_acc (y : S1x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.1 S1x64.size (by sl_kernel_rfl) y
theorem coverFirst_accSq (y : S1x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.2.1 S1x64.size (by sl_kernel_rfl) y
end First

section Middle
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : ¬ atFirst i) (hl : ¬ atLast i) (x1 x2 x3 x4 : Vec F S8000x64 .f32) (x5 : Vec F S64x64 .f32) (x6 : Vec F S64 .f32) (xa xq : Vec F S1x64 .f32)
theorem coverMiddle_m (y : S8000x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1 S8000x64.size (by sl_kernel_rfl) y
theorem coverMiddle_s (y : S8000x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1 S8000x64.size (by sl_kernel_rfl) y
theorem coverMiddle_g (y : S8000x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1 S8000x64.size (by sl_kernel_rfl) y
theorem coverMiddle_acc (y : S1x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1 S1x64.size (by sl_kernel_rfl) y
theorem coverMiddle_accSq (y : S1x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1 S1x64.size (by sl_kernel_rfl) y
end Middle

section Last
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : ¬ atFirst i) (hl : atLast i) (x1 x2 x3 x4 : Vec F S8000x64 .f32) (x5 : Vec F S64x64 .f32) (x6 : Vec F S64 .f32) (xa xq : Vec F S1x64 .f32)
theorem coverLast_m (y : S8000x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1 S8000x64.size (by sl_kernel_rfl) y
theorem coverLast_s (y : S8000x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1 S8000x64.size (by sl_kernel_rfl) y
theorem coverLast_g (y : S8000x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1 S8000x64.size (by sl_kernel_rfl) y
theorem coverLast_sumOut (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1 S1x64.size (by sl_kernel_rfl) y
theorem coverLast_sqOut (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1 S1x64.size (by sl_kernel_rfl) y
theorem coverLast_acc (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.1 S1x64.size (by sl_kernel_rfl) y
theorem coverLast_accSq (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.2.1 S1x64.size (by sl_kernel_rfl) y
end Last

end Cert.Kernel.R0

end
-- ==== Proof.WordEdgePassBody.lean ====
/-
  The edge pass: the body's obligation at every tile.

  At a tile the pipeline hands the body the six inputs' staging buffers at their blocks, the five outputs' at
  whatever they hold, and the invariant (the accumulator rows at what the tile before left, or at anything before
  the first tile). The tile is the first, a middle one or the last; in each case the corresponding run applies, the
  stored pieces cover each stored buffer, and what comes back is the next tile's invariant and every buffer at the
  tile state's component — the two one-row outputs untouched except at the last tile.
-/
import proofs.«175570_j5823975653421_2_alg».proof.Proof.WordEdgePassData
import proofs.«175570_j5823975653421_2_alg».proof.Proof.WordEdgePassCovers

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at tile `t`: the invariant, the core owing nothing, the eleven windows' current
    staging buffers at what they then hold, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  rw [show (dat V c).leavesExact 4 t = owns (c : Thread nD τ) (ms4 t) fullShare ((dat V c).after 4 t) from by
    unfold Dat.leavesExact; rw [live_in 4 (by decide) t], after_4]
  rw [show (dat V c).leavesExact 5 t = owns (c : Thread nD τ) (ms5 t) fullShare ((dat V c).after 5 t) from by
    unfold Dat.leavesExact; rw [live_in 5 (by decide) t], after_5]
  rw [show (dat V c).leavesExact 6 t = owns (c : Thread nD τ) (ms6 t) fullShare ((dat V c).after 6 t) from by
    unfold Dat.leavesExact; rw [live_in 6 (by decide) t], after_6]
  rw [show (dat V c).leavesExact 7 t = owns (c : Thread nD τ) (ms7 t) fullShare ((dat V c).after 7 t) from by
    unfold Dat.leavesExact; rw [live_in 7 (by decide) t], after_7]
  rw [show (dat V c).leavesExact 8 t = owns (c : Thread nD τ) (ms8 t) fullShare ((dat V c).after 8 t) from by
    unfold Dat.leavesExact; rw [live_in 8 (by decide) t], after_8]
  have hN : t.val < 100 := lt_of_lt_of_eq t.isLt (show cfg0.N = 100 from N_0)
  by_cases h0 : t.val = 0
  · -- the first tile
    have hf : atFirst (grid0.coords t) := (atFirst_iff t).mpr h0
    have hl : ¬ atLast (grid0.coords t) := fun h => by have := (atLast_iff t).mp h; omega
    rw [Dat.leavesExact_idle (dat V c) 9 t (idle_sum t hl) (noFlush_sum t hl), Dat.leavesExact_idle (dat V c) 10 t (idle_sumsq t hl) (noFlush_sumsq t hl)]
    rw [stateAt_first V c t h0]
    unfold firstState; dsimp only
    rw [inv_castSucc V c t, inv_zero V c _ _ h0, PhiA_eq]
    iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstAt V c t hf hl).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [HA]; · iexact HA
    isplitl [HQ]; · iexact HQ
    iintro ⟨H0, H1, H2, H3, H4, H5, ⟨%e6, H6⟩, ⟨%e7, H7⟩, ⟨%e8, H8⟩, H9, H10, ⟨%ea, HA⟩, ⟨%eq, HQ⟩⟩
    isplitl [HA HQ Hoth Hg]
    · isplitl [HA HQ Hoth]
      · isplitl [HA]
        · unfold owns readRow; iexists _; isplitr
          swap; · iexact HA
          ipureintro; exact View.read_writes_of_cover _ _ _ _ _ (coverFirst_acc c _ _ _ _ _ _ _ _ _ _ _ _ _ _ _ _ _ _ _ _ _ _ _ _ _ _ _ hf hl _ _ _ _ _ _)
        isplitl [HQ]
        · unfold owns readRow; iexists _; isplitr
          swap; · iexact HQ
          ipureintro; exact View.read_writes_of_cover _ _ _ _ _ (coverFirst_accSq c _ _ _ _ _ _ _ _ _ _ _ _ _ _ _ _ _ _ _ _ _ _ _ _ _ _ _ hf hl _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns readTile; iexists _; isplitr
      swap; · iexact H6
      ipureintro; exact View.read_writes_of_cover _ _ _ _ _ (coverFirst_m c _ _ _ _ _ _ _ _ _ _ _ _ _ _ _ _ _ _ _ _ _ _ _ _ _ _ _ hf hl _ _ _ _ _ _)
    isplitl [H7]
    · unfold owns readTile; iexists _; isplitr
      swap; · iexact H7
      ipureintro; exact View.read_writes_of_cover _ _ _ _ _ (coverFirst_s c _ _ _ _ _ _ _ _ _ _ _ _ _ _ _ _ _ _ _ _ _ _ _ _ _ _ _ hf hl _ _ _ _ _ _)
    isplitl [H8]
    · unfold owns readTile; iexists _; isplitr
      swap; · iexact H8
      ipureintro; exact View.read_writes_of_cover _ _ _ _ _ (coverFirst_g c _ _ _ _ _ _ _ _ _ _ _ _ _ _ _ _ _ _ _ _ _ _ _ _ _ _ _ hf hl _ _ _ _ _ _)
    isplitl [H9]; · iexists _; iexact H9
    iexists _; iexact H10
  · by_cases h99 : t.val = 99
    · -- the last tile
      have hf : ¬ atFirst (grid0.coords t) := fun h => h0 ((atFirst_iff t).mp h)
      have hl : atLast (grid0.coords t) := (atLast_iff t).mpr h99
      rw [show (dat V c).leavesExact 9 t = owns (c : Thread nD τ) (ms9 t) fullShare ((dat V c).after 9 t) from by
        unfold Dat.leavesExact; rw [live_sum t hl], after_9]
      rw [show (dat V c).leavesExact 10 t = owns (c : Thread nD τ) (ms10 t) fullShare ((dat V c).after 10 t) from by
        unfold Dat.leavesExact; rw [live_sumsq t hl], after_10]
      rw [stateAt_last V c t h0 h99]
      unfold lastState; dsimp only
      rw [inv_castSucc V c t, inv_pos V c _ _ h0]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t hf hl _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HA]; · iexact HA
      isplitl [HQ]; · iexact HQ
      iintro ⟨H0, H1, H2, H3, H4, H5, ⟨%e6, H6⟩, ⟨%e7, H7⟩, ⟨%e8, H8⟩, ⟨%e9, H9⟩, ⟨%e10, H10⟩, ⟨%ea, HA⟩, ⟨%eq, HQ⟩⟩
      isplitl [HA HQ Hoth Hg]
      · isplitl [HA HQ Hoth]
        · isplitl [HA]
          · unfold owns readRow; iexists _; isplitr
            swap; · iexact HA
            ipureintro; exact View.read_writes_of_cover _ _ _ _ _ (coverLast_acc c _ _ _ _ _ _ _ _ _ _ _ _ _ _ _ _ _ _ _ _ _ _ _ _ _ _ _ hf hl _ _ _ _ _ _ _ _)
          isplitl [HQ]
          · unfold owns readRow; iexists _; isplitr
            swap; · iexact HQ
            ipureintro; exact View.read_writes_of_cover _ _ _ _ _ (coverLast_accSq c _ _ _ _ _ _ _ _ _ _ _ _ _ _ _ _ _ _ _ _ _ _ _ _ _ _ _ hf hl _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns readTile; iexists _; isplitr
        swap; · iexact H6
        ipureintro; exact View.read_writes_of_cover _ _ _ _ _ (coverLast_m c _ _ _ _ _ _ _ _ _ _ _ _ _ _ _ _ _ _ _ _ _ _ _ _ _ _ _ hf hl _ _ _ _ _ _ _ _)
      isplitl [H7]
      · unfold owns readTile; iexists _; isplitr
        swap; · iexact H7
        ipureintro; exact View.read_writes_of_cover _ _ _ _ _ (coverLast_s c _ _ _ _ _ _ _ _ _ _ _ _ _ _ _ _ _ _ _ _ _ _ _ _ _ _ _ hf hl _ _ _ _ _ _ _ _)
      isplitl [H8]
      · unfold owns readTile; iexists _; isplitr
        swap; · iexact H8
        ipureintro; exact View.read_writes_of_cover _ _ _ _ _ (coverLast_g c _ _ _ _ _ _ _ _ _ _ _ _ _ _ _ _ _ _ _ _ _ _ _ _ _ _ _ hf hl _ _ _ _ _ _ _ _)
      isplitl [H9]
      · unfold owns readRow; iexists _; isplitr
        swap; · iexact H9
        ipureintro; exact View.read_writes_of_cover _ _ _ _ _ (coverLast_sumOut c _ _ _ _ _ _ _ _ _ _ _ _ _ _ _ _ _ _ _ _ _ _ _ _ _ _ _ hf hl _ _ _ _ _ _ _ _)
      unfold owns readRow; iexists _; isplitr
      swap; · iexact H10
      ipureintro; exact View.read_writes_of_cover _ _ _ _ _ (coverLast_sqOut c _ _ _ _ _ _ _ _ _ _ _ _ _ _ _ _ _ _ _ _ _ _ _ _ _ _ _ hf hl _ _ _ _ _ _ _ _)
    · -- a middle tile
      have hf : ¬ atFirst (grid0.coords t) := fun h => h0 ((atFirst_iff t).mp h)
      have hl : ¬ atLast (grid0.coords t) := fun h => h99 ((atLast_iff t).mp h)
      rw [Dat.leavesExact_idle (dat V c) 9 t (idle_sum t hl) (noFlush_sum t hl), Dat.leavesExact_idle (dat V c) 10 t (idle_sumsq t hl) (noFlush_sumsq t hl)]
      rw [stateAt_middle V c t h0 h99]
      unfold middleState; dsimp only
      rw [inv_castSucc V c t, inv_pos V c _ _ h0]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((middleAt V c t hf hl _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [H10]; · iexact H10
      isplitl [HA]; · iexact HA
      isplitl [HQ]; · iexact HQ
      iintro ⟨H0, H1, H2, H3, H4, H5, ⟨%e6, H6⟩, ⟨%e7, H7⟩, ⟨%e8, H8⟩, H9, H10, ⟨%ea, HA⟩, ⟨%eq, HQ⟩⟩
      isplitl [HA HQ Hoth Hg]
      · isplitl [HA HQ Hoth]
        · isplitl [HA]
          · unfold owns readRow; iexists _; isplitr
            swap; · iexact HA
            ipureintro; exact View.read_writes_of_cover _ _ _ _ _ (coverMiddle_acc c _ _ _ _ _ _ _ _ _ _ _ _ _ _ _ _ _ _ _ _ _ _ _ _ _ _ _ hf hl _ _ _ _ _ _ _ _)
          isplitl [HQ]
          · unfold owns readRow; iexists _; isplitr
            swap; · iexact HQ
            ipureintro; exact View.read_writes_of_cover _ _ _ _ _ (coverMiddle_accSq c _ _ _ _ _ _ _ _ _ _ _ _ _ _ _ _ _ _ _ _ _ _ _ _ _ _ _ hf hl _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns readTile; iexists _; isplitr
        swap; · iexact H6
        ipureintro; exact View.read_writes_of_cover _ _ _ _ _ (coverMiddle_m c _ _ _ _ _ _ _ _ _ _ _ _ _ _ _ _ _ _ _ _ _ _ _ _ _ _ _ hf hl _ _ _ _ _ _ _ _)
      isplitl [H7]
      · unfold owns readTile; iexists _; isplitr
        swap; · iexact H7
        ipureintro; exact View.read_writes_of_cover _ _ _ _ _ (coverMiddle_s c _ _ _ _ _ _ _ _ _ _ _ _ _ _ _ _ _ _ _ _ _ _ _ _ _ _ _ hf hl _ _ _ _ _ _ _ _)
      isplitl [H8]
      · unfold owns readTile; iexists _; isplitr
        swap; · iexact H8
        ipureintro; exact View.read_writes_of_cover _ _ _ _ _ (coverMiddle_g c _ _ _ _ _ _ _ _ _ _ _ _ _ _ _ _ _ _ _ _ _ _ _ _ _ _ _ hf hl _ _ _ _ _ _ _ _)
      isplitl [H9]; · iexists _; iexact H9
      iexists _; iexact H10

/-- The body's obligation at every tile, in the library's two forms. -/
theorem body_obligation (c : Dev nD) : BodyObligation (dat (F := F) V c) (defs₀ (F := F)) Variants.none () Set.univ := fun t => by
  rw [bigSep_W0, bigSep_W0]
  exact sound_body V c t

theorem body_obligation_loose (c : Dev nD) : BodyObligationLoose (dat (F := F) V c) (defs₀ (F := F)) Variants.none () Set.univ :=
  (body_obligation V c).loose

/-- What the launch hands the region is the invariant before the first tile. -/
theorem inv_in (c : Dev nD) : Pipeline.ΦA spec0 c ⊢ (dat V c).Φ 0 := by
  rw [show (dat V c).Φ 0 = inv V c 0 (Nat.zero_le _) from rfl, inv_zero V c 0 _ rfl]

/-- After the last tile the invariant gives it back: the accumulator rows' named contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 100 := N_0; omega), PhiA_eq]
  iintro ⟨⟨HA, HQ, Hoth⟩, Hg⟩
  isplitl [HA HQ Hoth]
  · isplitl [HA]; · iexists _; iexact HA
    isplitl [HQ]; · iexists _; iexact HQ
    iexact Hoth
  iexact Hg

end Cert.Kernel.R0

end
-- ==== Proof.WordRegion1.lean ====
/- The edge normalisation region, one grid point at a time.

   The region walks 50 grid points. At point `i` it is handed rows `8000·i … 8000·i + 7999` of two
   [400000,128] arrays — the edge pre-activations `x` and the edge features `ef`, each row holding two
   consecutive edges of 64 channels — and, whole, four per-lane rows: the channel means and variances
   ([1,128]) and the scale and shift ([128]), each the 64 channel values written twice. It writes rows
   `8000·i … 8000·i + 7999` of the [400000,128] result: entry by entry
       ef + z · logistic z,   z = ((x − mean) · rsqrt (var + ε)) · scale + shift.
   Nothing is carried from one point to the next: the body reads its six blocks, computes, and overwrites the
   whole output block once. So what a point leaves in the output block is ONE pure function of the six input
   blocks (`normOut`), and the region's proof data say exactly that at every point.

   Everything here holds for any float instance `F` and is stated over a PARAMETER `V`: the contents of the
   core's buffers when the region is entered. -/
import proofs.«175570_j5823975653421_2_alg».proof.Proof.Gen.Kernel.Launch
import proofs.«175570_j5823975653421_2_alg».proof.Proof.Gen.Kernel.Skeleton
import proofs.«175570_j5823975653421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural check recurses once per coordinate of the long axis
set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the part of the window's array, as the region finds it, that the
    point is handed (rows `8000·t …` of a [400000,128] array; the whole of a per-lane row). -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0 (the pre-activations, two edges per row): at every grid point its staging buffer holds the window's block there, whether or
    not the block was transferred at that point — a block that is not transferred again has an index that did
    not move, so the buffer still holds it. Stated for any proof data whose array for the window is `V`'s and
    whose body leaves the block in place. -/
theorem held0_of {c : Dev nD} (dat : Dat τ (Elt F) Unit ℕ (UR sig nD τ) ℕ cfg1 c)
    (hA : dat.A 0 = V c (Pipeline.arrRef spec1 0)) (hkept : ∀ t, dat.after 0 t = blk V c 0 t)
    (t : Fin cfg1.N) (d) : dat.before 0 t d = blk V c 0 t :=
  (dat.before_in_eq_fetched 0 rfl (fun _ => rfl) (fun _ _ _ => rfl)
      (fun t => by rw [hkept]; unfold Dat.blockOf blk; rw [hA]; try rfl) t d).trans
    (by unfold Dat.fetched Dat.blockOf blk; rw [hA]; try rfl)

/-- Input window 1 (the edge features, two edges per row): at every grid point its staging buffer holds the window's block there, whether or
    not the block was transferred at that point — a block that is not transferred again has an index that did
    not move, so the buffer still holds it. Stated for any proof data whose array for the window is `V`'s and
    whose body leaves the block in place. -/
theorem held1_of {c : Dev nD} (dat : Dat τ (Elt F) Unit ℕ (UR sig nD τ) ℕ cfg1 c)
    (hA : dat.A 1 = V c (Pipeline.arrRef spec1 1)) (hkept : ∀ t, dat.after 1 t = blk V c 1 t)
    (t : Fin cfg1.N) (d) : dat.before 1 t d = blk V c 1 t :=
  (dat.before_in_eq_fetched 1 rfl (fun _ => rfl) (fun _ _ _ => rfl)
      (fun t => by rw [hkept]; unfold Dat.blockOf blk; rw [hA]; try rfl) t d).trans
    (by unfold Dat.fetched Dat.blockOf blk; rw [hA]; try rfl)

/-- Input window 2 (the channel means, doubled): at every grid point its staging buffer holds the window's block there, whether or
    not the block was transferred at that point — a block that is not transferred again has an index that did
    not move, so the buffer still holds it. Stated for any proof data whose array for the window is `V`'s and
    whose body leaves the block in place. -/
theorem held2_of {c : Dev nD} (dat : Dat τ (Elt F) Unit ℕ (UR sig nD τ) ℕ cfg1 c)
    (hA : dat.A 2 = V c (Pipeline.arrRef spec1 2)) (hkept : ∀ t, dat.after 2 t = blk V c 2 t)
    (t : Fin cfg1.N) (d) : dat.before 2 t d = blk V c 2 t :=
  (dat.before_in_eq_fetched 2 rfl (fun _ => rfl) (fun _ _ _ => rfl)
      (fun t => by rw [hkept]; unfold Dat.blockOf blk; rw [hA]; try rfl) t d).trans
    (by unfold Dat.fetched Dat.blockOf blk; rw [hA]; try rfl)

/-- Input window 3 (the channel variances, doubled): at every grid point its staging buffer holds the window's block there, whether or
    not the block was transferred at that point — a block that is not transferred again has an index that did
    not move, so the buffer still holds it. Stated for any proof data whose array for the window is `V`'s and
    whose body leaves the block in place. -/
theorem held3_of {c : Dev nD} (dat : Dat τ (Elt F) Unit ℕ (UR sig nD τ) ℕ cfg1 c)
    (hA : dat.A 3 = V c (Pipeline.arrRef spec1 3)) (hkept : ∀ t, dat.after 3 t = blk V c 3 t)
    (t : Fin cfg1.N) (d) : dat.before 3 t d = blk V c 3 t :=
  (dat.before_in_eq_fetched 3 rfl (fun _ => rfl) (fun _ _ _ => rfl)
      (fun t => by rw [hkept]; unfold Dat.blockOf blk; rw [hA]; try rfl) t d).trans
    (by unfold Dat.fetched Dat.blockOf blk; rw [hA]; try rfl)

/-- Input window 4 (the scale, doubled): at every grid point its staging buffer holds the window's block there, whether or
    not the block was transferred at that point — a block that is not transferred again has an index that did
    not move, so the buffer still holds it. Stated for any proof data whose array for the window is `V`'s and
    whose body leaves the block in place. -/
theorem held4_of {c : Dev nD} (dat : Dat τ (Elt F) Unit ℕ (UR sig nD τ) ℕ cfg1 c)
    (hA : dat.A 4 = V c (Pipeline.arrRef spec1 4)) (hkept : ∀ t, dat.after 4 t = blk V c 4 t)
    (t : Fin cfg1.N) (d) : dat.before 4 t d = blk V c 4 t :=
  (dat.before_in_eq_fetched 4 rfl (fun _ => rfl) (fun _ _ _ => rfl)
      (fun t => by rw [hkept]; unfold Dat.blockOf blk; rw [hA]; try rfl) t d).trans
    (by unfold Dat.fetched Dat.blockOf blk; rw [hA]; try rfl)

/-- Input window 5 (the shift, doubled): at every grid point its staging buffer holds the window's block there, whether or
    not the block was transferred at that point — a block that is not transferred again has an index that did
    not move, so the buffer still holds it. Stated for any proof data whose array for the window is `V`'s and
    whose body leaves the block in place. -/
theorem held5_of {c : Dev nD} (dat : Dat τ (Elt F) Unit ℕ (UR sig nD τ) ℕ cfg1 c)
    (hA : dat.A 5 = V c (Pipeline.arrRef spec1 5)) (hkept : ∀ t, dat.after 5 t = blk V c 5 t)
    (t : Fin cfg1.N) (d) : dat.before 5 t d = blk V c 5 t :=
  (dat.before_in_eq_fetched 5 rfl (fun _ => rfl) (fun _ _ _ => rfl)
      (fun t => by rw [hkept]; unfold Dat.blockOf blk; rw [hA]; try rfl) t d).trans
    (by unfold Dat.fetched Dat.blockOf blk; rw [hA]; try rfl)

/-! ## What the body reads and writes -/

/-- The whole [8000,128] block, the whole [1,128] row and the whole [128] row: the body's only accesses. -/
abbrev tileRect : Rect S8000x128 := Rect.unit (s := S8000x128) ![0, 0] S8000x128.size inb_S8000x128_S8000x128_0_0
abbrev rowRect : Rect S1x128 := Rect.unit (s := S1x128) ![0, 0] S1x128.size inb_S1x128_S1x128_0_0
abbrev laneRect : Rect S128 := Rect.unit (s := S128) ![0] S128.size inb_S128_S128_0

/-- The output block after the body, as a function of the six input blocks: the body's single store, which
    covers the block, of the body's arithmetic (`k1_pay1`) applied to what its loads read. -/
def normOut (x ef : Vec F S8000x128 .f32) (mean var : Vec F S1x128 .f32) (g b : Vec F S128 .f32) :
    Vec F S8000x128 .f32 :=
  View.canon [⟨tileRect, k1_pay1 (View.ld x tileRect) (View.ld mean rowRect) (View.ld var rowRect)
    (View.ld g laneRect) (View.ld b laneRect) (View.ld ef tileRect)⟩]

/-- The single store is the whole block, so every entry of the block lies in it. -/
theorem normOut_covers (p : Vec F S8000x128 .f32) (y : S8000x128.Idx) :
    ∃ pc ∈ ([⟨tileRect, p⟩] : List (View.Piece (Elt F) S8000x128 .f32)), y ∈ pc.1.set :=
  View.cover_of_tiled [⟨tileRect, p⟩] S8000x128.size (by rfl) y

/-! ## The body's triple -/

set_option maxHeartbeats 1000000 in
/-- The body on seven whole staging buffers — the six inputs' reading `x, ef, mean, var, g, b`, the output's
    holding anything — runs to the end leaving the inputs' as they were and the output's reading
    `normOut x ef mean var g b`: six loads, a load of the output buffer whose value is never used, and one
    store over the whole output block. -/
theorem sound_kernel (c : Dev nD) (E : Set ℕ) (i : grid1.Coords)
    (arg1 : Memref sig .tc .vmem S8000x128 .f32) (harg1 : arg1.IsWhole)
    (arg2 : Memref sig .tc .vmem S8000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S8000x128 .f32) (harg7 : arg7.IsWhole)
    (x ef : Vec F S8000x128 .f32) (mean var : Vec F S1x128 .f32) (g b : Vec F S128 .f32)
    (K : PUnit → sProp 𝕄) :
    iprop(owns (c : Thread nD τ) arg1 fullShare x ∗ owns (c : Thread nD τ) arg2 fullShare ef
        ∗ owns (c : Thread nD τ) arg3 fullShare mean ∗ owns (c : Thread nD τ) arg4 fullShare var
        ∗ owns (c : Thread nD τ) arg5 fullShare g ∗ owns (c : Thread nD τ) arg6 fullShare b
        ∗ (∃ d, owns (c : Thread nD τ) arg7 fullShare d)
        ∗ (iprop(owns (c : Thread nD τ) arg1 fullShare x ∗ owns (c : Thread nD τ) arg2 fullShare ef
            ∗ owns (c : Thread nD τ) arg3 fullShare mean ∗ owns (c : Thread nD τ) arg4 fullShare var
            ∗ owns (c : Thread nD τ) arg5 fullShare g ∗ owns (c : Thread nD τ) arg6 fullShare b
            ∗ owns (c : Thread nD τ) arg7 fullShare (normOut x ef mean var g b)) -∗ K ⟨⟩))
      ⊢ wp frame (wpE (defs₀ (F := F)) Variants.none c none) E
          (cc1__norm_kernel i arg1 harg1 arg2 harg2 arg3 harg3 arg4 harg4 arg5 harg5 arg6 harg6 arg7 harg7) K := by
  simp only [cc1__norm_kernel_eq_skeleton]; unfold cc1__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (normOut_covers _)

/-! ## The region's proof data -/

/-- The proof data of the region on core `c`: each window's array as the region finds it (`V`); after the body
    at point `t` each input's buffer still at its block and the output's at `normOut` of the six input blocks;
    the invariant carried from point to point is only what the region does not touch (the scoped buffers no
    window stages and the generator register); nothing is owed to another core; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => normOut (blk V c 0 t) (blk V c 1 t) (blk V c 2 t) (blk V c 3 t) (blk V c 4 t) (blk V c 5 t)
  Φ _ := Pipeline.ΦA spec1 c
  q _ := fullShare
  owed _ := 0

/-- The proof data's arrays are the region-entry contents. -/
theorem A_eq (c : Dev nD) (w : Fin cfg1.W) : (dat1 V c).A w = V c (Pipeline.arrRef spec1 w) := by
  dsimp only [dat1]

/-- What the body leaves, window by window. -/
theorem after_0 (c : Dev nD) (t : Fin cfg1.N) : (dat1 V c).after 0 t = blk V c 0 t := by dsimp only [dat1]
theorem after_1 (c : Dev nD) (t : Fin cfg1.N) : (dat1 V c).after 1 t = blk V c 1 t := by dsimp only [dat1]
theorem after_2 (c : Dev nD) (t : Fin cfg1.N) : (dat1 V c).after 2 t = blk V c 2 t := by dsimp only [dat1]
theorem after_3 (c : Dev nD) (t : Fin cfg1.N) : (dat1 V c).after 3 t = blk V c 3 t := by dsimp only [dat1]
theorem after_4 (c : Dev nD) (t : Fin cfg1.N) : (dat1 V c).after 4 t = blk V c 4 t := by dsimp only [dat1]
theorem after_5 (c : Dev nD) (t : Fin cfg1.N) : (dat1 V c).after 5 t = blk V c 5 t := by dsimp only [dat1]
theorem after_6 (c : Dev nD) (t : Fin cfg1.N) : (dat1 V c).after 6 t =
    normOut (blk V c 0 t) (blk V c 1 t) (blk V c 2 t) (blk V c 3 t) (blk V c 4 t) (blk V c 5 t) := by
  dsimp only [dat1]

/-- What each input's staging buffer holds when the body starts at point `t`: the window's block there. -/
theorem before_0 (c : Dev nD) (t : Fin cfg1.N) (d) : (dat1 V c).before 0 t d = blk V c 0 t :=
  held0_of V (dat1 V c) (A_eq V c 0) (after_0 V c) t d
theorem before_1 (c : Dev nD) (t : Fin cfg1.N) (d) : (dat1 V c).before 1 t d = blk V c 1 t :=
  held1_of V (dat1 V c) (A_eq V c 1) (after_1 V c) t d
theorem before_2 (c : Dev nD) (t : Fin cfg1.N) (d) : (dat1 V c).before 2 t d = blk V c 2 t :=
  held2_of V (dat1 V c) (A_eq V c 2) (after_2 V c) t d
theorem before_3 (c : Dev nD) (t : Fin cfg1.N) (d) : (dat1 V c).before 3 t d = blk V c 3 t :=
  held3_of V (dat1 V c) (A_eq V c 3) (after_3 V c) t d
theorem before_4 (c : Dev nD) (t : Fin cfg1.N) (d) : (dat1 V c).before 4 t d = blk V c 4 t :=
  held4_of V (dat1 V c) (A_eq V c 4) (after_4 V c) t d
theorem before_5 (c : Dev nD) (t : Fin cfg1.N) (d) : (dat1 V c).before 5 t d = blk V c 5 t :=
  held5_of V (dat1 V c) (A_eq V c 5) (after_5 V c) t d

/-! ## The body obligation, at a generic point -/

/-- What the body is started with at point `t`: the invariant, the core's dues, and the seven staging buffers, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it must give back. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six input buffers hold their blocks (`before_w`), so the body's triple applies at
    those blocks; the invariant and the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat1 V c).Φ t.succ = (dat1 V c).Φ t.castSucc from rfl,
    show (dat1 V c).owesAt () t.succ = (dat1 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _
    (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point, -/
theorem body_obligation (c : Dev nD) :
    BodyObligation (dat1 (F := F) V c) (defs₀ (F := F)) Variants.none () Set.univ := fun t => by
  rw [bigSep_W1, bigSep_W1]
  exact sound_body V c t

/-- and in the weaker form a region's segment record asks for. -/
theorem body_obligation_loose (c : Dev nD) :
    BodyObligationLoose (dat1 (F := F) V c) (defs₀ (F := F)) Variants.none () Set.univ :=
  (body_obligation V c).loose

end Cert.Kernel.R1

end
-- ==== Proof.WordKernelFold.lean ====
/-
  The kernel program as a whole (the same text serves the program read at words and the one read at extended reals), first part: what the unscoped buffers hold at each boundary between
  @main's items. @main is: host operations (the four node projections, the wrapped indices, the three row
  gathers); the edge pass; host operations (mean and variance from the two sums, the two segment sums, the node
  branch); the node branch's SiLU; the node residual with the re-layouts and the doubled parameter rows; the
  normalisation pass; the re-layout of its result. Each pallas region changes only its own outputs' arrays, and
  leaves in each what its tiles' write-backs fold to.
-/
import proofs.«175570_j5823975653421_2_alg».proof.Proof.Gen.Kernel.Regions
import proofs.«175570_j5823975653421_2_alg».proof.Proof.WordEdgePassBody
import proofs.«175570_j5823975653421_2_alg».proof.Proof.WordRegion1
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The edge pass's entry and exit contents -/

/-- What the edge pass is entered from: the launch contents after the first stretch of host operations. -/
abbrev entry0 (c : Dev nD) (b : Ref sig .tc) : Buf (Elt F) ((c : Thread nD τ).loc b) := V1 m c b

/-- At its exit: its windows' arrays at what the pipeline leaves, every other buffer as entered. -/
def exit0 (c : Dev nD) : Valuation τ sig (Elt F) :=
  Pipeline.withArrays spec0 c (V1 m c) fun w => (R0.dat (entry0 m) c).arrAt w cfg0.N

theorem exit0_arr (c : Dev nD) (w : Fin cfg0.W) :
    exit0 m c (Proc.devRef .tc (Pipeline.arrRef spec0 w)) = (R0.dat (entry0 m) c).arrAt w cfg0.N := by
  unfold exit0; exact Pipeline.withArrays_arr spec0 launch0.win.arr_inj c _ _ w

/-- The contents the regions leave, first step: the edge pass's only. -/
def outs0 : Outs (F := F) := fun _ r c => exit0 m c (Proc.devRef .tc r)

/-! ## The normalisation pass's entry and exit contents -/

abbrev entry1 (c : Dev nD) (b : Ref sig .tc) : Buf (Elt F) ((c : Thread nD τ).loc b) := V5 m (outs0 m) c b

def exit1 (c : Dev nD) : Valuation τ sig (Elt F) :=
  Pipeline.withArrays spec1 c (V5 m (outs0 m) c) fun w => (R1.dat1 (entry1 m) c).arrAt w cfg1.N

theorem exit1_arr (c : Dev nD) (w : Fin cfg1.W) :
    exit1 m c (Proc.devRef .tc (Pipeline.arrRef spec1 w)) = (R1.dat1 (entry1 m) c).arrAt w cfg1.N := by
  unfold exit1; exact Pipeline.withArrays_arr spec1 launch1.win.arr_inj c _ _ w

/-- The contents the regions leave: after item 5 the normalisation pass's, otherwise the edge pass's. -/
def outs : Outs (F := F) := fun j r c => match j with
  | 6 => exit1 m c (Proc.devRef .tc r)
  | _ => exit0 m c (Proc.devRef .tc r)

theorem V2_outs (c : Dev nD) : V2 m (outs m) c = V2 m (outs0 m) c := rfl
theorem V5_outs (c : Dev nD) : V5 m (outs m) c = V5 m (outs0 m) c := rfl

/-! ## Reading the contents after the edge pass at its windows' arrays -/

theorem ne_dev {a b : Ref sig .tc} (h : a ≠ b) : (Proc.devRef .tc a : DevRef τ sig) ≠ Proc.devRef .tc b := StableHlo.devRef_ne_of_ne h

theorem V2_m (o : Outs (F := F)) (c : Dev nD) : V2 m o c main_v37_0 = o 2 main_v37_0 c := by
  simp only [V2, Function.update_of_ne (ne_dev (by decide : main_v37_0 ≠ main_v37_4)), Function.update_of_ne (ne_dev (by decide : main_v37_0 ≠ main_v37_3)),
    Function.update_of_ne (ne_dev (by decide : main_v37_0 ≠ main_v37_2)), Function.update_of_ne (ne_dev (by decide : main_v37_0 ≠ main_v37_1)), Function.update_self]
theorem V2_s (o : Outs (F := F)) (c : Dev nD) : V2 m o c main_v37_1 = o 2 main_v37_1 c := by
  simp only [V2, Function.update_of_ne (ne_dev (by decide : main_v37_1 ≠ main_v37_4)), Function.update_of_ne (ne_dev (by decide : main_v37_1 ≠ main_v37_3)),
    Function.update_of_ne (ne_dev (by decide : main_v37_1 ≠ main_v37_2)), Function.update_self]
theorem V2_g (o : Outs (F := F)) (c : Dev nD) : V2 m o c main_v37_2 = o 2 main_v37_2 c := by
  simp only [V2, Function.update_of_ne (ne_dev (by decide : main_v37_2 ≠ main_v37_4)), Function.update_of_ne (ne_dev (by decide : main_v37_2 ≠ main_v37_3)), Function.update_self]
theorem V2_sum (o : Outs (F := F)) (c : Dev nD) : V2 m o c main_v37_3 = o 2 main_v37_3 c := by
  simp only [V2, Function.update_of_ne (ne_dev (by decide : main_v37_3 ≠ main_v37_4)), Function.update_self]
theorem V2_sumsq (o : Outs (F := F)) (c : Dev nD) : V2 m o c main_v37_4 = o 2 main_v37_4 c := by
  simp only [V2, Function.update_self]

/-- An input window's array is not one of the five the edge pass may change. -/
theorem input_of_not_out : ∀ w : Fin cfg0.W, Pipeline.arrRef spec0 w ∉ ([main_v37_0, main_v37_1, main_v37_2, main_v37_3, main_v37_4] : List (Ref sig .tc)) → (cfg0.win w).isOut = false := by
  decide

/-- After the edge pass the generated boundary contents are, at every TensorCore reference, the entry contents with
    the windows' arrays at what the pipeline leaves. -/
theorem V2_eq_exit0 (c : Dev nD) (b : Ref sig .tc) : V2 m (outs m) c b = exit0 m c (Proc.devRef .tc b) := by
  by_cases h5 : b ∈ ([main_v37_0, main_v37_1, main_v37_2, main_v37_3, main_v37_4] : List (Ref sig .tc))
  · simp only [List.mem_cons, List.mem_nil_iff, or_false] at h5
    rcases h5 with rfl | rfl | rfl | rfl | rfl
    · exact V2_m m (outs m) c
    · exact V2_s m (outs m) c
    · exact V2_g m (outs m) c
    · exact V2_sum m (outs m) c
    · exact V2_sumsq m (outs m) c
  · rw [V2_of m (outs m) c b h5]
    by_cases hw : ∃ w, Pipeline.arrRef spec0 w = b
    · obtain ⟨w, rfl⟩ := hw
      rw [exit0_arr]
      exact (R0.A_eq (entry0 m) c w).symm.trans ((R0.dat (entry0 m) c).arrAt_in w (input_of_not_out w h5) cfg0.N).symm
    · unfold exit0
      exact (Pipeline.withArrays_of_ne spec0 c _ _ b fun w e => hw ⟨w, e⟩).symm

/-- Each of the edge pass's arrays holds, at its exit, what the pipeline leaves: an input its entry contents, an
    output the fold of its tiles' write-backs. -/
theorem left0 (c : Dev nD) (w : Fin cfg0.W) : (R0.dat (entry0 m) c).arrAt w cfg0.N = V2 m (outs m) c (Pipeline.arrRef spec0 w) :=
  (exit0_arr m c w).symm.trans (V2_eq_exit0 m c (Pipeline.arrRef spec0 w)).symm

/-- Every other buffer is as the edge pass found it. -/
theorem kept0 (c : Dev nD) : ∀ b : Ref sig .tc, b ∉ Finset.univ.image (Pipeline.arrRef spec0) → V2 m (outs m) c b = V1 m c b := fun b hb => by
  rw [V2_eq_exit0]; unfold exit0
  exact Pipeline.withArrays_of_ne spec0 c _ _ b fun w e => hb (Finset.mem_image.mpr ⟨w, Finset.mem_univ _, e⟩)

/-! ## Reading the contents after the normalisation pass at its windows' arrays -/

theorem V6_y (o : Outs (F := F)) (c : Dev nD) : V6 m o c main_v89 = o 6 main_v89 c := by
  simp only [V6, Function.update_self]

theorem input_of_not_out1 : ∀ w : Fin cfg1.W, Pipeline.arrRef spec1 w ∉ ([main_v89] : List (Ref sig .tc)) → (cfg1.win w).isOut = false := by
  decide

theorem V6_eq_exit1 (c : Dev nD) (b : Ref sig .tc) : V6 m (outs m) c b = exit1 m c (Proc.devRef .tc b) := by
  by_cases h1 : b ∈ ([main_v89] : List (Ref sig .tc))
  · simp only [List.mem_cons, List.mem_nil_iff, or_false] at h1
    subst h1
    exact V6_y m (outs m) c
  · rw [V6_of m (outs m) c b h1, V5_outs]
    by_cases hw : ∃ w, Pipeline.arrRef spec1 w = b
    · obtain ⟨w, rfl⟩ := hw
      rw [exit1_arr]
      exact (R1.A_eq (entry1 m) c w).symm.trans ((R1.dat1 (entry1 m) c).arrAt_in w (input_of_not_out1 w h1) cfg1.N).symm
    · unfold exit1
      exact (Pipeline.withArrays_of_ne spec1 c _ _ b fun w e => hw ⟨w, e⟩).symm

theorem left1 (c : Dev nD) (w : Fin cfg1.W) : (R1.dat1 (entry1 m) c).arrAt w cfg1.N = V6 m (outs m) c (Pipeline.arrRef spec1 w) :=
  (exit1_arr m c w).symm.trans (V6_eq_exit1 m c (Pipeline.arrRef spec1 w)).symm

theorem kept1 (c : Dev nD) : ∀ b : Ref sig .tc, b ∉ Finset.univ.image (Pipeline.arrRef spec1) → V6 m (outs m) c b = V5 m (outs m) c b := fun b hb => by
  rw [V6_eq_exit1, V5_outs]; unfold exit1
  exact Pipeline.withArrays_of_ne spec1 c _ _ b fun w e => hb (Finset.mem_image.mpr ⟨w, Finset.mem_univ _, e⟩)

end Cert.Kernel.Whole

end
-- ==== Proof.WordKernelRegions.lean ====
/-
  The kernel program as a whole (the same text serves the program read at words and the one read at extended reals), second part: each pallas region as a segment of @main over the thread
  state "every unscoped buffer at the boundary's contents, the generator register at some state, nothing owed".
  A region splits its windows' arrays out of the unscoped buffers at entry and puts them back at what the pipeline
  leaves at exit. The edge pass carries its two accumulator rows through its own invariant, which begins and ends
  as the plain one (the rows at anything); the normalisation pass carries nothing.
-/
import proofs.«175570_j5823975653421_2_alg».proof.Proof.WordKernelFold

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents: a literal match, so that the pinned
    configuration at a numeral reduces to the printed one. -/
def pdats : (p : Fin 2) → (c : Dev nD) → Dat τ (Elt F) Unit ℕ (UR sig nD τ) ℕ (cfgs p) c
  | ⟨0, _⟩ => fun c => R0.dat (entry0 m) c
  | ⟨1, _⟩ => fun c => R1.dat1 (entry1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev rest (c : Dev nD) : sProp 𝕄 := iprop((∃ r, prngReg c r) ∗ ∃ W, owes (c : Thread nD τ) (0 : CellTallies nD τ sig Unit) W)

/-! ## The edge pass as a segment -/

-- a library lemma stated over the pinned configuration unifies with the printed one only when unification may unfold
-- plain definitions in a metavariable's type
set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := R0.body_obligation_loose (entry0 m) c
  hwaits := Pipeline.hwaits_of_owed_zero _ _ _ _ L lv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.inv_in (entry0 m) c)
    unfold Pipeline.ΦA
    iintro ⟨Hp, -, Hr⟩
    isplitl [Hr]; · iexact Hr
    iexact Hp
  hout c := by
    refine (R0.inv_out (entry0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The normalisation pass as a segment -/

-- a library lemma stated over the pinned configuration unifies with the printed one only when unification may unfold
-- plain definitions in a metavariable's type
set_option backward.isDefEq.respectTransparency.types false in
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := R1.body_obligation_loose (entry1 m) c
  hwaits := Pipeline.hwaits_of_owed_zero _ _ _ _ L lv 1 fun _ _ => rfl
  pre c := iprop(StableHlo.held (c : Thread nD τ) (Pipeline.ucRefs τ sig) (V5 m (outs m) c) ∗ rest c)
  post c := iprop(StableHlo.held (c : Thread nD τ) (Pipeline.ucRefs τ sig) (V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outs m) c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WordKernelRun.lean ====
/-
  The kernel program as a whole (the same text serves the program read at words and the one read at extended reals), third part: the run. Every weakly fair execution of @main terminates,
  and in every final memory each unscoped buffer holds what the last boundary's contents say: the launch contents
  folded through the host stretches and the two regions' exits. The frame claim reads the eighteen arguments off
  that; the value claim reads the two results.
-/
import proofs.«175570_j5823975653421_2_alg».proof.Proof.WordKernelRegions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's element of the resource algebra: the pipeline library's own, at every pipeline's staging cells. -/
abbrev u₀ : UR sig nD τ := initOf (Pipeline.cells cfgs cellOf_inj) (Pipeline.launchToks cfgs cellOf_inj)

theorem launch_owns : (ownU (u₀) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides along is made on every core at once from what the launch deals. -/
theorem rest_init : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : rest (F := F) c ⊢ (iprop(∃ W, owes (c : Thread nD τ) (0 : CellTallies nD τ sig Unit) W) : sProp 𝕄) := by
  iintro ⟨-, HO⟩; iexact HO

/-- THE FRAME of the program, at any instance of the float operations: the generated host side over the two
    regions' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond m emb₁ () 𝒱₀ L lv (fun _ _ => rfl) ρ (outs m) (pdats m) 0 (fun _ => iprop(emp)) u₀ (launch_owns)
    (fun _ c => rest c) (rest_init ρ) (fun c => rest_owes c)
    (reg0 m) (fun _ => .rfl) (fun _ => .rfl) (reg1 m) (fun _ => .rfl) (fun _ => .rfl)

end Cert.Kernel.Whole

end
-- ==== Proof.EdgePassShared.lean ====
/-
  The first pallas region (the edge pass over 100 tiles of 8000 edges): what its runs share.

  The body tests the tile index twice: at the first tile it clears the two accumulator rows before anything else,
  and at the last tile it copies them into the two one-row outputs. Over the grid of 100 tiles these two tests
  are "the tile is number 0" and "the tile is number 99"; three kinds of tile occur (first, middle, last).
  The two one-row outputs are stored only at the last tile and are written back only there; at every other tile
  their staging buffers are handed back untouched.
-/
import proofs.«175570_j5823975653421_2_alg».proof.Proof.Gen.KernelIdeal.Launch
import proofs.«175570_j5823975653421_2_alg».proof.Proof.Gen.KernelIdeal.Skeleton
import proofs.«175570_j5823975653421_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the tile index -/

/-- The body's first test, on the tile's coordinate: the tile is the first one. -/
abbrev atFirst (i : grid0.Coords) : Prop :=
  (Scalar.cmpi .ne (Scalar.extui (Scalar.cmpi .eq (BitVec.ofNat 32 (i 0).val) 0#32)) 0#32) = 1#1

/-- Over the grid it holds at tile 0 only. -/
theorem atFirst_iff : ∀ t : Fin cfg0.N, atFirst (grid0.coords t) ↔ t.val = 0 :=
  (by decide +kernel : ∀ t : Fin grid0.N, atFirst (grid0.coords t) ↔ t.val = 0)

/-- The body's second test: the tile is the last one. -/
abbrev atLast (i : grid0.Coords) : Prop := k0_cond2 i = 1#1

/-- Over the grid it holds at tile 99 only. -/
theorem atLast_iff : ∀ t : Fin cfg0.N, atLast (grid0.coords t) ↔ t.val = 99 :=
  (by decide +kernel : ∀ t : Fin grid0.N, atLast (grid0.coords t) ↔ t.val = 99)

/-! ## Where the windows are idle, and where the one-row outputs are written back -/

theorem live_in : ∀ (w : Fin 11), w.val < 9 → ∀ t : Fin cfg0.N, cfg0.idle w (grid0.coords t) = false := by decide +kernel
theorem idle_sum : ∀ t : Fin cfg0.N, ¬ atLast (grid0.coords t) → cfg0.idle 9 (grid0.coords t) = true := by decide +kernel
theorem idle_sumsq : ∀ t : Fin cfg0.N, ¬ atLast (grid0.coords t) → cfg0.idle 10 (grid0.coords t) = true := by decide +kernel
theorem live_sum : ∀ t : Fin cfg0.N, atLast (grid0.coords t) → cfg0.idle 9 (grid0.coords t) = false := by decide +kernel
theorem live_sumsq : ∀ t : Fin cfg0.N, atLast (grid0.coords t) → cfg0.idle 10 (grid0.coords t) = false := by decide +kernel
theorem noFlush_sum : ∀ t : Fin cfg0.N, ¬ atLast (grid0.coords t) → (cfg0.win 9).flush t = false := by decide +kernel
theorem noFlush_sumsq : ∀ t : Fin cfg0.N, ¬ atLast (grid0.coords t) → (cfg0.win 10).flush t = false := by decide +kernel

/-! ## The accumulator rows -/

/-- The two accumulator rows: whole scoped buffers of the kernel's own, passed beside the windows. -/
abbrev accM : Memref sig .tc .vmem S1x64 .f32 := Memref.whole cc0_scratch0
abbrev accSqM : Memref sig .tc .vmem S1x64 .f32 := Memref.whole cc0_scratch1
abbrev accV : View sig .tc .vmem S1x64 .f32 := accM.view
abbrev accSqV : View sig .tc .vmem S1x64 .f32 := accSqM.view

end Cert.KernelIdeal.R0

end
-- ==== Proof.EdgePassFirst.lean ====
/-
  The edge pass at its FIRST tile: the body clears both accumulator rows, computes the tile's pre-activations
  m = ((x·W + b) + s) + d, their logistic and the gated row product, stores the three tiles, and adds the tile's
  column sums of m and of m² to the cleared rows. It stores nothing into the two one-row outputs.
-/
import proofs.«175570_j5823975653421_2_alg».proof.Proof.EdgePassShared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)

set_option maxHeartbeats 4000000 in
/-- What the body leaves in the three tile outputs and in the two accumulator rows, as lists of stored pieces,
    with the proof that from whole staging buffers (the six inputs at given contents, the three tile outputs and
    the two accumulator rows at anything, the two one-row outputs at contents handed back untouched) the body runs
    to its end. -/
noncomputable def runFirst (hf : atFirst i) (hl : ¬ atLast i)
    (x1 x2 x3 x4 : Vec F S8000x64 .f32) (x5 : Vec F S64x64 .f32) (x6 : Vec F S64 .f32) :
    Σ' (L7 L8 L9 : List (View.Piece (Elt F) S8000x64 .f32)) (LA : List (View.Piece (Elt F) S1x64 .f32)),
      { LQ : List (View.Piece (Elt F) S1x64 .f32) //
      ∀ (y10 y11 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare y10 ∗ owns (c : Thread nD τ) arg11 fullShare y11
            ∗ (∃ d, owns (c : Thread nD τ) arg12 fullShare d) ∗ (∃ d, owns (c : Thread nD τ) arg13 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ owns (c : Thread nD τ) arg10 fullShare y10 ∗ owns (c : Thread nD τ) arg11 fullShare y11
                ∗ (∃ f, arg12.view.loc (c : Thread nD τ) ↦[arg12.view.set]{fullShare} arg12.view.writes (Elt F) f LA)
                ∗ (∃ f, arg13.view.loc (c : Thread nD τ) ↦[arg13.view.set]{fullShare} arg13.view.writes (Elt F) f LQ)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun y10 y11 E K => ?run⟩
  case run =>
    simp only [cc0__edge_kernel_eq_skeleton]; unfold cc0__edge_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%f10, %hf10, H10⟩, ⟨%f11, %hf11, H11⟩,
      ⟨%da, %fa, -, HA⟩, ⟨%dq, %fq, -, HQ⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg10.eq_unread hf10; obtain rfl := harg11.eq_unread hf11
    sl_exec (disch := first | exact hf | exact hl)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [HA]; · iexists _; iexact HA
    iexists _; iexact HQ

end

end Cert.KernelIdeal.R0

end
-- ==== Proof.EdgePassMiddle.lean ====
/-
  The edge pass at a MIDDLE tile (neither the first nor the last): the two accumulator rows hold what the tiles
  before left; the body computes the tile's pre-activations, stores the three tiles, and adds the tile's column
  sums of m and of m² to the rows. It stores nothing into the two one-row outputs.
-/
import proofs.«175570_j5823975653421_2_alg».proof.Proof.EdgePassShared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)

set_option maxHeartbeats 4000000 in
/-- What the body leaves in the three tile outputs and in the two accumulator rows, as lists of stored pieces,
    with the proof that from whole staging buffers (the six inputs and the two accumulator rows at given contents,
    the three tile outputs at anything, the two one-row outputs at contents handed back untouched) the body runs
    to its end. -/
noncomputable def runMiddle (hf : ¬ atFirst i) (hl : ¬ atLast i)
    (x1 x2 x3 x4 : Vec F S8000x64 .f32) (x5 : Vec F S64x64 .f32) (x6 : Vec F S64 .f32) (xa xq : Vec F S1x64 .f32) :
    Σ' (L7 L8 L9 : List (View.Piece (Elt F) S8000x64 .f32)) (LA : List (View.Piece (Elt F) S1x64 .f32)),
      { LQ : List (View.Piece (Elt F) S1x64 .f32) //
      ∀ (y10 y11 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare y10 ∗ owns (c : Thread nD τ) arg11 fullShare y11
            ∗ owns (c : Thread nD τ) arg12 fullShare xa ∗ owns (c : Thread nD τ) arg13 fullShare xq
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ owns (c : Thread nD τ) arg10 fullShare y10 ∗ owns (c : Thread nD τ) arg11 fullShare y11
                ∗ (∃ f, arg12.view.loc (c : Thread nD τ) ↦[arg12.view.set]{fullShare} arg12.view.writes (Elt F) f LA)
                ∗ (∃ f, arg13.view.loc (c : Thread nD τ) ↦[arg13.view.set]{fullShare} arg13.view.writes (Elt F) f LQ)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun y10 y11 E K => ?run⟩
  case run =>
    simp only [cc0__edge_kernel_eq_skeleton]; unfold cc0__edge_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%f10, %hf10, H10⟩, ⟨%f11, %hf11, H11⟩,
      ⟨%fa, %hfa, HA⟩, ⟨%fq, %hfq, HQ⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg10.eq_unread hf10; obtain rfl := harg11.eq_unread hf11
    obtain rfl := harg12.eq_unread hfa; obtain rfl := harg13.eq_unread hfq
    sl_exec (disch := first | exact hf | exact hl)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [HA]; · iexists _; iexact HA
    iexists _; iexact HQ

end

end Cert.KernelIdeal.R0

end
-- ==== Proof.EdgePassLast.lean ====
/-
  The edge pass at its LAST tile: as at a middle tile the two accumulator rows hold what the tiles before left and
  the body adds this tile's column sums of m and of m² to them; it then copies the two rows, now the sums over all
  800000 edges, into the two one-row outputs.
-/
import proofs.«175570_j5823975653421_2_alg».proof.Proof.EdgePassShared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)

set_option maxHeartbeats 4000000 in
/-- What the body leaves in the five outputs and in the two accumulator rows, as lists of stored pieces, with the
    proof that from whole staging buffers (the six inputs and the two accumulator rows at given contents, the five
    outputs at anything) the body runs to its end. -/
noncomputable def runLast (hf : ¬ atFirst i) (hl : atLast i)
    (x1 x2 x3 x4 : Vec F S8000x64 .f32) (x5 : Vec F S64x64 .f32) (x6 : Vec F S64 .f32) (xa xq : Vec F S1x64 .f32) :
    Σ' (L7 L8 L9 : List (View.Piece (Elt F) S8000x64 .f32)) (L10 L11 LA : List (View.Piece (Elt F) S1x64 .f32)),
      { LQ : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ owns (c : Thread nD τ) arg12 fullShare xa ∗ owns (c : Thread nD τ) arg13 fullShare xq
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f LA)
                ∗ (∃ f, arg13.view.loc (c : Thread nD τ) ↦[arg13.view.set]{fullShare} arg13.view.writes (Elt F) f LQ)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__edge_kernel_eq_skeleton]; unfold cc0__edge_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%d10, %f10, -, H10⟩, ⟨%d11, %f11, -, H11⟩,
      ⟨%fa, %hfa, HA⟩, ⟨%fq, %hfq, HQ⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg12.eq_unread hfa; obtain rfl := harg13.eq_unread hfq
    sl_exec (disch := first | exact hf | exact hl)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HA]; · iexists _; iexact HA
    iexists _; iexact HQ

end

end Cert.KernelIdeal.R0

end
-- ==== Proof.EdgePassData.lean ====
/-
  The edge pass over its 100 tiles: what every buffer holds tile by tile.

  A tile's three outputs (the pre-activations m, their logistic, the gated product) depend on that tile's blocks
  only. The two accumulator rows are carried: after tile n they hold the column sums of m and of m² over tiles
  0..n, the first tile starting from rows it has just cleared. The two one-row outputs are stored at the last tile
  only, with the accumulator rows' final contents. All of this is stated through the pieces each kind of tile
  stores, read back; the recursion over the tile number threads the accumulator rows from one tile to the next.
-/
import proofs.«175570_j5823975653421_2_alg».proof.Proof.EdgePassFirst
import proofs.«175570_j5823975653421_2_alg».proof.Proof.EdgePassMiddle
import proofs.«175570_j5823975653421_2_alg».proof.Proof.EdgePassLast

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and staging buffers -/

/-- Window `w`'s block at tile `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every tile, fetched there or not (the weight matrix and the
    bias are fetched at the first tile only and their block never moves), for any proof data whose array is the
    region-entry one and whose body leaves the block in place. -/
theorem held0_of {c : Dev nD} (dat : Dat τ (Elt F) Unit ℕ (UR sig nD τ) ℕ cfg0 c) (hA : dat.A 0 = V c (Pipeline.arrRef spec0 0))
    (hkept : ∀ t, dat.after 0 t = blk V c 0 t) (t : Fin cfg0.N) (d) : dat.before 0 t d = blk V c 0 t :=
  (dat.before_in_eq_fetched 0 rfl (fun _ => rfl) (fun _ _ _ => rfl) (fun t => by rw [hkept]; unfold Dat.blockOf blk; rw [hA]; try rfl) t d).trans
    (by unfold Dat.fetched Dat.blockOf blk; rw [hA]; try rfl)
theorem held1_of {c : Dev nD} (dat : Dat τ (Elt F) Unit ℕ (UR sig nD τ) ℕ cfg0 c) (hA : dat.A 1 = V c (Pipeline.arrRef spec0 1))
    (hkept : ∀ t, dat.after 1 t = blk V c 1 t) (t : Fin cfg0.N) (d) : dat.before 1 t d = blk V c 1 t :=
  (dat.before_in_eq_fetched 1 rfl (fun _ => rfl) (fun _ _ _ => rfl) (fun t => by rw [hkept]; unfold Dat.blockOf blk; rw [hA]; try rfl) t d).trans
    (by unfold Dat.fetched Dat.blockOf blk; rw [hA]; try rfl)
theorem held2_of {c : Dev nD} (dat : Dat τ (Elt F) Unit ℕ (UR sig nD τ) ℕ cfg0 c) (hA : dat.A 2 = V c (Pipeline.arrRef spec0 2))
    (hkept : ∀ t, dat.after 2 t = blk V c 2 t) (t : Fin cfg0.N) (d) : dat.before 2 t d = blk V c 2 t :=
  (dat.before_in_eq_fetched 2 rfl (fun _ => rfl) (fun _ _ _ => rfl) (fun t => by rw [hkept]; unfold Dat.blockOf blk; rw [hA]; try rfl) t d).trans
    (by unfold Dat.fetched Dat.blockOf blk; rw [hA]; try rfl)
theorem held3_of {c : Dev nD} (dat : Dat τ (Elt F) Unit ℕ (UR sig nD τ) ℕ cfg0 c) (hA : dat.A 3 = V c (Pipeline.arrRef spec0 3))
    (hkept : ∀ t, dat.after 3 t = blk V c 3 t) (t : Fin cfg0.N) (d) : dat.before 3 t d = blk V c 3 t :=
  (dat.before_in_eq_fetched 3 rfl (fun _ => rfl) (fun _ _ _ => rfl) (fun t => by rw [hkept]; unfold Dat.blockOf blk; rw [hA]; try rfl) t d).trans
    (by unfold Dat.fetched Dat.blockOf blk; rw [hA]; try rfl)
theorem held4_of {c : Dev nD} (dat : Dat τ (Elt F) Unit ℕ (UR sig nD τ) ℕ cfg0 c) (hA : dat.A 4 = V c (Pipeline.arrRef spec0 4))
    (hkept : ∀ t, dat.after 4 t = blk V c 4 t) (t : Fin cfg0.N) (d) : dat.before 4 t d = blk V c 4 t :=
  (dat.before_in_eq_fetched 4 rfl (fun _ => rfl) (fun _ _ _ => rfl) (fun t => by rw [hkept]; unfold Dat.blockOf blk; rw [hA]; try rfl) t d).trans
    (by unfold Dat.fetched Dat.blockOf blk; rw [hA]; try rfl)
theorem held5_of {c : Dev nD} (dat : Dat τ (Elt F) Unit ℕ (UR sig nD τ) ℕ cfg0 c) (hA : dat.A 5 = V c (Pipeline.arrRef spec0 5))
    (hkept : ∀ t, dat.after 5 t = blk V c 5 t) (t : Fin cfg0.N) (d) : dat.before 5 t d = blk V c 5 t :=
  (dat.before_in_eq_fetched 5 rfl (fun _ => rfl) (fun _ _ _ => rfl) (fun t => by rw [hkept]; unfold Dat.blockOf blk; rw [hA]; try rfl) t d).trans
    (by unfold Dat.fetched Dat.blockOf blk; rw [hA]; try rfl)

/-- Each window's current staging buffer at tile `t`, as the pipeline passes it to the body, and its wholeness. -/
abbrev ms0 (t : Fin cfg0.N) : Memref sig .tc .vmem S8000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8000x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8000x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8000x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8000x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8000x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8000x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)

/-! ## Stored pieces read back -/

/-- One staging buffer of a tile output and one of a one-row buffer, through which contents are stated (which one
    does not matter once the pieces cover the buffer). -/
abbrev tileV : View sig .tc .vmem S8000x64 .f32 := (Memref.whole cc0_stg6_0 : Memref sig .tc .vmem S8000x64 .f32).view
abbrev rowV : View sig .tc .vmem S1x64 .f32 := (Memref.whole cc0_stg9_0 : Memref sig .tc .vmem S1x64 .f32).view

def readTile (L : List (View.Piece (Elt F) S8000x64 .f32)) : Vec F S8000x64 .f32 := tileV.read (Elt F) (tileV.writes (Elt F) tileV.junk L)
def readRow (L : List (View.Piece (Elt F) S1x64 .f32)) : Vec F S1x64 .f32 := rowV.read (Elt F) (rowV.writes (Elt F) rowV.junk L)

/-- What the seven buffers the body stores into hold after a tile: the three tile outputs, the two one-row
    outputs, the two accumulator rows. -/
structure TileState (F : FTy → Type) [FloatOps F] where
  m : Vec F S8000x64 .f32
  s : Vec F S8000x64 .f32
  g : Vec F S8000x64 .f32
  sumOut : Vec F S1x64 .f32
  sqOut : Vec F S1x64 .f32
  acc : Vec F S1x64 .f32
  accSq : Vec F S1x64 .f32

/-! ## The three kinds of tile at a point of the grid -/

section Point
variable (c : Dev nD) (t : Fin cfg0.N)

abbrev firstAt (hf : atFirst (grid0.coords t)) (hl : ¬ atLast (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) accSqM (Memref.isWhole_whole _) hf hl (blk V c 0 t) (blk V c 1 t) (blk V c 2 t) (blk V c 3 t) (blk V c 4 t) (blk V c 5 t)
abbrev middleAt (hf : ¬ atFirst (grid0.coords t)) (hl : ¬ atLast (grid0.coords t)) (xa xq : Vec F S1x64 .f32) :=
  runMiddle (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) accSqM (Memref.isWhole_whole _) hf hl (blk V c 0 t) (blk V c 1 t) (blk V c 2 t) (blk V c 3 t) (blk V c 4 t) (blk V c 5 t) xa xq
abbrev lastAt (hf : ¬ atFirst (grid0.coords t)) (hl : atLast (grid0.coords t)) (xa xq : Vec F S1x64 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) accSqM (Memref.isWhole_whole _) hf hl (blk V c 0 t) (blk V c 1 t) (blk V c 2 t) (blk V c 3 t) (blk V c 4 t) (blk V c 5 t) xa xq

/-- The first tile's state: the one-row outputs are not stored (placeholders nothing consults). -/
def firstState (hf : atFirst (grid0.coords t)) (hl : ¬ atLast (grid0.coords t)) : TileState F :=
  ⟨readTile (firstAt V c t hf hl).1, readTile (firstAt V c t hf hl).2.1, readTile (firstAt V c t hf hl).2.2.1, readRow [], readRow [],
   readRow (firstAt V c t hf hl).2.2.2.1, readRow (firstAt V c t hf hl).2.2.2.2.1⟩
/-- A middle tile's state over the accumulator rows the tile before left. -/
def middleState (hf : ¬ atFirst (grid0.coords t)) (hl : ¬ atLast (grid0.coords t)) (p : TileState F) : TileState F :=
  ⟨readTile (middleAt V c t hf hl p.acc p.accSq).1, readTile (middleAt V c t hf hl p.acc p.accSq).2.1, readTile (middleAt V c t hf hl p.acc p.accSq).2.2.1, readRow [], readRow [],
   readRow (middleAt V c t hf hl p.acc p.accSq).2.2.2.1, readRow (middleAt V c t hf hl p.acc p.accSq).2.2.2.2.1⟩
/-- The last tile's state over the accumulator rows the tile before left. -/
def lastState (hf : ¬ atFirst (grid0.coords t)) (hl : atLast (grid0.coords t)) (p : TileState F) : TileState F :=
  ⟨readTile (lastAt V c t hf hl p.acc p.accSq).1, readTile (lastAt V c t hf hl p.acc p.accSq).2.1, readTile (lastAt V c t hf hl p.acc p.accSq).2.2.1,
   readRow (lastAt V c t hf hl p.acc p.accSq).2.2.2.1, readRow (lastAt V c t hf hl p.acc p.accSq).2.2.2.2.1,
   readRow (lastAt V c t hf hl p.acc p.accSq).2.2.2.2.2.1, readRow (lastAt V c t hf hl p.acc p.accSq).2.2.2.2.2.2.1⟩

end Point

/-! ## The state tile by tile -/

/-- The state after the tile at position `n`: the first tile's at 0; afterwards the last tile's at 99 and a middle
    tile's elsewhere, each over the state at `n - 1`. -/
def stateAt (c : Dev nD) : (n : ℕ) → n < cfg0.N → TileState F
  | 0, hn => firstState V c ⟨0, hn⟩ ((atFirst_iff ⟨0, hn⟩).mpr rfl) (fun h => absurd ((atLast_iff ⟨0, hn⟩).mp h) (show ¬ (0 : ℕ) = 99 by decide))
  | n + 1, hn =>
    if h : n + 1 = 99 then
      lastState V c ⟨n + 1, hn⟩ (fun hf => absurd ((atFirst_iff ⟨n + 1, hn⟩).mp hf) (Nat.succ_ne_zero n)) ((atLast_iff ⟨n + 1, hn⟩).mpr h) (stateAt c n (Nat.lt_of_succ_lt hn))
    else
      middleState V c ⟨n + 1, hn⟩ (fun hf => absurd ((atFirst_iff ⟨n + 1, hn⟩).mp hf) (Nat.succ_ne_zero n)) (fun hl => h ((atLast_iff ⟨n + 1, hn⟩).mp hl)) (stateAt c n (Nat.lt_of_succ_lt hn))

theorem stateAt_first (c : Dev nD) (t : Fin cfg0.N) (h : t.val = 0) :
    stateAt V c t.val t.isLt = firstState V c t ((atFirst_iff t).mpr h) (fun hl => by have := (atLast_iff t).mp hl; omega) := by
  obtain ⟨n, hn⟩ := t
  cases n with
  | zero => exact rfl
  | succ n => exact absurd h (Nat.succ_ne_zero n)

theorem stateAt_middle (c : Dev nD) (t : Fin cfg0.N) (h0 : t.val ≠ 0) (h99 : t.val ≠ 99) :
    stateAt V c t.val t.isLt = middleState V c t (fun hf => h0 ((atFirst_iff t).mp hf)) (fun hl => h99 ((atLast_iff t).mp hl))
      (stateAt V c (t.val - 1) (by have := t.isLt; omega)) := by
  obtain ⟨n, hn⟩ := t
  cases n with
  | zero => exact absurd rfl h0
  | succ n => exact (dif_neg h99).trans rfl

theorem stateAt_last (c : Dev nD) (t : Fin cfg0.N) (h0 : t.val ≠ 0) (h99 : t.val = 99) :
    stateAt V c t.val t.isLt = lastState V c t (fun hf => h0 ((atFirst_iff t).mp hf)) ((atLast_iff t).mpr h99)
      (stateAt V c (t.val - 1) (by have := t.isLt; omega)) := by
  obtain ⟨n, hn⟩ := t
  cases n with
  | zero => exact absurd rfl h0
  | succ n => exact (dif_pos h99).trans rfl

/-! ## The invariant carried from tile to tile -/

/-- The scoped buffers that belong to the other region's pipeline, each whole at some contents: they ride along. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the launch hands the region, with the two accumulator rows as memrefs owned at some contents. -/
theorem PhiA_eq (c : Dev nD) :
    (Pipeline.ΦA spec0 c : sProp 𝕄)
      = iprop(iprop((∃ d, owns (c : Thread nD τ) accM fullShare d) ∗ (∃ d, owns (c : Thread nD τ) accSqM fullShare d) ∗ others c) ∗ (∃ r, prngReg c r)) := by
  unfold Pipeline.ΦA others; rw [scopedRest0_eq]; simp only [accM, accSqM, owns_whole]; try rfl

/-- Before position `n`: at the first tile what the launch hands over (the accumulator rows at anything); afterwards
    the accumulator rows at what the tile before left, the other region's buffers and the generator register at
    some state. -/
def inv (c : Dev nD) : (n : ℕ) → n ≤ cfg0.N → sProp 𝕄
  | 0, _ => Pipeline.ΦA spec0 c
  | n + 1, hn => iprop(iprop(owns (c : Thread nD τ) accM fullShare (stateAt V c n hn).acc ∗ owns (c : Thread nD τ) accSqM fullShare (stateAt V c n hn).accSq ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) accM fullShare (stateAt V c n hn).acc ∗ owns (c : Thread nD τ) accSqM fullShare (stateAt V c n hn).accSq ∗ others c) ∗ (∃ r, prngReg c r)) := rfl
theorem inv_pos (c : Dev nD) (n : ℕ) (h : n ≤ cfg0.N) (hz : n ≠ 0) :
    inv V c n h = iprop(iprop(owns (c : Thread nD τ) accM fullShare (stateAt V c (n - 1) (by omega)).acc ∗ owns (c : Thread nD τ) accSqM fullShare (stateAt V c (n - 1) (by omega)).accSq ∗ others c) ∗ (∃ r, prngReg c r)) := by
  cases n with
  | zero => exact absurd rfl hz
  | succ n => rfl

/-! ## The proof data -/

/-- The region's proof data on core `c`: the arrays as the region finds them; after the body at tile `t` each
    input's buffer at its block and each output's at the tile state's component; the invariant above; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (stateAt V c t.val t.isLt).m
    | ⟨7, _⟩ => (stateAt V c t.val t.isLt).s
    | ⟨8, _⟩ => (stateAt V c t.val t.isLt).g
    | ⟨9, _⟩ => (stateAt V c t.val t.isLt).sumOut
    | ⟨10, _⟩ => (stateAt V c t.val t.isLt).sqOut
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; simp only [Fin.coe_castSucc]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = (stateAt V c t.val t.isLt).m := by dsimp only [dat]
theorem after_7 (c : Dev nD) (t : Fin cfg0.N) : (dat V c).after 7 t = (stateAt V c t.val t.isLt).s := by dsimp only [dat]
theorem after_8 (c : Dev nD) (t : Fin cfg0.N) : (dat V c).after 8 t = (stateAt V c t.val t.isLt).g := by dsimp only [dat]
theorem after_9 (c : Dev nD) (t : Fin cfg0.N) : (dat V c).after 9 t = (stateAt V c t.val t.isLt).sumOut := by dsimp only [dat]
theorem after_10 (c : Dev nD) (t : Fin cfg0.N) : (dat V c).after 10 t = (stateAt V c t.val t.isLt).sqOut := by dsimp only [dat]

theorem before_0 (c : Dev nD) (t : Fin cfg0.N) (d) : (dat V c).before 0 t d = blk V c 0 t :=
  held0_of V (dat V c) (A_eq V c 0) (after_0 V c) t d
theorem before_1 (c : Dev nD) (t : Fin cfg0.N) (d) : (dat V c).before 1 t d = blk V c 1 t :=
  held1_of V (dat V c) (A_eq V c 1) (after_1 V c) t d
theorem before_2 (c : Dev nD) (t : Fin cfg0.N) (d) : (dat V c).before 2 t d = blk V c 2 t :=
  held2_of V (dat V c) (A_eq V c 2) (after_2 V c) t d
theorem before_3 (c : Dev nD) (t : Fin cfg0.N) (d) : (dat V c).before 3 t d = blk V c 3 t :=
  held3_of V (dat V c) (A_eq V c 3) (after_3 V c) t d
theorem before_4 (c : Dev nD) (t : Fin cfg0.N) (d) : (dat V c).before 4 t d = blk V c 4 t :=
  held4_of V (dat V c) (A_eq V c 4) (after_4 V c) t d
theorem before_5 (c : Dev nD) (t : Fin cfg0.N) (d) : (dat V c).before 5 t d = blk V c 5 t :=
  held5_of V (dat V c) (A_eq V c 5) (after_5 V c) t d

end Cert.KernelIdeal.R0

end
-- ==== Proof.EdgePassCovers.lean ====
/-
  Every buffer the edge pass stores into is stored WHOLE: at each kind of tile the pieces stored into a buffer
  tile it completely (one piece, the whole block or the whole row). So what the buffer holds afterwards does not
  depend on what it held before, and can be read back through any view of that shape.
-/
import proofs.«175570_j5823975653421_2_alg».proof.Proof.EdgePassFirst
import proofs.«175570_j5823975653421_2_alg».proof.Proof.EdgePassMiddle
import proofs.«175570_j5823975653421_2_alg».proof.Proof.EdgePassLast

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section First
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : atFirst i) (hl : ¬ atLast i) (x1 x2 x3 x4 : Vec F S8000x64 .f32) (x5 : Vec F S64x64 .f32) (x6 : Vec F S64 .f32)
theorem coverFirst_m (y : S8000x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).1 S8000x64.size (by sl_kernel_rfl) y
theorem coverFirst_s (y : S8000x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.1 S8000x64.size (by sl_kernel_rfl) y
theorem coverFirst_g (y : S8000x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.1 S8000x64.size (by sl_kernel_rfl) y
theorem coverFirst_acc (y : S1x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.1 S1x64.size (by sl_kernel_rfl) y
theorem coverFirst_accSq (y : S1x64.Idx) : ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.2.1 S1x64.size (by sl_kernel_rfl) y
end First

section Middle
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : ¬ atFirst i) (hl : ¬ atLast i) (x1 x2 x3 x4 : Vec F S8000x64 .f32) (x5 : Vec F S64x64 .f32) (x6 : Vec F S64 .f32) (xa xq : Vec F S1x64 .f32)
theorem coverMiddle_m (y : S8000x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1 S8000x64.size (by sl_kernel_rfl) y
theorem coverMiddle_s (y : S8000x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1 S8000x64.size (by sl_kernel_rfl) y
theorem coverMiddle_g (y : S8000x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1 S8000x64.size (by sl_kernel_rfl) y
theorem coverMiddle_acc (y : S1x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1 S1x64.size (by sl_kernel_rfl) y
theorem coverMiddle_accSq (y : S1x64.Idx) : ∃ pc ∈ (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1, y ∈ pc.1.set :=
  View.cover_of_tiledL (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1 S1x64.size (by sl_kernel_rfl) y
end Middle

section Last
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : ¬ atFirst i) (hl : atLast i) (x1 x2 x3 x4 : Vec F S8000x64 .f32) (x5 : Vec F S64x64 .f32) (x6 : Vec F S64 .f32) (xa xq : Vec F S1x64 .f32)
theorem coverLast_m (y : S8000x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1 S8000x64.size (by sl_kernel_rfl) y
theorem coverLast_s (y : S8000x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1 S8000x64.size (by sl_kernel_rfl) y
theorem coverLast_g (y : S8000x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1 S8000x64.size (by sl_kernel_rfl) y
theorem coverLast_sumOut (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1 S1x64.size (by sl_kernel_rfl) y
theorem coverLast_sqOut (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1 S1x64.size (by sl_kernel_rfl) y
theorem coverLast_acc (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.1 S1x64.size (by sl_kernel_rfl) y
theorem coverLast_accSq (y : S1x64.Idx) : ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.2.1 S1x64.size (by sl_kernel_rfl) y
end Last

end Cert.KernelIdeal.R0

end
-- ==== Proof.EdgePassBody.lean ====
/-
  The edge pass: the body's obligation at every tile.

  At a tile the pipeline hands the body the six inputs' staging buffers at their blocks, the five outputs' at
  whatever they hold, and the invariant (the accumulator rows at what the tile before left, or at anything before
  the first tile). The tile is the first, a middle one or the last; in each case the corresponding run applies, the
  stored pieces cover each stored buffer, and what comes back is the next tile's invariant and every buffer at the
  tile state's component — the two one-row outputs untouched except at the last tile.
-/
import proofs.«175570_j5823975653421_2_alg».proof.Proof.EdgePassData
import proofs.«175570_j5823975653421_2_alg».proof.Proof.EdgePassCovers

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at tile `t`: the invariant, the core owing nothing, the eleven windows' current
    staging buffers at what they then hold, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms0 t) fullShare ((dat V c).after 0 t) from by
    unfold Dat.leavesExact; rw [live_in 0 (by decide) t], after_0]
  rw [show (dat V c).leavesExact 1 t = owns (c : Thread nD τ) (ms1 t) fullShare ((dat V c).after 1 t) from by
    unfold Dat.leavesExact; rw [live_in 1 (by decide) t], after_1]
  rw [show (dat V c).leavesExact 2 t = owns (c : Thread nD τ) (ms2 t) fullShare ((dat V c).after 2 t) from by
    unfold Dat.leavesExact; rw [live_in 2 (by decide) t], after_2]
  rw [show (dat V c).leavesExact 3 t = owns (c : Thread nD τ) (ms3 t) fullShare ((dat V c).after 3 t) from by
    unfold Dat.leavesExact; rw [live_in 3 (by decide) t], after_3]
  rw [show (dat V c).leavesExact 4 t = owns (c : Thread nD τ) (ms4 t) fullShare ((dat V c).after 4 t) from by
    unfold Dat.leavesExact; rw [live_in 4 (by decide) t], after_4]
  rw [show (dat V c).leavesExact 5 t = owns (c : Thread nD τ) (ms5 t) fullShare ((dat V c).after 5 t) from by
    unfold Dat.leavesExact; rw [live_in 5 (by decide) t], after_5]
  rw [show (dat V c).leavesExact 6 t = owns (c : Thread nD τ) (ms6 t) fullShare ((dat V c).after 6 t) from by
    unfold Dat.leavesExact; rw [live_in 6 (by decide) t], after_6]
  rw [show (dat V c).leavesExact 7 t = owns (c : Thread nD τ) (ms7 t) fullShare ((dat V c).after 7 t) from by
    unfold Dat.leavesExact; rw [live_in 7 (by decide) t], after_7]
  rw [show (dat V c).leavesExact 8 t = owns (c : Thread nD τ) (ms8 t) fullShare ((dat V c).after 8 t) from by
    unfold Dat.leavesExact; rw [live_in 8 (by decide) t], after_8]
  have hN : t.val < 100 := lt_of_lt_of_eq t.isLt (show cfg0.N = 100 from N_0)
  by_cases h0 : t.val = 0
  · -- the first tile
    have hf : atFirst (grid0.coords t) := (atFirst_iff t).mpr h0
    have hl : ¬ atLast (grid0.coords t) := fun h => by have := (atLast_iff t).mp h; omega
    rw [Dat.leavesExact_idle (dat V c) 9 t (idle_sum t hl) (noFlush_sum t hl), Dat.leavesExact_idle (dat V c) 10 t (idle_sumsq t hl) (noFlush_sumsq t hl)]
    rw [stateAt_first V c t h0]
    unfold firstState; dsimp only
    rw [inv_castSucc V c t, inv_zero V c _ _ h0, PhiA_eq]
    iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstAt V c t hf hl).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [HA]; · iexact HA
    isplitl [HQ]; · iexact HQ
    iintro ⟨H0, H1, H2, H3, H4, H5, ⟨%e6, H6⟩, ⟨%e7, H7⟩, ⟨%e8, H8⟩, H9, H10, ⟨%ea, HA⟩, ⟨%eq, HQ⟩⟩
    isplitl [HA HQ Hoth Hg]
    · isplitl [HA HQ Hoth]
      · isplitl [HA]
        · unfold owns readRow; iexists _; isplitr
          swap; · iexact HA
          ipureintro; exact View.read_writes_of_cover _ _ _ _ _ (coverFirst_acc c _ _ _ _ _ _ _ _ _ _ _ _ _ _ _ _ _ _ _ _ _ _ _ _ _ _ _ hf hl _ _ _ _ _ _)
        isplitl [HQ]
        · unfold owns readRow; iexists _; isplitr
          swap; · iexact HQ
          ipureintro; exact View.read_writes_of_cover _ _ _ _ _ (coverFirst_accSq c _ _ _ _ _ _ _ _ _ _ _ _ _ _ _ _ _ _ _ _ _ _ _ _ _ _ _ hf hl _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns readTile; iexists _; isplitr
      swap; · iexact H6
      ipureintro; exact View.read_writes_of_cover _ _ _ _ _ (coverFirst_m c _ _ _ _ _ _ _ _ _ _ _ _ _ _ _ _ _ _ _ _ _ _ _ _ _ _ _ hf hl _ _ _ _ _ _)
    isplitl [H7]
    · unfold owns readTile; iexists _; isplitr
      swap; · iexact H7
      ipureintro; exact View.read_writes_of_cover _ _ _ _ _ (coverFirst_s c _ _ _ _ _ _ _ _ _ _ _ _ _ _ _ _ _ _ _ _ _ _ _ _ _ _ _ hf hl _ _ _ _ _ _)
    isplitl [H8]
    · unfold owns readTile; iexists _; isplitr
      swap; · iexact H8
      ipureintro; exact View.read_writes_of_cover _ _ _ _ _ (coverFirst_g c _ _ _ _ _ _ _ _ _ _ _ _ _ _ _ _ _ _ _ _ _ _ _ _ _ _ _ hf hl _ _ _ _ _ _)
    isplitl [H9]; · iexists _; iexact H9
    iexists _; iexact H10
  · by_cases h99 : t.val = 99
    · -- the last tile
      have hf : ¬ atFirst (grid0.coords t) := fun h => h0 ((atFirst_iff t).mp h)
      have hl : atLast (grid0.coords t) := (atLast_iff t).mpr h99
      rw [show (dat V c).leavesExact 9 t = owns (c : Thread nD τ) (ms9 t) fullShare ((dat V c).after 9 t) from by
        unfold Dat.leavesExact; rw [live_sum t hl], after_9]
      rw [show (dat V c).leavesExact 10 t = owns (c : Thread nD τ) (ms10 t) fullShare ((dat V c).after 10 t) from by
        unfold Dat.leavesExact; rw [live_sumsq t hl], after_10]
      rw [stateAt_last V c t h0 h99]
      unfold lastState; dsimp only
      rw [inv_castSucc V c t, inv_pos V c _ _ h0]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t hf hl _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HA]; · iexact HA
      isplitl [HQ]; · iexact HQ
      iintro ⟨H0, H1, H2, H3, H4, H5, ⟨%e6, H6⟩, ⟨%e7, H7⟩, ⟨%e8, H8⟩, ⟨%e9, H9⟩, ⟨%e10, H10⟩, ⟨%ea, HA⟩, ⟨%eq, HQ⟩⟩
      isplitl [HA HQ Hoth Hg]
      · isplitl [HA HQ Hoth]
        · isplitl [HA]
          · unfold owns readRow; iexists _; isplitr
            swap; · iexact HA
            ipureintro; exact View.read_writes_of_cover _ _ _ _ _ (coverLast_acc c _ _ _ _ _ _ _ _ _ _ _ _ _ _ _ _ _ _ _ _ _ _ _ _ _ _ _ hf hl _ _ _ _ _ _ _ _)
          isplitl [HQ]
          · unfold owns readRow; iexists _; isplitr
            swap; · iexact HQ
            ipureintro; exact View.read_writes_of_cover _ _ _ _ _ (coverLast_accSq c _ _ _ _ _ _ _ _ _ _ _ _ _ _ _ _ _ _ _ _ _ _ _ _ _ _ _ hf hl _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns readTile; iexists _; isplitr
        swap; · iexact H6
        ipureintro; exact View.read_writes_of_cover _ _ _ _ _ (coverLast_m c _ _ _ _ _ _ _ _ _ _ _ _ _ _ _ _ _ _ _ _ _ _ _ _ _ _ _ hf hl _ _ _ _ _ _ _ _)
      isplitl [H7]
      · unfold owns readTile; iexists _; isplitr
        swap; · iexact H7
        ipureintro; exact View.read_writes_of_cover _ _ _ _ _ (coverLast_s c _ _ _ _ _ _ _ _ _ _ _ _ _ _ _ _ _ _ _ _ _ _ _ _ _ _ _ hf hl _ _ _ _ _ _ _ _)
      isplitl [H8]
      · unfold owns readTile; iexists _; isplitr
        swap; · iexact H8
        ipureintro; exact View.read_writes_of_cover _ _ _ _ _ (coverLast_g c _ _ _ _ _ _ _ _ _ _ _ _ _ _ _ _ _ _ _ _ _ _ _ _ _ _ _ hf hl _ _ _ _ _ _ _ _)
      isplitl [H9]
      · unfold owns readRow; iexists _; isplitr
        swap; · iexact H9
        ipureintro; exact View.read_writes_of_cover _ _ _ _ _ (coverLast_sumOut c _ _ _ _ _ _ _ _ _ _ _ _ _ _ _ _ _ _ _ _ _ _ _ _ _ _ _ hf hl _ _ _ _ _ _ _ _)
      unfold owns readRow; iexists _; isplitr
      swap; · iexact H10
      ipureintro; exact View.read_writes_of_cover _ _ _ _ _ (coverLast_sqOut c _ _ _ _ _ _ _ _ _ _ _ _ _ _ _ _ _ _ _ _ _ _ _ _ _ _ _ hf hl _ _ _ _ _ _ _ _)
    · -- a middle tile
      have hf : ¬ atFirst (grid0.coords t) := fun h => h0 ((atFirst_iff t).mp h)
      have hl : ¬ atLast (grid0.coords t) := fun h => h99 ((atLast_iff t).mp h)
      rw [Dat.leavesExact_idle (dat V c) 9 t (idle_sum t hl) (noFlush_sum t hl), Dat.leavesExact_idle (dat V c) 10 t (idle_sumsq t hl) (noFlush_sumsq t hl)]
      rw [stateAt_middle V c t h0 h99]
      unfold middleState; dsimp only
      rw [inv_castSucc V c t, inv_pos V c _ _ h0]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((middleAt V c t hf hl _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [H10]; · iexact H10
      isplitl [HA]; · iexact HA
      isplitl [HQ]; · iexact HQ
      iintro ⟨H0, H1, H2, H3, H4, H5, ⟨%e6, H6⟩, ⟨%e7, H7⟩, ⟨%e8, H8⟩, H9, H10, ⟨%ea, HA⟩, ⟨%eq, HQ⟩⟩
      isplitl [HA HQ Hoth Hg]
      · isplitl [HA HQ Hoth]
        · isplitl [HA]
          · unfold owns readRow; iexists _; isplitr
            swap; · iexact HA
            ipureintro; exact View.read_writes_of_cover _ _ _ _ _ (coverMiddle_acc c _ _ _ _ _ _ _ _ _ _ _ _ _ _ _ _ _ _ _ _ _ _ _ _ _ _ _ hf hl _ _ _ _ _ _ _ _)
          isplitl [HQ]
          · unfold owns readRow; iexists _; isplitr
            swap; · iexact HQ
            ipureintro; exact View.read_writes_of_cover _ _ _ _ _ (coverMiddle_accSq c _ _ _ _ _ _ _ _ _ _ _ _ _ _ _ _ _ _ _ _ _ _ _ _ _ _ _ hf hl _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns readTile; iexists _; isplitr
        swap; · iexact H6
        ipureintro; exact View.read_writes_of_cover _ _ _ _ _ (coverMiddle_m c _ _ _ _ _ _ _ _ _ _ _ _ _ _ _ _ _ _ _ _ _ _ _ _ _ _ _ hf hl _ _ _ _ _ _ _ _)
      isplitl [H7]
      · unfold owns readTile; iexists _; isplitr
        swap; · iexact H7
        ipureintro; exact View.read_writes_of_cover _ _ _ _ _ (coverMiddle_s c _ _ _ _ _ _ _ _ _ _ _ _ _ _ _ _ _ _ _ _ _ _ _ _ _ _ _ hf hl _ _ _ _ _ _ _ _)
      isplitl [H8]
      · unfold owns readTile; iexists _; isplitr
        swap; · iexact H8
        ipureintro; exact View.read_writes_of_cover _ _ _ _ _ (coverMiddle_g c _ _ _ _ _ _ _ _ _ _ _ _ _ _ _ _ _ _ _ _ _ _ _ _ _ _ _ hf hl _ _ _ _ _ _ _ _)
      isplitl [H9]; · iexists _; iexact H9
      iexists _; iexact H10

/-- The body's obligation at every tile, in the library's two forms. -/
theorem body_obligation (c : Dev nD) : BodyObligation (dat (F := F) V c) (defs₀ (F := F)) Variants.none () Set.univ := fun t => by
  rw [bigSep_W0, bigSep_W0]
  exact sound_body V c t

theorem body_obligation_loose (c : Dev nD) : BodyObligationLoose (dat (F := F) V c) (defs₀ (F := F)) Variants.none () Set.univ :=
  (body_obligation V c).loose

/-- What the launch hands the region is the invariant before the first tile. -/
theorem inv_in (c : Dev nD) : Pipeline.ΦA spec0 c ⊢ (dat V c).Φ 0 := by
  rw [show (dat V c).Φ 0 = inv V c 0 (Nat.zero_le _) from rfl, inv_zero V c 0 _ rfl]

/-- After the last tile the invariant gives it back: the accumulator rows' named contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 100 := N_0; omega), PhiA_eq]
  iintro ⟨⟨HA, HQ, Hoth⟩, Hg⟩
  isplitl [HA HQ Hoth]
  · isplitl [HA]; · iexists _; iexact HA
    isplitl [HQ]; · iexists _; iexact HQ
    iexact Hoth
  iexact Hg

end Cert.KernelIdeal.R0

end
-- ==== Proof.Region1.lean ====
/- The edge normalisation region, one grid point at a time.

   The region walks 50 grid points. At point `i` it is handed rows `8000·i … 8000·i + 7999` of two
   [400000,128] arrays — the edge pre-activations `x` and the edge features `ef`, each row holding two
   consecutive edges of 64 channels — and, whole, four per-lane rows: the channel means and variances
   ([1,128]) and the scale and shift ([128]), each the 64 channel values written twice. It writes rows
   `8000·i … 8000·i + 7999` of the [400000,128] result: entry by entry
       ef + z · logistic z,   z = ((x − mean) · rsqrt (var + ε)) · scale + shift.
   Nothing is carried from one point to the next: the body reads its six blocks, computes, and overwrites the
   whole output block once. So what a point leaves in the output block is ONE pure function of the six input
   blocks (`normOut`), and the region's proof data say exactly that at every point.

   Everything here holds for any float instance `F` and is stated over a PARAMETER `V`: the contents of the
   core's buffers when the region is entered. -/
import proofs.«175570_j5823975653421_2_alg».proof.Proof.Gen.KernelIdeal.Launch
import proofs.«175570_j5823975653421_2_alg».proof.Proof.Gen.KernelIdeal.Skeleton
import proofs.«175570_j5823975653421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 8000 rows: the structural check recurses once per coordinate of the long axis
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the part of the window's array, as the region finds it, that the
    point is handed (rows `8000·t …` of a [400000,128] array; the whole of a per-lane row). -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0 (the pre-activations, two edges per row): at every grid point its staging buffer holds the window's block there, whether or
    not the block was transferred at that point — a block that is not transferred again has an index that did
    not move, so the buffer still holds it. Stated for any proof data whose array for the window is `V`'s and
    whose body leaves the block in place. -/
theorem held0_of {c : Dev nD} (dat : Dat τ (Elt F) Unit ℕ (UR sig nD τ) ℕ cfg1 c)
    (hA : dat.A 0 = V c (Pipeline.arrRef spec1 0)) (hkept : ∀ t, dat.after 0 t = blk V c 0 t)
    (t : Fin cfg1.N) (d) : dat.before 0 t d = blk V c 0 t :=
  (dat.before_in_eq_fetched 0 rfl (fun _ => rfl) (fun _ _ _ => rfl)
      (fun t => by rw [hkept]; unfold Dat.blockOf blk; rw [hA]; try rfl) t d).trans
    (by unfold Dat.fetched Dat.blockOf blk; rw [hA]; try rfl)

/-- Input window 1 (the edge features, two edges per row): at every grid point its staging buffer holds the window's block there, whether or
    not the block was transferred at that point — a block that is not transferred again has an index that did
    not move, so the buffer still holds it. Stated for any proof data whose array for the window is `V`'s and
    whose body leaves the block in place. -/
theorem held1_of {c : Dev nD} (dat : Dat τ (Elt F) Unit ℕ (UR sig nD τ) ℕ cfg1 c)
    (hA : dat.A 1 = V c (Pipeline.arrRef spec1 1)) (hkept : ∀ t, dat.after 1 t = blk V c 1 t)
    (t : Fin cfg1.N) (d) : dat.before 1 t d = blk V c 1 t :=
  (dat.before_in_eq_fetched 1 rfl (fun _ => rfl) (fun _ _ _ => rfl)
      (fun t => by rw [hkept]; unfold Dat.blockOf blk; rw [hA]; try rfl) t d).trans
    (by unfold Dat.fetched Dat.blockOf blk; rw [hA]; try rfl)

/-- Input window 2 (the channel means, doubled): at every grid point its staging buffer holds the window's block there, whether or
    not the block was transferred at that point — a block that is not transferred again has an index that did
    not move, so the buffer still holds it. Stated for any proof data whose array for the window is `V`'s and
    whose body leaves the block in place. -/
theorem held2_of {c : Dev nD} (dat : Dat τ (Elt F) Unit ℕ (UR sig nD τ) ℕ cfg1 c)
    (hA : dat.A 2 = V c (Pipeline.arrRef spec1 2)) (hkept : ∀ t, dat.after 2 t = blk V c 2 t)
    (t : Fin cfg1.N) (d) : dat.before 2 t d = blk V c 2 t :=
  (dat.before_in_eq_fetched 2 rfl (fun _ => rfl) (fun _ _ _ => rfl)
      (fun t => by rw [hkept]; unfold Dat.blockOf blk; rw [hA]; try rfl) t d).trans
    (by unfold Dat.fetched Dat.blockOf blk; rw [hA]; try rfl)

/-- Input window 3 (the channel variances, doubled): at every grid point its staging buffer holds the window's block there, whether or
    not the block was transferred at that point — a block that is not transferred again has an index that did
    not move, so the buffer still holds it. Stated for any proof data whose array for the window is `V`'s and
    whose body leaves the block in place. -/
theorem held3_of {c : Dev nD} (dat : Dat τ (Elt F) Unit ℕ (UR sig nD τ) ℕ cfg1 c)
    (hA : dat.A 3 = V c (Pipeline.arrRef spec1 3)) (hkept : ∀ t, dat.after 3 t = blk V c 3 t)
    (t : Fin cfg1.N) (d) : dat.before 3 t d = blk V c 3 t :=
  (dat.before_in_eq_fetched 3 rfl (fun _ => rfl) (fun _ _ _ => rfl)
      (fun t => by rw [hkept]; unfold Dat.blockOf blk; rw [hA]; try rfl) t d).trans
    (by unfold Dat.fetched Dat.blockOf blk; rw [hA]; try rfl)

/-- Input window 4 (the scale, doubled): at every grid point its staging buffer holds the window's block there, whether or
    not the block was transferred at that point — a block that is not transferred again has an index that did
    not move, so the buffer still holds it. Stated for any proof data whose array for the window is `V`'s and
    whose body leaves the block in place. -/
theorem held4_of {c : Dev nD} (dat : Dat τ (Elt F) Unit ℕ (UR sig nD τ) ℕ cfg1 c)
    (hA : dat.A 4 = V c (Pipeline.arrRef spec1 4)) (hkept : ∀ t, dat.after 4 t = blk V c 4 t)
    (t : Fin cfg1.N) (d) : dat.before 4 t d = blk V c 4 t :=
  (dat.before_in_eq_fetched 4 rfl (fun _ => rfl) (fun _ _ _ => rfl)
      (fun t => by rw [hkept]; unfold Dat.blockOf blk; rw [hA]; try rfl) t d).trans
    (by unfold Dat.fetched Dat.blockOf blk; rw [hA]; try rfl)

/-- Input window 5 (the shift, doubled): at every grid point its staging buffer holds the window's block there, whether or
    not the block was transferred at that point — a block that is not transferred again has an index that did
    not move, so the buffer still holds it. Stated for any proof data whose array for the window is `V`'s and
    whose body leaves the block in place. -/
theorem held5_of {c : Dev nD} (dat : Dat τ (Elt F) Unit ℕ (UR sig nD τ) ℕ cfg1 c)
    (hA : dat.A 5 = V c (Pipeline.arrRef spec1 5)) (hkept : ∀ t, dat.after 5 t = blk V c 5 t)
    (t : Fin cfg1.N) (d) : dat.before 5 t d = blk V c 5 t :=
  (dat.before_in_eq_fetched 5 rfl (fun _ => rfl) (fun _ _ _ => rfl)
      (fun t => by rw [hkept]; unfold Dat.blockOf blk; rw [hA]; try rfl) t d).trans
    (by unfold Dat.fetched Dat.blockOf blk; rw [hA]; try rfl)

/-! ## What the body reads and writes -/

/-- The whole [8000,128] block, the whole [1,128] row and the whole [128] row: the body's only accesses. -/
abbrev tileRect : Rect S8000x128 := Rect.unit (s := S8000x128) ![0, 0] S8000x128.size inb_S8000x128_S8000x128_0_0
abbrev rowRect : Rect S1x128 := Rect.unit (s := S1x128) ![0, 0] S1x128.size inb_S1x128_S1x128_0_0
abbrev laneRect : Rect S128 := Rect.unit (s := S128) ![0] S128.size inb_S128_S128_0

/-- The output block after the body, as a function of the six input blocks: the body's single store, which
    covers the block, of the body's arithmetic (`k1_pay1`) applied to what its loads read. -/
def normOut (x ef : Vec F S8000x128 .f32) (mean var : Vec F S1x128 .f32) (g b : Vec F S128 .f32) :
    Vec F S8000x128 .f32 :=
  View.canon [⟨tileRect, k1_pay1 (View.ld x tileRect) (View.ld mean rowRect) (View.ld var rowRect)
    (View.ld g laneRect) (View.ld b laneRect) (View.ld ef tileRect)⟩]

/-- The single store is the whole block, so every entry of the block lies in it. -/
theorem normOut_covers (p : Vec F S8000x128 .f32) (y : S8000x128.Idx) :
    ∃ pc ∈ ([⟨tileRect, p⟩] : List (View.Piece (Elt F) S8000x128 .f32)), y ∈ pc.1.set :=
  View.cover_of_tiled [⟨tileRect, p⟩] S8000x128.size (by rfl) y

/-! ## The body's triple -/

set_option maxHeartbeats 1000000 in
/-- The body on seven whole staging buffers — the six inputs' reading `x, ef, mean, var, g, b`, the output's
    holding anything — runs to the end leaving the inputs' as they were and the output's reading
    `normOut x ef mean var g b`: six loads, a load of the output buffer whose value is never used, and one
    store over the whole output block. -/
theorem sound_kernel (c : Dev nD) (E : Set ℕ) (i : grid1.Coords)
    (arg1 : Memref sig .tc .vmem S8000x128 .f32) (harg1 : arg1.IsWhole)
    (arg2 : Memref sig .tc .vmem S8000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S8000x128 .f32) (harg7 : arg7.IsWhole)
    (x ef : Vec F S8000x128 .f32) (mean var : Vec F S1x128 .f32) (g b : Vec F S128 .f32)
    (K : PUnit → sProp 𝕄) :
    iprop(owns (c : Thread nD τ) arg1 fullShare x ∗ owns (c : Thread nD τ) arg2 fullShare ef
        ∗ owns (c : Thread nD τ) arg3 fullShare mean ∗ owns (c : Thread nD τ) arg4 fullShare var
        ∗ owns (c : Thread nD τ) arg5 fullShare g ∗ owns (c : Thread nD τ) arg6 fullShare b
        ∗ (∃ d, owns (c : Thread nD τ) arg7 fullShare d)
        ∗ (iprop(owns (c : Thread nD τ) arg1 fullShare x ∗ owns (c : Thread nD τ) arg2 fullShare ef
            ∗ owns (c : Thread nD τ) arg3 fullShare mean ∗ owns (c : Thread nD τ) arg4 fullShare var
            ∗ owns (c : Thread nD τ) arg5 fullShare g ∗ owns (c : Thread nD τ) arg6 fullShare b
            ∗ owns (c : Thread nD τ) arg7 fullShare (normOut x ef mean var g b)) -∗ K ⟨⟩))
      ⊢ wp frame (wpE (defs₀ (F := F)) Variants.none c none) E
          (cc1__norm_kernel i arg1 harg1 arg2 harg2 arg3 harg3 arg4 harg4 arg5 harg5 arg6 harg6 arg7 harg7) K := by
  simp only [cc1__norm_kernel_eq_skeleton]; unfold cc1__norm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (normOut_covers _)

/-! ## The region's proof data -/

/-- The proof data of the region on core `c`: each window's array as the region finds it (`V`); after the body
    at point `t` each input's buffer still at its block and the output's at `normOut` of the six input blocks;
    the invariant carried from point to point is only what the region does not touch (the scoped buffers no
    window stages and the generator register); nothing is owed to another core; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => normOut (blk V c 0 t) (blk V c 1 t) (blk V c 2 t) (blk V c 3 t) (blk V c 4 t) (blk V c 5 t)
  Φ _ := Pipeline.ΦA spec1 c
  q _ := fullShare
  owed _ := 0

/-- The proof data's arrays are the region-entry contents. -/
theorem A_eq (c : Dev nD) (w : Fin cfg1.W) : (dat1 V c).A w = V c (Pipeline.arrRef spec1 w) := by
  dsimp only [dat1]

/-- What the body leaves, window by window. -/
theorem after_0 (c : Dev nD) (t : Fin cfg1.N) : (dat1 V c).after 0 t = blk V c 0 t := by dsimp only [dat1]
theorem after_1 (c : Dev nD) (t : Fin cfg1.N) : (dat1 V c).after 1 t = blk V c 1 t := by dsimp only [dat1]
theorem after_2 (c : Dev nD) (t : Fin cfg1.N) : (dat1 V c).after 2 t = blk V c 2 t := by dsimp only [dat1]
theorem after_3 (c : Dev nD) (t : Fin cfg1.N) : (dat1 V c).after 3 t = blk V c 3 t := by dsimp only [dat1]
theorem after_4 (c : Dev nD) (t : Fin cfg1.N) : (dat1 V c).after 4 t = blk V c 4 t := by dsimp only [dat1]
theorem after_5 (c : Dev nD) (t : Fin cfg1.N) : (dat1 V c).after 5 t = blk V c 5 t := by dsimp only [dat1]
theorem after_6 (c : Dev nD) (t : Fin cfg1.N) : (dat1 V c).after 6 t =
    normOut (blk V c 0 t) (blk V c 1 t) (blk V c 2 t) (blk V c 3 t) (blk V c 4 t) (blk V c 5 t) := by
  dsimp only [dat1]

/-- What each input's staging buffer holds when the body starts at point `t`: the window's block there. -/
theorem before_0 (c : Dev nD) (t : Fin cfg1.N) (d) : (dat1 V c).before 0 t d = blk V c 0 t :=
  held0_of V (dat1 V c) (A_eq V c 0) (after_0 V c) t d
theorem before_1 (c : Dev nD) (t : Fin cfg1.N) (d) : (dat1 V c).before 1 t d = blk V c 1 t :=
  held1_of V (dat1 V c) (A_eq V c 1) (after_1 V c) t d
theorem before_2 (c : Dev nD) (t : Fin cfg1.N) (d) : (dat1 V c).before 2 t d = blk V c 2 t :=
  held2_of V (dat1 V c) (A_eq V c 2) (after_2 V c) t d
theorem before_3 (c : Dev nD) (t : Fin cfg1.N) (d) : (dat1 V c).before 3 t d = blk V c 3 t :=
  held3_of V (dat1 V c) (A_eq V c 3) (after_3 V c) t d
theorem before_4 (c : Dev nD) (t : Fin cfg1.N) (d) : (dat1 V c).before 4 t d = blk V c 4 t :=
  held4_of V (dat1 V c) (A_eq V c 4) (after_4 V c) t d
theorem before_5 (c : Dev nD) (t : Fin cfg1.N) (d) : (dat1 V c).before 5 t d = blk V c 5 t :=
  held5_of V (dat1 V c) (A_eq V c 5) (after_5 V c) t d

/-! ## The body obligation, at a generic point -/

/-- What the body is started with at point `t`: the invariant, the core's dues, and the seven staging buffers, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it must give back. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six input buffers hold their blocks (`before_w`), so the body's triple applies at
    those blocks; the invariant and the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat1 V c).Φ t.succ = (dat1 V c).Φ t.castSucc from rfl,
    show (dat1 V c).owesAt () t.succ = (dat1 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _
    (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point, -/
theorem body_obligation (c : Dev nD) :
    BodyObligation (dat1 (F := F) V c) (defs₀ (F := F)) Variants.none () Set.univ := fun t => by
  rw [bigSep_W1, bigSep_W1]
  exact sound_body V c t

/-- and in the weaker form a region's segment record asks for. -/
theorem body_obligation_loose (c : Dev nD) :
    BodyObligationLoose (dat1 (F := F) V c) (defs₀ (F := F)) Variants.none () Set.univ :=
  (body_obligation V c).loose

end Cert.KernelIdeal.R1

end
-- ==== Proof.KernelFold.lean ====
/-
  The idealized kernel program as a whole, first part: what the unscoped buffers hold at each boundary between
  @main's items. @main is: host operations (the four node projections, the wrapped indices, the three row
  gathers); the edge pass; host operations (mean and variance from the two sums, the two segment sums, the node
  branch); the node branch's SiLU; the node residual with the re-layouts and the doubled parameter rows; the
  normalisation pass; the re-layout of its result. Each pallas region changes only its own outputs' arrays, and
  leaves in each what its tiles' write-backs fold to.
-/
import proofs.«175570_j5823975653421_2_alg».proof.Proof.Gen.KernelIdeal.Regions
import proofs.«175570_j5823975653421_2_alg».proof.Proof.EdgePassBody
import proofs.«175570_j5823975653421_2_alg».proof.Proof.Region1
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The edge pass's entry and exit contents -/

/-- What the edge pass is entered from: the launch contents after the first stretch of host operations. -/
abbrev entry0 (c : Dev nD) (b : Ref sig .tc) : Buf (Elt F) ((c : Thread nD τ).loc b) := V1 m c b

/-- At its exit: its windows' arrays at what the pipeline leaves, every other buffer as entered. -/
def exit0 (c : Dev nD) : Valuation τ sig (Elt F) :=
  Pipeline.withArrays spec0 c (V1 m c) fun w => (R0.dat (entry0 m) c).arrAt w cfg0.N

theorem exit0_arr (c : Dev nD) (w : Fin cfg0.W) :
    exit0 m c (Proc.devRef .tc (Pipeline.arrRef spec0 w)) = (R0.dat (entry0 m) c).arrAt w cfg0.N := by
  unfold exit0; exact Pipeline.withArrays_arr spec0 launch0.win.arr_inj c _ _ w

/-- The contents the regions leave, first step: the edge pass's only. -/
def outs0 : Outs (F := F) := fun _ r c => exit0 m c (Proc.devRef .tc r)

/-! ## The normalisation pass's entry and exit contents -/

abbrev entry1 (c : Dev nD) (b : Ref sig .tc) : Buf (Elt F) ((c : Thread nD τ).loc b) := V5 m (outs0 m) c b

def exit1 (c : Dev nD) : Valuation τ sig (Elt F) :=
  Pipeline.withArrays spec1 c (V5 m (outs0 m) c) fun w => (R1.dat1 (entry1 m) c).arrAt w cfg1.N

theorem exit1_arr (c : Dev nD) (w : Fin cfg1.W) :
    exit1 m c (Proc.devRef .tc (Pipeline.arrRef spec1 w)) = (R1.dat1 (entry1 m) c).arrAt w cfg1.N := by
  unfold exit1; exact Pipeline.withArrays_arr spec1 launch1.win.arr_inj c _ _ w

/-- The contents the regions leave: after item 5 the normalisation pass's, otherwise the edge pass's. -/
def outs : Outs (F := F) := fun j r c => match j with
  | 6 => exit1 m c (Proc.devRef .tc r)
  | _ => exit0 m c (Proc.devRef .tc r)

theorem V2_outs (c : Dev nD) : V2 m (outs m) c = V2 m (outs0 m) c := rfl
theorem V5_outs (c : Dev nD) : V5 m (outs m) c = V5 m (outs0 m) c := rfl

/-! ## Reading the contents after the edge pass at its windows' arrays -/

theorem ne_dev {a b : Ref sig .tc} (h : a ≠ b) : (Proc.devRef .tc a : DevRef τ sig) ≠ Proc.devRef .tc b := StableHlo.devRef_ne_of_ne h

theorem V2_m (o : Outs (F := F)) (c : Dev nD) : V2 m o c main_v37_0 = o 2 main_v37_0 c := by
  simp only [V2, Function.update_of_ne (ne_dev (by decide : main_v37_0 ≠ main_v37_4)), Function.update_of_ne (ne_dev (by decide : main_v37_0 ≠ main_v37_3)),
    Function.update_of_ne (ne_dev (by decide : main_v37_0 ≠ main_v37_2)), Function.update_of_ne (ne_dev (by decide : main_v37_0 ≠ main_v37_1)), Function.update_self]
theorem V2_s (o : Outs (F := F)) (c : Dev nD) : V2 m o c main_v37_1 = o 2 main_v37_1 c := by
  simp only [V2, Function.update_of_ne (ne_dev (by decide : main_v37_1 ≠ main_v37_4)), Function.update_of_ne (ne_dev (by decide : main_v37_1 ≠ main_v37_3)),
    Function.update_of_ne (ne_dev (by decide : main_v37_1 ≠ main_v37_2)), Function.update_self]
theorem V2_g (o : Outs (F := F)) (c : Dev nD) : V2 m o c main_v37_2 = o 2 main_v37_2 c := by
  simp only [V2, Function.update_of_ne (ne_dev (by decide : main_v37_2 ≠ main_v37_4)), Function.update_of_ne (ne_dev (by decide : main_v37_2 ≠ main_v37_3)), Function.update_self]
theorem V2_sum (o : Outs (F := F)) (c : Dev nD) : V2 m o c main_v37_3 = o 2 main_v37_3 c := by
  simp only [V2, Function.update_of_ne (ne_dev (by decide : main_v37_3 ≠ main_v37_4)), Function.update_self]
theorem V2_sumsq (o : Outs (F := F)) (c : Dev nD) : V2 m o c main_v37_4 = o 2 main_v37_4 c := by
  simp only [V2, Function.update_self]

/-- An input window's array is not one of the five the edge pass may change. -/
theorem input_of_not_out : ∀ w : Fin cfg0.W, Pipeline.arrRef spec0 w ∉ ([main_v37_0, main_v37_1, main_v37_2, main_v37_3, main_v37_4] : List (Ref sig .tc)) → (cfg0.win w).isOut = false := by
  decide

/-- After the edge pass the generated boundary contents are, at every TensorCore reference, the entry contents with
    the windows' arrays at what the pipeline leaves. -/
theorem V2_eq_exit0 (c : Dev nD) (b : Ref sig .tc) : V2 m (outs m) c b = exit0 m c (Proc.devRef .tc b) := by
  by_cases h5 : b ∈ ([main_v37_0, main_v37_1, main_v37_2, main_v37_3, main_v37_4] : List (Ref sig .tc))
  · simp only [List.mem_cons, List.mem_nil_iff, or_false] at h5
    rcases h5 with rfl | rfl | rfl | rfl | rfl
    · exact V2_m m (outs m) c
    · exact V2_s m (outs m) c
    · exact V2_g m (outs m) c
    · exact V2_sum m (outs m) c
    · exact V2_sumsq m (outs m) c
  · rw [V2_of m (outs m) c b h5]
    by_cases hw : ∃ w, Pipeline.arrRef spec0 w = b
    · obtain ⟨w, rfl⟩ := hw
      rw [exit0_arr]
      exact (R0.A_eq (entry0 m) c w).symm.trans ((R0.dat (entry0 m) c).arrAt_in w (input_of_not_out w h5) cfg0.N).symm
    · unfold exit0
      exact (Pipeline.withArrays_of_ne spec0 c _ _ b fun w e => hw ⟨w, e⟩).symm

/-- Each of the edge pass's arrays holds, at its exit, what the pipeline leaves: an input its entry contents, an
    output the fold of its tiles' write-backs. -/
theorem left0 (c : Dev nD) (w : Fin cfg0.W) : (R0.dat (entry0 m) c).arrAt w cfg0.N = V2 m (outs m) c (Pipeline.arrRef spec0 w) :=
  (exit0_arr m c w).symm.trans (V2_eq_exit0 m c (Pipeline.arrRef spec0 w)).symm

/-- Every other buffer is as the edge pass found it. -/
theorem kept0 (c : Dev nD) : ∀ b : Ref sig .tc, b ∉ Finset.univ.image (Pipeline.arrRef spec0) → V2 m (outs m) c b = V1 m c b := fun b hb => by
  rw [V2_eq_exit0]; unfold exit0
  exact Pipeline.withArrays_of_ne spec0 c _ _ b fun w e => hb (Finset.mem_image.mpr ⟨w, Finset.mem_univ _, e⟩)

/-! ## Reading the contents after the normalisation pass at its windows' arrays -/

theorem V6_y (o : Outs (F := F)) (c : Dev nD) : V6 m o c main_v89 = o 6 main_v89 c := by
  simp only [V6, Function.update_self]

theorem input_of_not_out1 : ∀ w : Fin cfg1.W, Pipeline.arrRef spec1 w ∉ ([main_v89] : List (Ref sig .tc)) → (cfg1.win w).isOut = false := by
  decide

theorem V6_eq_exit1 (c : Dev nD) (b : Ref sig .tc) : V6 m (outs m) c b = exit1 m c (Proc.devRef .tc b) := by
  by_cases h1 : b ∈ ([main_v89] : List (Ref sig .tc))
  · simp only [List.mem_cons, List.mem_nil_iff, or_false] at h1
    subst h1
    exact V6_y m (outs m) c
  · rw [V6_of m (outs m) c b h1, V5_outs]
    by_cases hw : ∃ w, Pipeline.arrRef spec1 w = b
    · obtain ⟨w, rfl⟩ := hw
      rw [exit1_arr]
      exact (R1.A_eq (entry1 m) c w).symm.trans ((R1.dat1 (entry1 m) c).arrAt_in w (input_of_not_out1 w h1) cfg1.N).symm
    · unfold exit1
      exact (Pipeline.withArrays_of_ne spec1 c _ _ b fun w e => hw ⟨w, e⟩).symm

theorem left1 (c : Dev nD) (w : Fin cfg1.W) : (R1.dat1 (entry1 m) c).arrAt w cfg1.N = V6 m (outs m) c (Pipeline.arrRef spec1 w) :=
  (exit1_arr m c w).symm.trans (V6_eq_exit1 m c (Pipeline.arrRef spec1 w)).symm

theorem kept1 (c : Dev nD) : ∀ b : Ref sig .tc, b ∉ Finset.univ.image (Pipeline.arrRef spec1) → V6 m (outs m) c b = V5 m (outs m) c b := fun b hb => by
  rw [V6_eq_exit1, V5_outs]; unfold exit1
  exact Pipeline.withArrays_of_ne spec1 c _ _ b fun w e => hb (Finset.mem_image.mpr ⟨w, Finset.mem_univ _, e⟩)

end Cert.KernelIdeal.Whole

end
-- ==== Proof.KernelRegions.lean ====
/-
  The idealized kernel program as a whole, second part: each pallas region as a segment of @main over the thread
  state "every unscoped buffer at the boundary's contents, the generator register at some state, nothing owed".
  A region splits its windows' arrays out of the unscoped buffers at entry and puts them back at what the pipeline
  leaves at exit. The edge pass carries its two accumulator rows through its own invariant, which begins and ends
  as the plain one (the rows at anything); the normalisation pass carries nothing.
-/
import proofs.«175570_j5823975653421_2_alg».proof.Proof.KernelFold

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents: a literal match, so that the pinned
    configuration at a numeral reduces to the printed one. -/
def pdats : (p : Fin 2) → (c : Dev nD) → Dat τ (Elt F) Unit ℕ (UR sig nD τ) ℕ (cfgs p) c
  | ⟨0, _⟩ => fun c => R0.dat (entry0 m) c
  | ⟨1, _⟩ => fun c => R1.dat1 (entry1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev rest (c : Dev nD) : sProp 𝕄 := iprop((∃ r, prngReg c r) ∗ ∃ W, owes (c : Thread nD τ) (0 : CellTallies nD τ sig Unit) W)

/-! ## The edge pass as a segment -/

-- a library lemma stated over the pinned configuration unifies with the printed one only when unification may unfold
-- plain definitions in a metavariable's type
set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := R0.body_obligation_loose (entry0 m) c
  hwaits := Pipeline.hwaits_of_owed_zero _ _ _ _ L lv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.inv_in (entry0 m) c)
    unfold Pipeline.ΦA
    iintro ⟨Hp, -, Hr⟩
    isplitl [Hr]; · iexact Hr
    iexact Hp
  hout c := by
    refine (R0.inv_out (entry0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The normalisation pass as a segment -/

-- a library lemma stated over the pinned configuration unifies with the printed one only when unification may unfold
-- plain definitions in a metavariable's type
set_option backward.isDefEq.respectTransparency.types false in
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := R1.body_obligation_loose (entry1 m) c
  hwaits := Pipeline.hwaits_of_owed_zero _ _ _ _ L lv 1 fun _ _ => rfl
  pre c := iprop(StableHlo.held (c : Thread nD τ) (Pipeline.ucRefs τ sig) (V5 m (outs m) c) ∗ rest c)
  post c := iprop(StableHlo.held (c : Thread nD τ) (Pipeline.ucRefs τ sig) (V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outs m) c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelRun.lean ====
/-
  The idealized kernel program as a whole, third part: the run. Every weakly fair execution of @main terminates,
  and in every final memory each unscoped buffer holds what the last boundary's contents say: the launch contents
  folded through the host stretches and the two regions' exits. The frame claim reads the eighteen arguments off
  that; the value claim reads the two results.
-/
import proofs.«175570_j5823975653421_2_alg».proof.Proof.KernelRegions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's element of the resource algebra: the pipeline library's own, at every pipeline's staging cells. -/
abbrev u₀ : UR sig nD τ := initOf (Pipeline.cells cfgs cellOf_inj) (Pipeline.launchToks cfgs cellOf_inj)

theorem launch_owns : (ownU (u₀) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides along is made on every core at once from what the launch deals. -/
theorem rest_init : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : rest (F := F) c ⊢ (iprop(∃ W, owes (c : Thread nD τ) (0 : CellTallies nD τ sig Unit) W) : sProp 𝕄) := by
  iintro ⟨-, HO⟩; iexact HO

/-- THE FRAME of the program, at any instance of the float operations: the generated host side over the two
    regions' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond m emb₁ () 𝒱₀ L lv (fun _ _ => rfl) ρ (outs m) (pdats m) 0 (fun _ => iprop(emp)) u₀ (launch_owns)
    (fun _ c => rest c) (rest_init ρ) (fun c => rest_owes c)
    (reg0 m) (fun _ => .rfl) (fun _ => .rfl) (reg1 m) (fun _ => .rfl) (fun _ => .rfl)

end Cert.KernelIdeal.Whole

end
-- ==== Proof.RefGen.lean ====
/-
  The reference's run, taken from the generated modules: every weakly fair execution of the reference ends with
  each result at the composed term of its host operations (Run), and each operation read at an index (Read).
  This module only gathers the two imports; what is proved about the reference's results lives in the modules
  that import it.
-/
import proofs.«175570_j5823975653421_2_alg».proof.Proof.Gen.ReferenceIdeal.Run
import proofs.«175570_j5823975653421_2_alg».proof.Proof.Gen.ReferenceIdeal.Read
-- ==== Proof.Frames.lean ====
/-
  The three frame claims and the preservation claim.

  Each program terminates on every weakly fair execution, faults nowhere and leaves its eighteen argument arrays
  as launched. For the kernel program, read at words and read at extended reals, this is the run of @main's seven
  items over the two pallas regions' segments; for the reference, a host program with no kernel, it is its run with
  the two results dropped. The ideal pass rewrote nothing in the kernel (its ledger is empty), so preservation asks
  nothing.
-/
import proofs.«175570_j5823975653421_2_alg».proof.Defs
import proofs.«175570_j5823975653421_2_alg».proof.Proof.WordKernelRun
import proofs.«175570_j5823975653421_2_alg».proof.Proof.KernelRun
import proofs.«175570_j5823975653421_2_alg».proof.Proof.RefGen
import proofs.«175570_j5823975653421_2_alg».proof.Proof.Gen.Kernel
import proofs.«175570_j5823975653421_2_alg».proof.Proof.Gen.KernelIdeal
import proofs.«175570_j5823975653421_2_alg».proof.Proof.Gen.ReferenceIdeal
import proofs.«175570_j5823975653421_2_alg».proof.Proof.Gen.Pre_finite_inputs

noncomputable section

namespace Cert.Proof.Parts

open Idealize.ShloMosaic Idealize.SL.Sem

theorem frame_word : Cert.frame_Kernel (hKernel := Cert.Kernel.Gen.facts) (hPre_finite_inputs := Cert.Pre_finite_inputs.Gen.facts) :=
  fun m ρ _ => Cert.Kernel.Whole.frame m ρ

theorem frame_ideal : Cert.frame_KernelIdeal (hKernelIdeal := Cert.KernelIdeal.Gen.facts) (hPre_finite_inputs := Cert.Pre_finite_inputs.Gen.facts) :=
  fun m ρ _ => Cert.KernelIdeal.Whole.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

end Cert.Proof.Parts

end
-- ==== Proof.KernelResults.lean ====
/-
  The kernel program as a whole, fourth part: the run with every unscoped buffer read at the end. Every weakly fair
  execution of @main terminates, and in every final memory each unscoped buffer of each core holds what the last
  boundary's contents say. The two results (the node output and the re-laid edge output) are two of these buffers.
-/
import proofs.«175570_j5823975653421_2_alg».proof.Proof.KernelRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's seven items as segments on core `c`: the generated host stretches' and the two regions'. -/
abbrev items (c : Dev nD) : List (Seg (pcfgs (F := F)) adm (pdats m) () defs₀ 𝒱₀ L lv) :=
  segs m (outs m) 𝒱₀ L lv (fun _ c => rest c) () (pdats m) (reg0 m) (reg1 m) c

-- the run theorem's implicit arguments are found by unifying its conclusion with this one, which takes unfolding
-- plain definitions in a metavariable's type
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [items, segs, Seg.pipes_host, Seg.pipes_region, Seg.pipes_nil]; decide) 0 (fun _ _ => rfl) (fun _ => iprop(emp)) u₀ launch_owns
    (T₀ := fun c => iprop(StableHlo.held (c : Thread nD τ) (Pipeline.ucRefs τ sig) (V0 m c) ∗ rest c))
    (Tₙ := fun c => StableHlo.held (c : Thread nD τ) (Pipeline.ucRefs τ sig) (V7 m (outs m) c))
    (hch := fun c => ⟨.rfl, .rfl, .rfl, .rfl, .rfl, .rfl, .rfl, sep_mono .rfl (rest_owes c)⟩)
    (hinit := ?_) (QY := fun c s => ∀ b ∈ Pipeline.ucRefs τ sig, s.mem ((c : Thread nD τ).1, b) = V7 m (outs m) c b)
    (hfin := fun c s' => ?_) (hQ := fun _ h => h)
  · -- the launch: the unscoped buffers are held at the launch contents; the rest is made on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init (F := F) ρ) $$ [Hr Hla] with HE
    · isplitl [Hr]; · iexact Hr
      iexact Hla
    imodintro
    iapply (show (iprop((bigSep Finset.univ fun c : Dev nD => StableHlo.held (c : Thread nD τ) (Pipeline.ucRefs τ sig) (V0 m c))
          ∗ bigSep Finset.univ fun c : Dev nD => rest (F := F) c) : sProp 𝕄)
        ⊢ bigSep Finset.univ fun c : Dev nD => iprop(StableHlo.held (c : Thread nD τ) (Pipeline.ucRefs τ sig) (V0 m c) ∗ rest (F := F) c)
      from by rw [← bigSep_sep'])
    isplitl [Hh]; · iexact Hh
    iexact HE
  · -- the end: every unscoped buffer read off the last boundary's contents
    unfold StableHlo.held
    iintro ⟨Hh, HSI⟩
    imodintro
    iapply (pointsTo_read_all (Pipeline.ucRefs τ sig) (fun b => ((c : Thread nD τ).1, b)) (V7 m (outs m) c) s')
    isplitl [Hh] <;> iassumption

end Cert.KernelIdeal.Whole

end
-- ==== Proof.KernelEnds.lean ====
/-
  The kernel program's run with its two results named: the node output and the edge output are what the last
  boundary's contents hold at their two buffers, and the eighteen arguments end as launched.
-/
import proofs.«175570_j5823975653421_2_alg».proof.Proof.KernelResults

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The node output and the edge output of the kernel program on core `c`. -/
abbrev nodeOut (c : Dev nD) : Buf (Elt F) ((c.tc : Thread nD τ).loc main_v82) := V7 m (outs m) c main_v82
abbrev edgeOut (c : Dev nD) : Buf (Elt F) ((c.tc : Thread nD τ).loc main_v90) := V7 m (outs m) c main_v90

theorem run_named : θ_run defs (onTc (τ := τ) (main (F := F))) ⟨m, fun _ => 0, ρ⟩ (fun r => ∀ c : Dev nD,
      r.2.mem ((c.tc : Thread nD τ).loc main_v82) = nodeOut m c
      ∧ r.2.mem ((c.tc : Thread nD τ).loc main_v90) = edgeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v82 (by decide)), h c _ (mem_uc main_v90 (by decide)),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c),
     (h c _ (mem_uc main_arg7 (by decide))).trans (V7_main_arg7 m (outs m) c),
     (h c _ (mem_uc main_arg8 (by decide))).trans (V7_main_arg8 m (outs m) c),
     (h c _ (mem_uc main_arg9 (by decide))).trans (V7_main_arg9 m (outs m) c),
     (h c _ (mem_uc main_arg10 (by decide))).trans (V7_main_arg10 m (outs m) c),
     (h c _ (mem_uc main_arg11 (by decide))).trans (V7_main_arg11 m (outs m) c),
     (h c _ (mem_uc main_arg12 (by decide))).trans (V7_main_arg12 m (outs m) c),
     (h c _ (mem_uc main_arg13 (by decide))).trans (V7_main_arg13 m (outs m) c),
     (h c _ (mem_uc main_arg14 (by decide))).trans (V7_main_arg14 m (outs m) c),
     (h c _ (mem_uc main_arg15 (by decide))).trans (V7_main_arg15 m (outs m) c),
     (h c _ (mem_uc main_arg16 (by decide))).trans (V7_main_arg16 m (outs m) c),
     (h c _ (mem_uc main_arg17 (by decide))).trans (V7_main_arg17 m (outs m) c)⟩)
    (run_all m ρ)

end Cert.KernelIdeal.Whole

end
-- ==== Proof.EdgePassPieces.lean ====
/-
  The edge pass: what the stored pieces ARE. Each buffer the body stores into is stored whole, once or (the
  accumulator rows at the first tile, cleared and then added to) twice; the last piece stored is what the buffer
  holds, and its value is the body's arithmetic on the loaded blocks: the pre-activations, their logistic, the gated
  product, and the two accumulator rows advanced by the tile's column sums.
-/
import proofs.«175570_j5823975653421_2_alg».proof.Proof.EdgePassData
import proofs.«175570_j5823975653421_2_alg».proof.Proof.EdgePassCovers
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem zero2 : (![0, 0] : Fin 2 → ℕ) = fun _ => 0 := by funext a; match a with | ⟨0, _⟩ => rfl | ⟨1, _⟩ => rfl
theorem zero1 : (![0] : Fin 1 → ℕ) = fun _ => 0 := by funext a; match a with | ⟨0, _⟩ => rfl

section First
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : atFirst i) (hl : ¬ atLast i) (x1 x2 x3 x4 : Vec F S8000x64 .f32) (x5 : Vec F S64x64 .f32) (x6 : Vec F S64 .f32)
theorem first_m : readTile (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).1 = k0_pay4 x1 x5 x6 x2 x3 := by
  unfold readTile
  rw [View.read_writes_eq_canon _ _ _ (coverFirst_m c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6)]
  unfold runFirst; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem first_s : readTile (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.1 = k0_pay5 x1 x5 x6 x2 x3 := by
  unfold readTile
  rw [View.read_writes_eq_canon _ _ _ (coverFirst_s c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6)]
  unfold runFirst; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem first_g : readTile (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.1 = k0_pay6 x1 x5 x6 x2 x3 x4 := by
  unfold readTile
  rw [View.read_writes_eq_canon _ _ _ (coverFirst_g c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6)]
  unfold runFirst; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem first_acc : readRow (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.1 = k0_pay7 x1 x5 x6 x2 x3 (k0_pay2 (F := F)) := by
  unfold readRow
  rw [View.read_writes_eq_canon _ _ _ (coverFirst_acc c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6)]
  unfold runFirst; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
  unfold runFirst.sl.v23 runFirst.sl.HA_1
  rw [View.readCov_unit_zero _ zero2]
theorem first_accSq : readRow (runFirst (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6).2.2.2.2.1 = k0_pay1 (k0_pay4 x1 x5 x6 x2 x3) (k0_pay3 (F := F)) := by
  unfold readRow
  rw [View.read_writes_eq_canon _ _ _ (coverFirst_accSq c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6)]
  unfold runFirst; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
  unfold runFirst.sl.v30 runFirst.sl.HQ_1
  rw [View.readCov_unit_zero _ zero2]
end First

section Middle
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : ¬ atFirst i) (hl : ¬ atLast i) (x1 x2 x3 x4 : Vec F S8000x64 .f32) (x5 : Vec F S64x64 .f32) (x6 : Vec F S64 .f32) (xa xq : Vec F S1x64 .f32)
theorem middle_m : readTile (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1 = k0_pay4 x1 x5 x6 x2 x3 := by
  unfold readTile
  rw [View.read_writes_eq_canon _ _ _ (coverMiddle_m c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runMiddle; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem middle_s : readTile (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1 = k0_pay5 x1 x5 x6 x2 x3 := by
  unfold readTile
  rw [View.read_writes_eq_canon _ _ _ (coverMiddle_s c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runMiddle; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem middle_g : readTile (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1 = k0_pay6 x1 x5 x6 x2 x3 x4 := by
  unfold readTile
  rw [View.read_writes_eq_canon _ _ _ (coverMiddle_g c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runMiddle; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem middle_acc : readRow (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1 = k0_pay7 x1 x5 x6 x2 x3 xa := by
  unfold readRow
  rw [View.read_writes_eq_canon _ _ _ (coverMiddle_acc c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runMiddle; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem middle_accSq : readRow (runMiddle (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1 = k0_pay1 (k0_pay4 x1 x5 x6 x2 x3) xq := by
  unfold readRow
  rw [View.read_writes_eq_canon _ _ _ (coverMiddle_accSq c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runMiddle; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
end Middle

section Last
variable (c : Dev nD) (i : grid0.Coords)
  (arg1 : Memref sig .tc .vmem S8000x64 .f32) (harg1 : arg1.IsWhole) (arg2 : Memref sig .tc .vmem S8000x64 .f32) (harg2 : arg2.IsWhole)
  (arg3 : Memref sig .tc .vmem S8000x64 .f32) (harg3 : arg3.IsWhole) (arg4 : Memref sig .tc .vmem S8000x64 .f32) (harg4 : arg4.IsWhole)
  (arg5 : Memref sig .tc .vmem S64x64 .f32) (harg5 : arg5.IsWhole) (arg6 : Memref sig .tc .vmem S64 .f32) (harg6 : arg6.IsWhole)
  (arg7 : Memref sig .tc .vmem S8000x64 .f32) (harg7 : arg7.IsWhole) (arg8 : Memref sig .tc .vmem S8000x64 .f32) (harg8 : arg8.IsWhole)
  (arg9 : Memref sig .tc .vmem S8000x64 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32) (harg12 : arg12.IsWhole)
  (arg13 : Memref sig .tc .vmem S1x64 .f32) (harg13 : arg13.IsWhole)
  (hf : ¬ atFirst i) (hl : atLast i) (x1 x2 x3 x4 : Vec F S8000x64 .f32) (x5 : Vec F S64x64 .f32) (x6 : Vec F S64 .f32) (xa xq : Vec F S1x64 .f32)
theorem last_m : readTile (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).1 = k0_pay4 x1 x5 x6 x2 x3 := by
  unfold readTile
  rw [View.read_writes_eq_canon _ _ _ (coverLast_m c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem last_s : readTile (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.1 = k0_pay5 x1 x5 x6 x2 x3 := by
  unfold readTile
  rw [View.read_writes_eq_canon _ _ _ (coverLast_s c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem last_g : readTile (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.1 = k0_pay6 x1 x5 x6 x2 x3 x4 := by
  unfold readTile
  rw [View.read_writes_eq_canon _ _ _ (coverLast_g c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem last_sumOut : readRow (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.1 = k0_pay7 x1 x5 x6 x2 x3 xa := by
  unfold readRow
  rw [View.read_writes_eq_canon _ _ _ (coverLast_sumOut c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  first | rw [View.canon_unit_zero zero2] | rw [View.canon_cons_unit_zero zero2]
  unfold runLast.sl.v41 runLast.sl.HA_1; dsimp only
  rw [View.readCov_unit_zero _ zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem last_sqOut : readRow (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.1 = k0_pay1 (k0_pay4 x1 x5 x6 x2 x3) xq := by
  unfold readRow
  rw [View.read_writes_eq_canon _ _ _ (coverLast_sqOut c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  first | rw [View.canon_unit_zero zero2] | rw [View.canon_cons_unit_zero zero2]
  unfold runLast.sl.v43 runLast.sl.HQ_1; dsimp only
  rw [View.readCov_unit_zero _ zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem last_acc : readRow (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.1 = k0_pay7 x1 x5 x6 x2 x3 xa := by
  unfold readRow
  rw [View.read_writes_eq_canon _ _ _ (coverLast_acc c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  unfold runLast.sl.HA_1; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
theorem last_accSq : readRow (runLast (F := F) c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq).2.2.2.2.2.2.1 = k0_pay1 (k0_pay4 x1 x5 x6 x2 x3) xq := by
  unfold readRow
  rw [View.read_writes_eq_canon _ _ _ (coverLast_accSq c i arg1 harg1 arg2 harg2 arg3 harg3 arg4 harg4 arg5 harg5 arg6 harg6 arg7 harg7 arg8 harg8 arg9 harg9 arg10 harg10 arg11 harg11 arg12 harg12 arg13 harg13 hf hl x1 x2 x3 x4 x5 x6 xa xq)]
  unfold runLast; dsimp only
  unfold runLast.sl.HQ_1; dsimp only
  first | rw [View.canon_unit_zero zero2] | rw [View.canon_cons_unit_zero zero2]
  simp only [View.readAt_eq_ld, harg1.read_unread, harg2.read_unread, harg3.read_unread, harg4.read_unread, harg5.read_unread, harg6.read_unread, harg12.read_unread, harg13.read_unread,
    View.ld_unit_zero (S := S8000x64) zero2, View.ld_unit_zero (S := S64x64) zero2, View.ld_unit_zero (S := S1x64) zero2, View.ld_unit_zero (S := S64) zero1]
end Last

end Cert.KernelIdeal.R0

end
-- ==== Proof.EdgePassState.lean ====
/-
  The edge pass tile by tile, as formulas. At every tile the three tile outputs are the body's arithmetic on that
  tile's blocks (x = the edge features' block, W and b the weights and bias, s and d the two gathered blocks, h the
  third): the pre-activations, their logistic, the gated product. The accumulator rows obey a recursion over the
  tile number: at tile 0 they are the cleared rows advanced by the tile's column sums of m and of m²; at a later
  tile, the previous tile's rows advanced the same way. At the last tile the one-row outputs are the rows themselves.
-/
import proofs.«175570_j5823975653421_2_alg».proof.Proof.EdgePassPieces

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (V : (c : Dev nD) → (b : Ref sig .tc) → Buf (Elt F) ((c : Thread nD τ).loc b))

/-- The tile's pre-activations, as the body computes them from the tile's blocks. -/
abbrev preact (c : Dev nD) (t : Fin cfg0.N) : FVec F S8000x64 .f32 := k0_pay4 (blk V c 0 t) (blk V c 4 t) (blk V c 5 t) (blk V c 1 t) (blk V c 2 t)

theorem tile_cases (t : Fin cfg0.N) : t.val = 0 ∨ (t.val ≠ 0 ∧ t.val ≠ 99) ∨ (t.val ≠ 0 ∧ t.val = 99) := by omega

theorem state_m (c : Dev nD) (t : Fin cfg0.N) : (stateAt V c t.val t.isLt).m = preact V c t := by
  rcases tile_cases t with h | ⟨h0, h99⟩ | ⟨h0, h99⟩
  · rw [stateAt_first V c t h]; unfold firstState; dsimp only; exact first_m ..
  · rw [stateAt_middle V c t h0 h99]; unfold middleState; dsimp only; exact middle_m ..
  · rw [stateAt_last V c t h0 h99]; unfold lastState; dsimp only; exact last_m ..

theorem state_s (c : Dev nD) (t : Fin cfg0.N) : (stateAt V c t.val t.isLt).s = k0_pay5 (blk V c 0 t) (blk V c 4 t) (blk V c 5 t) (blk V c 1 t) (blk V c 2 t) := by
  rcases tile_cases t with h | ⟨h0, h99⟩ | ⟨h0, h99⟩
  · rw [stateAt_first V c t h]; unfold firstState; dsimp only; exact first_s ..
  · rw [stateAt_middle V c t h0 h99]; unfold middleState; dsimp only; exact middle_s ..
  · rw [stateAt_last V c t h0 h99]; unfold lastState; dsimp only; exact last_s ..

theorem state_g (c : Dev nD) (t : Fin cfg0.N) : (stateAt V c t.val t.isLt).g = k0_pay6 (blk V c 0 t) (blk V c 4 t) (blk V c 5 t) (blk V c 1 t) (blk V c 2 t) (blk V c 3 t) := by
  rcases tile_cases t with h | ⟨h0, h99⟩ | ⟨h0, h99⟩
  · rw [stateAt_first V c t h]; unfold firstState; dsimp only; exact first_g ..
  · rw [stateAt_middle V c t h0 h99]; unfold middleState; dsimp only; exact middle_g ..
  · rw [stateAt_last V c t h0 h99]; unfold lastState; dsimp only; exact last_g ..

/-- The sum row after the first tile: the cleared row advanced by the tile's column sums. -/
theorem acc_zero (c : Dev nD) (t : Fin cfg0.N) (h : t.val = 0) :
    (stateAt V c t.val t.isLt).acc = k0_pay7 (blk V c 0 t) (blk V c 4 t) (blk V c 5 t) (blk V c 1 t) (blk V c 2 t) (k0_pay2 (F := F)) := by
  rw [stateAt_first V c t h]; unfold firstState; dsimp only; exact first_acc ..
theorem accSq_zero (c : Dev nD) (t : Fin cfg0.N) (h : t.val = 0) :
    (stateAt V c t.val t.isLt).accSq = k0_pay1 (preact V c t) (k0_pay3 (F := F)) := by
  rw [stateAt_first V c t h]; unfold firstState; dsimp only; exact first_accSq ..

/-- The sum row after a later tile: the previous tile's row advanced by this tile's column sums. -/
theorem acc_succ (c : Dev nD) (t : Fin cfg0.N) (h : t.val ≠ 0) :
    (stateAt V c t.val t.isLt).acc = k0_pay7 (blk V c 0 t) (blk V c 4 t) (blk V c 5 t) (blk V c 1 t) (blk V c 2 t) (stateAt V c (t.val - 1) (by have := t.isLt; omega)).acc := by
  by_cases h99 : t.val = 99
  · rw [stateAt_last V c t h h99]; unfold lastState; dsimp only; exact last_acc ..
  · rw [stateAt_middle V c t h h99]; unfold middleState; dsimp only; exact middle_acc ..
theorem accSq_succ (c : Dev nD) (t : Fin cfg0.N) (h : t.val ≠ 0) :
    (stateAt V c t.val t.isLt).accSq = k0_pay1 (preact V c t) (stateAt V c (t.val - 1) (by have := t.isLt; omega)).accSq := by
  by_cases h99 : t.val = 99
  · rw [stateAt_last V c t h h99]; unfold lastState; dsimp only; exact last_accSq ..
  · rw [stateAt_middle V c t h h99]; unfold middleState; dsimp only; exact middle_accSq ..

/-- At the last tile the two one-row outputs are the two accumulator rows. -/
theorem sumOut_last (c : Dev nD) (t : Fin cfg0.N) (h99 : t.val = 99) :
    (stateAt V c t.val t.isLt).sumOut = (stateAt V c t.val t.isLt).acc := by
  have h0 : t.val ≠ 0 := by omega
  rw [stateAt_last V c t h0 h99]; unfold lastState; dsimp only
  exact (last_sumOut ..).trans (last_acc ..).symm
theorem sqOut_last (c : Dev nD) (t : Fin cfg0.N) (h99 : t.val = 99) :
    (stateAt V c t.val t.isLt).sqOut = (stateAt V c t.val t.isLt).accSq := by
  have h0 : t.val ≠ 0 := by omega
  rw [stateAt_last V c t h0 h99]; unfold lastState; dsimp only
  exact (last_sqOut ..).trans (last_accSq ..).symm

end Cert.KernelIdeal.R0

end
-- ==== Proof.EdgePassValue.lean ====
/- The edge pass's arithmetic, one entry at a time, on the extended reals.

   At one grid point the first region holds a tile of 8000 edges by 64 channels. For the tile it forms the
   pre-activations
       m(r,c) = ((Σ_k x(r,k) · W(k,c) + bias(c)) + s(r,c)) + d(r,c)
   — a [8000,64]·[64,64] product accumulated into zero, a bias row seen as [1,64] and spread over the rows, and
   two gathered tiles added in that order —, the gate `logistic m`, the gated message `h · logistic m`, and
   two running rows over the tiles: the channel sums Σ_r m(r,c) and the channel sums of squares Σ_r v(r,c)²,
   each added to the row carried from the earlier tiles; before the first tile both rows are cleared to zero.
   Every statement below reads one of these at explicit coordinates. Nothing here needs a finiteness
   hypothesis: only the definitions of the operations and re-indexing of finite sums are used. -/
import proofs.«175570_j5823975653421_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R0V

open Cert.KernelIdeal.Gen
open Idealize.ShloMosaic Idealize.ShloMosaic.ValueIdx
open scoped BigOperators

/-- The tile product's dimension numbers: rows of the left operand against columns of the right, one contracted
    axis of extent 64. -/
abbrev tileDot : DotDims S8000x64 S64x64 S8000x64 := dot_S8000x64_S64x64_S8000x64_1_0_0_1_n_n

/-! ## The pieces that are not entry-wise -/

/-- The operand indices of the tile product at output (r, c) and contraction position k: (r, k) on the left, -/
theorem tileDot_lhs (r : Fin 8000) (c : Fin 64) (k : Fin 64) :
    tileDot.lhsIdx (ix2 r c) ((contrEquiv1 tileDot 64 rfl rfl).symm k) = ix2 r k :=
  funext fun a => Fin.ext (by
    have hk := contrEquiv1_symm_val tileDot 64 rfl rfl k
    match a with
    | ⟨0, _⟩ =>
      show (tileDot.lhsIdx (ix2 r c) ((contrEquiv1 tileDot 64 rfl rfl).symm k) 0).val = r.val
      unfold DotDims.lhsIdx
      rw [dif_neg (show ¬(0 : Fin S8000x64.rank) ∈ tileDot.lhsBatch by decide),
        dif_pos (show (0 : Fin S8000x64.rank) ∈ tileDot.lhsNonContracting by decide)]
      rfl
    | ⟨1, _⟩ => exact (tileDot.lhsIdx_val_of_single rfl (ix2 r c) _).trans hk)

/-- and (k, c) on the right. -/
theorem tileDot_rhs (r : Fin 8000) (c : Fin 64) (k : Fin 64) :
    tileDot.rhsIdx (ix2 r c) ((contrEquiv1 tileDot 64 rfl rfl).symm k) = ix2 k c :=
  funext fun a => Fin.ext (by
    have hk := contrEquiv1_symm_val tileDot 64 rfl rfl k
    match a with
    | ⟨0, _⟩ => exact (tileDot.rhsIdx_val_of_single rfl (ix2 r c) _).trans hk
    | ⟨1, _⟩ =>
      show (tileDot.rhsIdx (ix2 r c) ((contrEquiv1 tileDot 64 rfl rfl).symm k) 1).val = c.val
      unfold DotDims.rhsIdx
      rw [dif_neg (show ¬(1 : Fin S64x64.rank) ∈ tileDot.rhsBatch by decide),
        dif_pos (show (1 : Fin S64x64.rank) ∈ tileDot.rhsNonContracting by decide)]
      rfl)

/-- The tile product accumulated into zero, at (r, c): the sum over the 64 contraction positions. -/
theorem tile_product_apply (x : Vec Ideal S8000x64 .f32) (W : Vec Ideal S64x64 .f32) (r : Fin 8000) (c : Fin 64) :
    matmul (F := Ideal) (φ₁ := .f32) (φ₂ := .f32) tileDot none x W (constant S8000x64 .f32 0x00000000#32) (ix2 r c)
      = ∑ k : Fin 64, x (ix2 r k) * W (ix2 k c) := by
  refine (Ideal.matmul_constant_zero_apply tileDot none x W (ix2 r c)).trans ?_
  rw [← Equiv.sum_comp (contrEquiv1 tileDot 64 rfl rfl).symm]
  refine Finset.sum_congr rfl fun k _ => ?_
  rw [tileDot_lhs, tileDot_rhs]

/-- The bias row seen as [1,64] and spread over the 8000 rows reads, at (r, c), the bias at c. -/
theorem bias_spread_apply (b : Vec Ideal S64 .f32) (r : Fin 8000) (c : Fin 64) :
    broadcastTo S8000x64 (shapeCast S1x64 b shapeCasts_S64_S1x64) broadcasts_S1x64_S8000x64 (ix2 r c) = b (ix1 c) :=
  (broadcastTo_1b_ab_apply _ broadcasts_S1x64_S8000x64 r c).trans
    (shapeCast_a_1a_apply b shapeCasts_S64_S1x64 (0 : Fin 1) c)

/-- A tile cast to its own shape is the tile; a row likewise. -/
theorem tile_cast (v : Vec Ideal S8000x64 .f32) (j : S8000x64.Idx) :
    shapeCast S8000x64 v shapeCasts_S8000x64_S8000x64 j = v j :=
  congrFun (shapeCast_self v shapeCasts_S8000x64_S8000x64) j
theorem row_cast (v : Vec Ideal S1x64 .f32) (j : S1x64.Idx) :
    shapeCast S1x64 v shapeCasts_S1x64_S1x64 j = v j :=
  congrFun (shapeCast_self v shapeCasts_S1x64_S1x64) j

/-- The sum of a tile over its rows, seen as a [1,64] row, reads at lane c the sum of column c. The accumulator
    word is the sum's neutral one, so no initial term is left. -/
theorem column_sum_apply (src : FVec Ideal S8000x64 .f32) (u : Fin 1) (c : Fin 64) :
    shapeCast S1x64
        (multiReduction (F := Ideal) .add [0] S64 src 0x00000000#32 reduces_S8000x64_S64 (.inl rfl) rfl)
        shapeCasts_S64_S1x64 (ix2 u c)
      = ∑ r : Fin 8000, src (ix2 r c) :=
  (shapeCast_a_1a_apply _ shapeCasts_S64_S1x64 u c).trans
    ((Ideal.multiReduction_add_single src 0x00000000#32 reduces_S8000x64_S64 (.inl rfl) rfl (ix1 c)).trans
      (Finset.sum_congr rfl fun r _ => congrArg src (funext fun a => Fin.ext (by
        match a with
        | ⟨0, _⟩ => rfl
        | ⟨1, _⟩ => rfl))))

/-! ## The payloads at an index -/

/-- The tile's pre-activations at (r, c). -/
theorem preact_apply (x : Vec Ideal S8000x64 .f32) (W : Vec Ideal S64x64 .f32) (b : Vec Ideal S64 .f32)
    (s d : Vec Ideal S8000x64 .f32) (r : Fin 8000) (c : Fin 64) :
    k0_pay4 (F := Ideal) x W b s d (ix2 r c)
      = (∑ k : Fin 64, x (ix2 r k) * W (ix2 k c)) + b (ix1 c) + s (ix2 r c) + d (ix2 r c) := by
  unfold k0_pay4
  simp only [addf, Ideal.addf_def]
  rw [tile_product_apply, bias_spread_apply, tile_cast, tile_cast]

/-- The gate at (r, c): the logistic of the pre-activation there. -/
theorem gate_apply (x : Vec Ideal S8000x64 .f32) (W : Vec Ideal S64x64 .f32) (b : Vec Ideal S64 .f32)
    (s d : Vec Ideal S8000x64 .f32) (r : Fin 8000) (c : Fin 64) :
    k0_pay5 (F := Ideal) x W b s d (ix2 r c) = Ideal.logistic (k0_pay4 (F := Ideal) x W b s d (ix2 r c)) := rfl

/-- The gated message at (r, c): the gathered node value there times the gate. -/
theorem gated_apply (x : Vec Ideal S8000x64 .f32) (W : Vec Ideal S64x64 .f32) (b : Vec Ideal S64 .f32)
    (s d h : Vec Ideal S8000x64 .f32) (r : Fin 8000) (c : Fin 64) :
    k0_pay6 (F := Ideal) x W b s d h (ix2 r c)
      = h (ix2 r c) * Ideal.logistic (k0_pay4 (F := Ideal) x W b s d (ix2 r c)) := by
  unfold k0_pay6
  simp only [mulf, Ideal.mulf_def]
  rw [tile_cast]
  rfl

/-- One step of the running channel sums: the carried row plus this tile's column sums of the pre-activations. -/
theorem sum_step_apply (x : Vec Ideal S8000x64 .f32) (W : Vec Ideal S64x64 .f32) (b : Vec Ideal S64 .f32)
    (s d : Vec Ideal S8000x64 .f32) (a : Vec Ideal S1x64 .f32) (u : Fin 1) (c : Fin 64) :
    k0_pay7 (F := Ideal) x W b s d a (ix2 u c)
      = a (ix2 u c) + ∑ r : Fin 8000, k0_pay4 (F := Ideal) x W b s d (ix2 r c) := by
  unfold k0_pay7
  rw [row_cast]
  simp only [addf, Ideal.addf_def]
  rw [column_sum_apply]

/-- One step of the running channel sums of squares: the carried row plus this tile's column sums of `v · v`. -/
theorem sumsq_step_apply (v : FVec Ideal S8000x64 .f32) (q : Vec Ideal S1x64 .f32) (u : Fin 1) (c : Fin 64) :
    k0_pay1 (F := Ideal) v q (ix2 u c) = q (ix2 u c) + ∑ r : Fin 8000, v (ix2 r c) * v (ix2 r c) := by
  unfold k0_pay1
  rw [row_cast]
  simp only [addf, Ideal.addf_def]
  rw [column_sum_apply]
  rfl

/-- The two rows as cleared before the first tile: zero at every lane. -/
theorem cleared_sum_apply (u : Fin 1) (c : Fin 64) : k0_pay2 (F := Ideal) (ix2 u c) = 0 := by
  unfold k0_pay2
  rw [row_cast]
  exact Ideal.ofBits_zero_f32
theorem cleared_sumsq_apply (u : Fin 1) (c : Fin 64) : k0_pay3 (F := Ideal) (ix2 u c) = 0 := by
  unfold k0_pay3
  rw [row_cast]
  exact Ideal.ofBits_zero_f32

end Cert.KernelIdeal.R0V

end
-- ==== Proof.EdgePassBlocks.lean ====
/- The edge pass's blocks, read at an index.

   The first region walks 100 grid points. Seven of its windows — the edge features, the three gathered
   [800000,64] arrays it reads, and the three [800000,64] arrays it writes — hand point `t` the 8000 rows
   `8000·t … 8000·t + 7999` of their array: entry (r, c) of the block is entry (8000·t + r, c) of the array
   (a block's coordinate on an axis is always block index × block size + the coordinate inside the block, and
   here the block index is (t, 0)). The other four windows — the [64,64] weights, the [64] bias and the two
   [1,64] running rows — hand every point the whole array, block index 0 on every axis.
   All of it holds for any float instance. -/
import proofs.«175570_j5823975653421_2_alg».proof.Proof.Gen.KernelIdeal.Launch
import Idealize.ShloMosaic.Lib.ValueIdx
import Idealize.ShloMosaic.Lib.Pipeline.Value

set_option maxRecDepth 16384

noncomputable section

namespace Cert.KernelIdeal.R0B

open Cert.KernelIdeal.Gen
open Idealize.ShloMosaic Idealize.ShloMosaic.ValueIdx

variable {F : FTy → Type} [FloatOps F]

/-- Row `8000·t + r` is a row of the [800000,64] array when `t` is one of the 100 points and `r < 8000`. -/
theorem row_lt (t : Fin cfg0.N) (r : Fin 8000) : 8000 * t.val + r.val < 800000 := by
  have ht : t.val < 100 := lt_of_lt_of_eq t.isLt N_0
  have hr := r.isLt
  omega

/-! ## The seven tile windows -/

/-- Window 0's block index at point `t` is (t, 0), -/
theorem tile_index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- so its block at point `t` reads, at (r, c), the array at (8000·t + r, c). -/
theorem tile_block0_apply (A : Vec F S800000x64 .f32) (t : Fin cfg0.N) (r : Fin 8000) (c : Fin 64) :
    ((cfg0.win 0).blk t).view.read (Elt F) A (ix2 r c) = A (ix2 ⟨8000 * t.val + r.val, row_lt t r⟩ c) := by
  obtain ⟨e0, e1⟩ := tile_index0 t
  show A (((cfg0.win 0).blk t).view.emb (ix2 r c)) = A _
  refine congrArg A (funext fun a => Fin.ext ?_)
  match a with
  | ⟨0, _⟩ => show win0_0.index t (0 : Fin 2) * 8000 + 1 * r.val = 8000 * t.val + r.val; omega
  | ⟨1, _⟩ => show win0_0.index t (1 : Fin 2) * 64 + 1 * c.val = c.val; omega

/-- Window 1's block index at point `t` is (t, 0), -/
theorem tile_index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- so its block at point `t` reads, at (r, c), the array at (8000·t + r, c). -/
theorem tile_block1_apply (A : Vec F S800000x64 .f32) (t : Fin cfg0.N) (r : Fin 8000) (c : Fin 64) :
    ((cfg0.win 1).blk t).view.read (Elt F) A (ix2 r c) = A (ix2 ⟨8000 * t.val + r.val, row_lt t r⟩ c) := by
  obtain ⟨e0, e1⟩ := tile_index1 t
  show A (((cfg0.win 1).blk t).view.emb (ix2 r c)) = A _
  refine congrArg A (funext fun a => Fin.ext ?_)
  match a with
  | ⟨0, _⟩ => show win0_1.index t (0 : Fin 2) * 8000 + 1 * r.val = 8000 * t.val + r.val; omega
  | ⟨1, _⟩ => show win0_1.index t (1 : Fin 2) * 64 + 1 * c.val = c.val; omega

/-- Window 2's block index at point `t` is (t, 0), -/
theorem tile_index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- so its block at point `t` reads, at (r, c), the array at (8000·t + r, c). -/
theorem tile_block2_apply (A : Vec F S800000x64 .f32) (t : Fin cfg0.N) (r : Fin 8000) (c : Fin 64) :
    ((cfg0.win 2).blk t).view.read (Elt F) A (ix2 r c) = A (ix2 ⟨8000 * t.val + r.val, row_lt t r⟩ c) := by
  obtain ⟨e0, e1⟩ := tile_index2 t
  show A (((cfg0.win 2).blk t).view.emb (ix2 r c)) = A _
  refine congrArg A (funext fun a => Fin.ext ?_)
  match a with
  | ⟨0, _⟩ => show win0_2.index t (0 : Fin 2) * 8000 + 1 * r.val = 8000 * t.val + r.val; omega
  | ⟨1, _⟩ => show win0_2.index t (1 : Fin 2) * 64 + 1 * c.val = c.val; omega

/-- Window 3's block index at point `t` is (t, 0), -/
theorem tile_index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- so its block at point `t` reads, at (r, c), the array at (8000·t + r, c). -/
theorem tile_block3_apply (A : Vec F S800000x64 .f32) (t : Fin cfg0.N) (r : Fin 8000) (c : Fin 64) :
    ((cfg0.win 3).blk t).view.read (Elt F) A (ix2 r c) = A (ix2 ⟨8000 * t.val + r.val, row_lt t r⟩ c) := by
  obtain ⟨e0, e1⟩ := tile_index3 t
  show A (((cfg0.win 3).blk t).view.emb (ix2 r c)) = A _
  refine congrArg A (funext fun a => Fin.ext ?_)
  match a with
  | ⟨0, _⟩ => show win0_3.index t (0 : Fin 2) * 8000 + 1 * r.val = 8000 * t.val + r.val; omega
  | ⟨1, _⟩ => show win0_3.index t (1 : Fin 2) * 64 + 1 * c.val = c.val; omega

/-- Window 6's block index at point `t` is (t, 0), -/
theorem tile_index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- so its block at point `t` reads, at (r, c), the array at (8000·t + r, c). -/
theorem tile_block6_apply (A : Vec F S800000x64 .f32) (t : Fin cfg0.N) (r : Fin 8000) (c : Fin 64) :
    ((cfg0.win 6).blk t).view.read (Elt F) A (ix2 r c) = A (ix2 ⟨8000 * t.val + r.val, row_lt t r⟩ c) := by
  obtain ⟨e0, e1⟩ := tile_index6 t
  show A (((cfg0.win 6).blk t).view.emb (ix2 r c)) = A _
  refine congrArg A (funext fun a => Fin.ext ?_)
  match a with
  | ⟨0, _⟩ => show win0_6.index t (0 : Fin 2) * 8000 + 1 * r.val = 8000 * t.val + r.val; omega
  | ⟨1, _⟩ => show win0_6.index t (1 : Fin 2) * 64 + 1 * c.val = c.val; omega

/-- Window 7's block index at point `t` is (t, 0), -/
theorem tile_index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- so its block at point `t` reads, at (r, c), the array at (8000·t + r, c). -/
theorem tile_block7_apply (A : Vec F S800000x64 .f32) (t : Fin cfg0.N) (r : Fin 8000) (c : Fin 64) :
    ((cfg0.win 7).blk t).view.read (Elt F) A (ix2 r c) = A (ix2 ⟨8000 * t.val + r.val, row_lt t r⟩ c) := by
  obtain ⟨e0, e1⟩ := tile_index7 t
  show A (((cfg0.win 7).blk t).view.emb (ix2 r c)) = A _
  refine congrArg A (funext fun a => Fin.ext ?_)
  match a with
  | ⟨0, _⟩ => show win0_7.index t (0 : Fin 2) * 8000 + 1 * r.val = 8000 * t.val + r.val; omega
  | ⟨1, _⟩ => show win0_7.index t (1 : Fin 2) * 64 + 1 * c.val = c.val; omega

/-- Window 8's block index at point `t` is (t, 0), -/
theorem tile_index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- so its block at point `t` reads, at (r, c), the array at (8000·t + r, c). -/
theorem tile_block8_apply (A : Vec F S800000x64 .f32) (t : Fin cfg0.N) (r : Fin 8000) (c : Fin 64) :
    ((cfg0.win 8).blk t).view.read (Elt F) A (ix2 r c) = A (ix2 ⟨8000 * t.val + r.val, row_lt t r⟩ c) := by
  obtain ⟨e0, e1⟩ := tile_index8 t
  show A (((cfg0.win 8).blk t).view.emb (ix2 r c)) = A _
  refine congrArg A (funext fun a => Fin.ext ?_)
  match a with
  | ⟨0, _⟩ => show win0_8.index t (0 : Fin 2) * 8000 + 1 * r.val = 8000 * t.val + r.val; omega
  | ⟨1, _⟩ => show win0_8.index t (1 : Fin 2) * 64 + 1 * c.val = c.val; omega

/-! ## The four whole-array windows -/

/-- Window 4 (the [64,64] weights) hands every point the whole array. -/
theorem whole_index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem whole_block4 (A : Vec F S64x64 .f32) (t : Fin cfg0.N) :
    ((cfg0.win 4).blk t).view.read (Elt F) A = A := by
  obtain ⟨e0, e1⟩ := whole_index4 t
  funext j
  show A (((cfg0.win 4).blk t).view.emb j) = A j
  refine congrArg A (funext fun a => Fin.ext ?_)
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- Window 5 (the [64] bias) hands every point the whole array. -/
theorem whole_index5 : ∀ t : Fin cfg0.N, win0_5.index t (0 : Fin 1) = 0 :=
  (by decide +kernel : ∀ t : Fin grid0.N, win0_5.index t (0 : Fin 1) = 0)
theorem whole_block5 (A : Vec F S64 .f32) (t : Fin cfg0.N) :
    ((cfg0.win 5).blk t).view.read (Elt F) A = A := by
  have e0 := whole_index5 t
  funext j
  show A (((cfg0.win 5).blk t).view.emb j) = A j
  refine congrArg A (funext fun a => Fin.ext ?_)
  match a with
  | ⟨0, _⟩ => show win0_5.index t (0 : Fin 1) * 64 + 1 * (j 0).val = (j 0).val; omega

/-- Window 9 (the running channel sums) hands every point the whole array. -/
theorem whole_index9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem whole_block9 (A : Vec F S1x64 .f32) (t : Fin cfg0.N) :
    ((cfg0.win 9).blk t).view.read (Elt F) A = A := by
  obtain ⟨e0, e1⟩ := whole_index9 t
  funext j
  show A (((cfg0.win 9).blk t).view.emb j) = A j
  refine congrArg A (funext fun a => Fin.ext ?_)
  match a with
  | ⟨0, _⟩ => show win0_9.index t (0 : Fin 2) * 1 + 1 * (j 0).val = (j 0).val; omega
  | ⟨1, _⟩ => show win0_9.index t (1 : Fin 2) * 64 + 1 * (j 1).val = (j 1).val; omega

/-- Window 10 (the running channel sums of squares) hands every point the whole array. -/
theorem whole_index10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem whole_block10 (A : Vec F S1x64 .f32) (t : Fin cfg0.N) :
    ((cfg0.win 10).blk t).view.read (Elt F) A = A := by
  obtain ⟨e0, e1⟩ := whole_index10 t
  funext j
  show A (((cfg0.win 10).blk t).view.emb j) = A j
  refine congrArg A (funext fun a => Fin.ext ?_)
  match a with
  | ⟨0, _⟩ => show win0_10.index t (0 : Fin 2) * 1 + 1 * (j 0).val = (j 0).val; omega
  | ⟨1, _⟩ => show win0_10.index t (1 : Fin 2) * 64 + 1 * (j 1).val = (j 1).val; omega

end Cert.KernelIdeal.R0B

end
-- ==== Proof.EdgePassWhole.lean ====
/- The edge pass's five result arrays as functions of its input arrays: the parts that concern one tile.

   The pre-activation of edge e, channel c is
       m(e,c) = ((Σ_k ef(e,k) · W(k,c) + bias(c)) + s(e,c)) + d(e,c),
   a function of the whole [800000,64] inputs. Tile `t` holds edges `8000·t … 8000·t + 7999`, so what the body
   computes from the tile's blocks at entry (r, c) is m(8000·t + r, c); the gate and the gated message likewise.
   Also here: where an entry of a tile's output block sits in the result array, which entries a tile's block
   holds, and that the tiles' blocks cover the three [800000,64] results (edge e is in tile e / 8000) while the
   last tile's block is the whole of each one-row result. -/
import proofs.«175570_j5823975653421_2_alg».proof.Proof.EdgePassValue
import proofs.«175570_j5823975653421_2_alg».proof.Proof.EdgePassBlocks
import proofs.«175570_j5823975653421_2_alg».proof.Proof.Gen.KernelIdeal.Points
import Idealize.ShloMosaic.Lib.Pipeline.Value

set_option maxRecDepth 16384

noncomputable section

namespace Cert.KernelIdeal.R0F

open Cert.KernelIdeal.Gen Cert.KernelIdeal.R0V Cert.KernelIdeal.R0B
open Idealize.ShloMosaic Idealize.ShloMosaic.TcCoe Idealize.ShloMosaic.ValueIdx
open scoped BigOperators

/-! ## The pre-activations of all edges -/

/-- The edge and the channel of an entry of a [800000,64] array; the channel of an entry of a [1,64] row. -/
def edge (j : S800000x64.Idx) : Fin 800000 := ⟨(j 0).val, idx2_lt0 j⟩
def chan (j : S800000x64.Idx) : Fin 64 := ⟨(j 1).val, idx2_lt1 j⟩
def lane (j : S1x64.Idx) : Fin 64 := ⟨(j 1).val, idx2_lt1 j⟩
theorem edge_ix2 (e : Fin 800000) (c : Fin 64) : edge (ix2 e c) = e := rfl
theorem chan_ix2 (e : Fin 800000) (c : Fin 64) : chan (ix2 e c) = c := rfl
theorem lane_ix2 (u : Fin 1) (c : Fin 64) : lane (ix2 u c) = c := rfl

/-- The pre-activations as a function of the edge features, the two gathered arrays, the weights and the bias. -/
def mWhole (ef s d : S800000x64.Idx → EReal) (W : S64x64.Idx → EReal) (b : S64.Idx → EReal) :
    S800000x64.Idx → EReal := fun j =>
  (∑ k : Fin 64, ef (ix2 (edge j) k) * W (ix2 k (chan j))) + b (ix1 (chan j)) + s j + d j

theorem mWhole_ix2 (ef s d : S800000x64.Idx → EReal) (W : S64x64.Idx → EReal) (b : S64.Idx → EReal)
    (e : Fin 800000) (c : Fin 64) :
    mWhole ef s d W b (ix2 e c)
      = (∑ k : Fin 64, ef (ix2 e k) * W (ix2 k c)) + b (ix1 c) + s (ix2 e c) + d (ix2 e c) := rfl

/-! ## One tile -/

/-- If a tile's three blocks hold row R of the arrays `EF`, `S`, `D` at their row r, what the body computes
    at (r, c) is the pre-activation of edge R, channel c. -/
theorem preact_of_rows (x s d : Vec Ideal S8000x64 .f32) (W : Vec Ideal S64x64 .f32) (B : Vec Ideal S64 .f32)
    (EF S D : Vec Ideal S800000x64 .f32) (R : Fin 800000) (r : Fin 8000) (c : Fin 64)
    (hx : ∀ k : Fin 64, x (ix2 r k) = EF (ix2 R k)) (hs : s (ix2 r c) = S (ix2 R c)) (hd : d (ix2 r c) = D (ix2 R c)) :
    k0_pay4 (F := Ideal) x W B s d (ix2 r c) = mWhole EF S D W B (ix2 R c) := by
  rw [preact_apply, mWhole_ix2, hs, hd]
  exact congrArg (fun z => z + B (ix1 c) + S (ix2 R c) + D (ix2 R c))
    (Finset.sum_congr rfl fun k _ => by rw [hx k])

/-- What the body computes at entry (r, c) of tile `t` from the tile's blocks of `EF`, `S`, `D` is the
    pre-activation of edge `8000·t + r`, channel c. -/
theorem preact_tile_apply (EF S D : Vec Ideal S800000x64 .f32) (W : Vec Ideal S64x64 .f32) (B : Vec Ideal S64 .f32)
    (t : Fin cfg0.N) (r : Fin 8000) (c : Fin 64) :
    k0_pay4 (F := Ideal) (((cfg0.win 0).blk t).view.read (Elt Ideal) EF) W B
        (((cfg0.win 1).blk t).view.read (Elt Ideal) S) (((cfg0.win 2).blk t).view.read (Elt Ideal) D) (ix2 r c)
      = mWhole EF S D W B (ix2 ⟨8000 * t.val + r.val, row_lt t r⟩ c) :=
  preact_of_rows _ _ _ W B EF S D ⟨8000 * t.val + r.val, row_lt t r⟩ r c
    (fun k => tile_block0_apply EF t r k) (tile_block1_apply S t r c) (tile_block2_apply D t r c)

/-- Entry (r, c) of output window 6's block at tile `t` sits in the array at (8000·t + r, c). -/
theorem tile_emb6 (t : Fin cfg0.N) (r : Fin 8000) (c : Fin 64) :
    ((cfg0.win 6).blk t).view.emb (ix2 r c)
      = (ix2 (⟨8000 * t.val + r.val, row_lt t r⟩ : Fin 800000) c : S800000x64.Idx) := by
  obtain ⟨e0, e1⟩ := tile_index6 t
  refine funext fun a => Fin.ext ?_
  match a with
  | ⟨0, _⟩ => show win0_6.index t (0 : Fin 2) * 8000 + 1 * r.val = 8000 * t.val + r.val; omega
  | ⟨1, _⟩ => show win0_6.index t (1 : Fin 2) * 64 + 1 * c.val = c.val; omega

/-- An entry of the array is in tile `t`'s block of window 6 iff each coordinate is in the block's range. -/
theorem mem_tile6 (t : Fin cfg0.N) (i : S800000x64.Idx) :
    i ∈ ((cfg0.win 6).blk t).view.set ↔ ∀ a : Fin 2,
      win0_6.index t a * S8000x64.size a ≤ (i a).val ∧ (i a).val < win0_6.index t a * S8000x64.size a + S8000x64.size a := by
  show i ∈ ((View.whole main_v37_0).slice (win0_6.rect t)).set ↔ _
  rw [View.set_slice_whole, Rect.mem_set_unit]
  exact Iff.rfl

/-- Every entry of window 6's array is in the block of the tile e / 8000, which writes it back. -/
theorem covered6 (i : S800000x64.Idx) :
    ∃ t : Fin cfg0.N, (cfg0.win 6).flush t = true ∧ i ∈ ((cfg0.win 6).blk t).view.set := by
  have hi0 : (i 0).val < 800000 := (i 0).isLt
  have hi1 : (i 1).val < 64 := (i 1).isLt
  have hN : grid0.N = 100 := N_0
  let t : Fin cfg0.N := ⟨(i 0).val / 8000, by show (i 0).val / 8000 < grid0.N; omega⟩
  obtain ⟨e0, e1⟩ := tile_index6 t
  have ht : t.val = (i 0).val / 8000 := rfl
  refine ⟨t, flush0_6 t, ?_⟩
  rw [mem_tile6]
  intro a
  match a with
  | ⟨0, _⟩ =>
    show win0_6.index t (0 : Fin 2) * 8000 ≤ (i 0).val ∧ (i 0).val < win0_6.index t (0 : Fin 2) * 8000 + 8000
    omega
  | ⟨1, _⟩ =>
    show win0_6.index t (1 : Fin 2) * 64 ≤ (i 1).val ∧ (i 1).val < win0_6.index t (1 : Fin 2) * 64 + 64
    omega

/-- Entry (r, c) of output window 7's block at tile `t` sits in the array at (8000·t + r, c). -/
theorem tile_emb7 (t : Fin cfg0.N) (r : Fin 8000) (c : Fin 64) :
    ((cfg0.win 7).blk t).view.emb (ix2 r c)
      = (ix2 (⟨8000 * t.val + r.val, row_lt t r⟩ : Fin 800000) c : S800000x64.Idx) := by
  obtain ⟨e0, e1⟩ := tile_index7 t
  refine funext fun a => Fin.ext ?_
  match a with
  | ⟨0, _⟩ => show win0_7.index t (0 : Fin 2) * 8000 + 1 * r.val = 8000 * t.val + r.val; omega
  | ⟨1, _⟩ => show win0_7.index t (1 : Fin 2) * 64 + 1 * c.val = c.val; omega

/-- An entry of the array is in tile `t`'s block of window 7 iff each coordinate is in the block's range. -/
theorem mem_tile7 (t : Fin cfg0.N) (i : S800000x64.Idx) :
    i ∈ ((cfg0.win 7).blk t).view.set ↔ ∀ a : Fin 2,
      win0_7.index t a * S8000x64.size a ≤ (i a).val ∧ (i a).val < win0_7.index t a * S8000x64.size a + S8000x64.size a := by
  show i ∈ ((View.whole main_v37_1).slice (win0_7.rect t)).set ↔ _
  rw [View.set_slice_whole, Rect.mem_set_unit]
  exact Iff.rfl

/-- Every entry of window 7's array is in the block of the tile e / 8000, which writes it back. -/
theorem covered7 (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : grid0.N = 100 := N_0
  let t : Fin cfg0.N := ⟨(i 0).val / 8000, by show (i 0).val / 8000 < grid0.N; omega⟩
  obtain ⟨e0, e1⟩ := tile_index7 t
  have ht : t.val = (i 0).val / 8000 := rfl
  refine ⟨t, flush0_7 t, ?_⟩
  rw [mem_tile7]
  intro a
  match a with
  | ⟨0, _⟩ =>
    show win0_7.index t (0 : Fin 2) * 8000 ≤ (i 0).val ∧ (i 0).val < win0_7.index t (0 : Fin 2) * 8000 + 8000
    omega
  | ⟨1, _⟩ =>
    show win0_7.index t (1 : Fin 2) * 64 ≤ (i 1).val ∧ (i 1).val < win0_7.index t (1 : Fin 2) * 64 + 64
    omega

/-- Entry (r, c) of output window 8's block at tile `t` sits in the array at (8000·t + r, c). -/
theorem tile_emb8 (t : Fin cfg0.N) (r : Fin 8000) (c : Fin 64) :
    ((cfg0.win 8).blk t).view.emb (ix2 r c)
      = (ix2 (⟨8000 * t.val + r.val, row_lt t r⟩ : Fin 800000) c : S800000x64.Idx) := by
  obtain ⟨e0, e1⟩ := tile_index8 t
  refine funext fun a => Fin.ext ?_
  match a with
  | ⟨0, _⟩ => show win0_8.index t (0 : Fin 2) * 8000 + 1 * r.val = 8000 * t.val + r.val; omega
  | ⟨1, _⟩ => show win0_8.index t (1 : Fin 2) * 64 + 1 * c.val = c.val; omega

/-- An entry of the array is in tile `t`'s block of window 8 iff each coordinate is in the block's range. -/
theorem mem_tile8 (t : Fin cfg0.N) (i : S800000x64.Idx) :
    i ∈ ((cfg0.win 8).blk t).view.set ↔ ∀ a : Fin 2,
      win0_8.index t a * S8000x64.size a ≤ (i a).val ∧ (i a).val < win0_8.index t a * S8000x64.size a + S8000x64.size a := by
  show i ∈ ((View.whole main_v37_2).slice (win0_8.rect t)).set ↔ _
  rw [View.set_slice_whole, Rect.mem_set_unit]
  exact Iff.rfl

/-- Every entry of window 8's array is in the block of the tile e / 8000, which writes it back. -/
theorem covered8 (i : S800000x64.Idx) :
    ∃ t : Fin cfg0.N, (cfg0.win 8).flush t = true ∧ i ∈ ((cfg0.win 8).blk t).view.set := by
  have hi0 : (i 0).val < 800000 := (i 0).isLt
  have hi1 : (i 1).val < 64 := (i 1).isLt
  have hN : grid0.N = 100 := N_0
  let t : Fin cfg0.N := ⟨(i 0).val / 8000, by show (i 0).val / 8000 < grid0.N; omega⟩
  obtain ⟨e0, e1⟩ := tile_index8 t
  have ht : t.val = (i 0).val / 8000 := rfl
  refine ⟨t, flush0_8 t, ?_⟩
  rw [mem_tile8]
  intro a
  match a with
  | ⟨0, _⟩ =>
    show win0_8.index t (0 : Fin 2) * 8000 ≤ (i 0).val ∧ (i 0).val < win0_8.index t (0 : Fin 2) * 8000 + 8000
    omega
  | ⟨1, _⟩ =>
    show win0_8.index t (1 : Fin 2) * 64 ≤ (i 1).val ∧ (i 1).val < win0_8.index t (1 : Fin 2) * 64 + 64
    omega

/-- The same three facts at an entry y of a tile's output block, at the place y sits in the result array. -/
theorem preact_tile_eq (EF S D : Vec Ideal S800000x64 .f32) (W : Vec Ideal S64x64 .f32) (B : Vec Ideal S64 .f32)
    (t : Fin cfg0.N) (y : S8000x64.Idx) :
    k0_pay4 (F := Ideal) (((cfg0.win 0).blk t).view.read (Elt Ideal) EF) W B
        (((cfg0.win 1).blk t).view.read (Elt Ideal) S) (((cfg0.win 2).blk t).view.read (Elt Ideal) D) y
      = mWhole EF S D W B (((cfg0.win 6).blk t).view.emb y) := by
  obtain ⟨r, c, rfl⟩ : ∃ (r : Fin 8000) (c : Fin 64), y = ix2 r c := ⟨y 0, y 1, eq_ix2 y⟩
  rw [preact_tile_apply, tile_emb6]

theorem gate_tile_eq (EF S D : Vec Ideal S800000x64 .f32) (W : Vec Ideal S64x64 .f32) (B : Vec Ideal S64 .f32)
    (t : Fin cfg0.N) (y : S8000x64.Idx) :
    k0_pay5 (F := Ideal) (((cfg0.win 0).blk t).view.read (Elt Ideal) EF) W B
        (((cfg0.win 1).blk t).view.read (Elt Ideal) S) (((cfg0.win 2).blk t).view.read (Elt Ideal) D) y
      = Ideal.logistic (mWhole EF S D W B (((cfg0.win 7).blk t).view.emb y)) := by
  obtain ⟨r, c, rfl⟩ : ∃ (r : Fin 8000) (c : Fin 64), y = ix2 r c := ⟨y 0, y 1, eq_ix2 y⟩
  rw [gate_apply, preact_tile_apply, tile_emb7]

theorem gated_tile_eq (EF S D H : Vec Ideal S800000x64 .f32) (W : Vec Ideal S64x64 .f32) (B : Vec Ideal S64 .f32)
    (t : Fin cfg0.N) (y : S8000x64.Idx) :
    k0_pay6 (F := Ideal) (((cfg0.win 0).blk t).view.read (Elt Ideal) EF) W B
        (((cfg0.win 1).blk t).view.read (Elt Ideal) S) (((cfg0.win 2).blk t).view.read (Elt Ideal) D)
        (((cfg0.win 3).blk t).view.read (Elt Ideal) H) y
      = H (((cfg0.win 8).blk t).view.emb y) * Ideal.logistic (mWhole EF S D W B (((cfg0.win 8).blk t).view.emb y)) := by
  obtain ⟨r, c, rfl⟩ : ∃ (r : Fin 8000) (c : Fin 64), y = ix2 r c := ⟨y 0, y 1, eq_ix2 y⟩
  rw [gated_apply, preact_tile_apply, tile_block3_apply, tile_emb8]

/-! ## The two one-row results -/

/-- An entry of the one-row array of window 9 is in every tile's block: the block is the whole row. -/
theorem mem_row9 (t : Fin cfg0.N) (i : S1x64.Idx) : i ∈ ((cfg0.win 9).blk t).view.set := by
  obtain ⟨e0, e1⟩ := whole_index9 t
  have hi0 : (i 0).val < 1 := (i 0).isLt
  have hi1 : (i 1).val < 64 := (i 1).isLt
  show i ∈ ((View.whole main_v37_3).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    omega
  | ⟨1, _⟩ =>
    show win0_9.index t (1 : Fin 2) * 64 ≤ (i 1).val ∧ (i 1).val < win0_9.index t (1 : Fin 2) * 64 + 64
    omega

/-- The last tile writes the row back, so every entry of the row is covered by a tile that writes it back. -/
theorem covered9 (i : S1x64.Idx) :
    ∃ t : Fin cfg0.N, (cfg0.win 9).flush t = true ∧ i ∈ ((cfg0.win 9).blk t).view.set := by
  have hN : grid0.N = 100 := N_0
  let t : Fin cfg0.N := ⟨99, by show 99 < grid0.N; omega⟩
  exact ⟨t, (flush0_9 t).mpr rfl, mem_row9 t i⟩

/-- An entry of the one-row array of window 10 is in every tile's block: the block is the whole row. -/
theorem mem_row10 (t : Fin cfg0.N) (i : S1x64.Idx) : i ∈ ((cfg0.win 10).blk t).view.set := by
  obtain ⟨e0, e1⟩ := whole_index10 t
  have hi0 : (i 0).val < 1 := (i 0).isLt
  have hi1 : (i 1).val < 64 := (i 1).isLt
  show i ∈ ((View.whole main_v37_4).slice (win0_10.rect t)).set
  rw [View.set_slice_whole, Rect.mem_set_unit]
  intro a
  match a with
  | ⟨0, _⟩ =>
    show win0_10.index t (0 : Fin 2) * 1 ≤ (i 0).val ∧ (i 0).val < win0_10.index t (0 : Fin 2) * 1 + 1
    omega
  | ⟨1, _⟩ =>
    show win0_10.index t (1 : Fin 2) * 64 ≤ (i 1).val ∧ (i 1).val < win0_10.index t (1 : Fin 2) * 64 + 64
    omega

/-- The last tile writes the row back, so every entry of the row is covered by a tile that writes it back. -/
theorem covered10 (i : S1x64.Idx) :
    ∃ t : Fin cfg0.N, (cfg0.win 10).flush t = true ∧ i ∈ ((cfg0.win 10).blk t).view.set := by
  have hN : grid0.N = 100 := N_0
  let t : Fin cfg0.N := ⟨99, by show 99 < grid0.N; omega⟩
  exact ⟨t, (flush0_10 t).mpr rfl, mem_row10 t i⟩

end Cert.KernelIdeal.R0F

end
-- ==== Proof.LibBlocks.lean ====
/-
  Sums and maxima over the rows of a tall table, taken block of rows by block of rows.

  A table of n = a·b rows is cut into a consecutive blocks of b rows; row i lies in block i / b at position
  i % b, and block t, position r is row b·t + r. In a commutative monoid a sum over all rows is the sum over the
  blocks of the sums over each block's rows, and in a complete lattice the supremum over all rows is the supremum
  over the blocks of each block's supremum: both are re-indexings along the bijection (t, r) ↦ b·t + r, and
  neither needs any finiteness of the entries (only associativity and commutativity are used).
  Also: a running total that starts from a seed and adds one block's contribution per step is the seed plus
  the sum of the contributions so far (and likewise for a running maximum), by induction on the step.
-/
import Mathlib.Algebra.BigOperators.Fin
import Mathlib.Algebra.BigOperators.Group.Finset.Basic
import Mathlib.Order.CompleteLattice.Finset
import Mathlib.Data.Fintype.Lattice
import Mathlib.Tactic.Ring
import Mathlib.Logic.Equiv.Fin.Basic
import Mathlib.Data.Fintype.BigOperators

namespace Cert.LibBlocks

/-- Row b·t + r of a table of n = a·b rows. -/
def row {a b n : ℕ} (h : a * b = n) (t : Fin a) (r : Fin b) : Fin n :=
  ⟨b * t.val + r.val, by
    have := t.isLt; have := r.isLt
    calc b * t.val + r.val < b * t.val + b := by omega
      _ = b * (t.val + 1) := by ring
      _ ≤ b * a := Nat.mul_le_mul_left _ (by omega)
      _ = n := by rw [Nat.mul_comm]; exact h⟩

@[simp] theorem row_val {a b n : ℕ} (h : a * b = n) (t : Fin a) (r : Fin b) : (row h t r).val = b * t.val + r.val := rfl

/-- The rows are exactly the block positions: (t, r) ↦ b·t + r is a bijection from blocks × positions. -/
def rowEquiv {a b n : ℕ} (h : a * b = n) : Fin a × Fin b ≃ Fin n :=
  finProdFinEquiv.trans (finCongr h)

theorem rowEquiv_apply {a b n : ℕ} (h : a * b = n) (t : Fin a) (r : Fin b) : rowEquiv h (t, r) = row h t r := by
  apply Fin.ext
  simp [rowEquiv, row, Nat.add_comm]

/-- A sum over all rows is the sum over the blocks of each block's sum. -/
theorem sum_rows {M : Type*} [AddCommMonoid M] {a b n : ℕ} (h : a * b = n) (f : Fin n → M) :
    ∑ i, f i = ∑ t : Fin a, ∑ r : Fin b, f (row h t r) := by
  rw [← Fintype.sum_prod_type' (f := fun t r => f (row h t r))]
  exact (Fintype.sum_equiv (rowEquiv h) (fun p => f (row h p.1 p.2)) f
    (fun p => by rw [← rowEquiv_apply])).symm

/-- A supremum over all rows is the supremum over the blocks of each block's supremum. -/
theorem sup_rows {L : Type*} [CompleteLattice L] {a b n : ℕ} (h : a * b = n) (f : Fin n → L) :
    Finset.univ.sup f = Finset.univ.sup fun t : Fin a => Finset.univ.sup fun r : Fin b => f (row h t r) := by
  simp only [Finset.sup_univ_eq_iSup]
  rw [← (rowEquiv h).iSup_comp (g := f), iSup_prod]
  exact iSup_congr fun t => iSup_congr fun r => by rw [rowEquiv_apply]

/-- A running total: seeded at step 0 with the seed plus the first contribution, then one contribution per step. -/
theorem running_sum {M : Type*} [AddCommMonoid M] (seed : M) (g acc : ℕ → M)
    (h0 : acc 0 = seed + g 0) (hs : ∀ n, acc (n + 1) = acc n + g (n + 1)) (n : ℕ) :
    acc n = seed + ∑ u ∈ Finset.range (n + 1), g u := by
  induction n with
  | zero => simp [h0]
  | succ n ih => rw [hs, ih, Finset.sum_range_succ _ (n + 1), add_assoc]

/-- A running maximum, likewise. -/
theorem running_sup {L : Type*} [SemilatticeSup L] [OrderBot L] (seed : L) (g acc : ℕ → L)
    (h0 : acc 0 = seed ⊔ g 0) (hs : ∀ n, acc (n + 1) = acc n ⊔ g (n + 1)) (n : ℕ) :
    acc n = seed ⊔ (Finset.range (n + 1)).sup g := by
  induction n with
  | zero => simp [h0]
  | succ n ih => rw [hs, ih, Finset.range_add_one (n := n + 1), Finset.sup_insert, sup_assoc, sup_comm (g (n + 1))]

/-- The sum over the first a naturals is the sum over Fin a. -/
theorem sum_range_fin {M : Type*} [AddCommMonoid M] (a : ℕ) (g : ℕ → M) :
    ∑ u ∈ Finset.range a, g u = ∑ t : Fin a, g t.val := (Fin.sum_univ_eq_sum_range g a).symm

/-- The supremum over the first a naturals is the supremum over Fin a. -/
theorem sup_range_fin {L : Type*} [SemilatticeSup L] [OrderBot L] (a : ℕ) (g : ℕ → L) :
    (Finset.range a).sup g = Finset.univ.sup fun t : Fin a => g t.val := by
  apply le_antisymm
  · refine Finset.sup_le fun u hu => ?_
    exact Finset.le_sup (f := fun t : Fin a => g t.val) (Finset.mem_univ (⟨u, Finset.mem_range.mp hu⟩ : Fin a))
  · refine Finset.sup_le fun t _ => ?_
    exact Finset.le_sup (f := g) (Finset.mem_range.mpr t.isLt)

end Cert.LibBlocks
-- ==== Proof.EdgeSums.lean ====
/-
  A running total over the blocks of a tall table, stopped after any number of blocks.

  A table of N = A·B rows is cut into A consecutive blocks of B rows. A total is started at the first block's
  sum and receives one more block's sum per step, for as long as there are blocks. After step n it is the sum of
  the first n + 1 blocks — equally, the sum of the table's first B·(n+1) rows —, and after the last step it is
  the sum of the whole table. These are re-indexings of finite sums along (t, r) ↦ B·t + r: only associativity and
  commutativity of the addition are used, so they hold in any commutative additive monoid, the extended reals
  included, whatever the entries are.
-/
import proofs.«175570_j5823975653421_2_alg».proof.Proof.LibBlocks

namespace Cert.EdgeSums

open Cert.LibBlocks
open scoped BigOperators

variable {M : Type*} [AddCommMonoid M]

/-! ## Any table of A blocks of B rows -/

/-- After step n the running total is the sum of blocks 0 … n. The step rule is asked only where there is a
    next block. -/
theorem partial_blocks {A B N : ℕ} (h : A * B = N) (G : Fin N → M) (acc : ℕ → M)
    (h0 : ∀ hA : 0 < A, acc 0 = 0 + ∑ r : Fin B, G (row h ⟨0, hA⟩ r))
    (hs : ∀ n (hn : n + 1 < A), acc (n + 1) = acc n + ∑ r : Fin B, G (row h ⟨n + 1, hn⟩ r)) :
    ∀ n (hn : n < A), acc n = ∑ t : Fin (n + 1), ∑ r : Fin B, G (row h ⟨t.val, lt_of_lt_of_le t.isLt hn⟩ r) := by
  intro n
  induction n with
  | zero =>
    intro hn
    rw [h0 hn, zero_add, Fin.sum_univ_one]
    rfl
  | succ n ih =>
    intro hn
    rw [hs n hn, ih (Nat.lt_of_succ_lt hn)]
    exact (Fin.sum_univ_castSucc
      (fun t : Fin (n + 1 + 1) => ∑ r : Fin B, G (row h ⟨t.val, lt_of_lt_of_le t.isLt hn⟩ r))).symm

/-- The first B·(n+1) rows of the table are rows of the table. -/
theorem prefix_le {A B N : ℕ} (h : A * B = N) {n : ℕ} (hn : n < A) : B * (n + 1) ≤ N := by
  rw [← h, Nat.mul_comm A B]
  exact Nat.mul_le_mul_left B hn

/-- After step n the running total is the sum of the table's first B·(n+1) rows, -/
theorem partial_prefix {A B N : ℕ} (h : A * B = N) (G : Fin N → M) (acc : ℕ → M)
    (h0 : ∀ hA : 0 < A, acc 0 = 0 + ∑ r : Fin B, G (row h ⟨0, hA⟩ r))
    (hs : ∀ n (hn : n + 1 < A), acc (n + 1) = acc n + ∑ r : Fin B, G (row h ⟨n + 1, hn⟩ r))
    (n : ℕ) (hn : n < A) :
    acc n = ∑ i : Fin (B * (n + 1)), G (Fin.castLE (prefix_le h hn) i) := by
  rw [partial_blocks h G acc h0 hs n hn,
    sum_rows (Nat.mul_comm (n + 1) B) (fun i : Fin (B * (n + 1)) => G (Fin.castLE (prefix_le h hn) i))]
  exact Finset.sum_congr rfl fun t _ => Finset.sum_congr rfl fun r _ => congrArg G (Fin.ext rfl)

/-- that is, the sum of the rows whose number is below B·(n+1). -/
theorem partial_below {A B N : ℕ} (h : A * B = N) (G : Fin N → M) (acc : ℕ → M)
    (h0 : ∀ hA : 0 < A, acc 0 = 0 + ∑ r : Fin B, G (row h ⟨0, hA⟩ r))
    (hs : ∀ n (hn : n + 1 < A), acc (n + 1) = acc n + ∑ r : Fin B, G (row h ⟨n + 1, hn⟩ r))
    (n : ℕ) (hn : n < A) :
    acc n = ∑ e ∈ Finset.univ.filter (fun e : Fin N => e.val < B * (n + 1)), G e := by
  rw [partial_prefix h G acc h0 hs n hn]
  refine (Finset.sum_bij (fun (i : Fin (B * (n + 1))) _ => Fin.castLE (prefix_le h hn) i) ?_ ?_ ?_ ?_)
  · intro i _
    exact Finset.mem_filter.mpr ⟨Finset.mem_univ _, i.isLt⟩
  · intro i _ j _ hij
    have hv := congrArg Fin.val hij
    exact Fin.ext hv
  · intro e he
    exact ⟨⟨e.val, (Finset.mem_filter.mp he).2⟩, Finset.mem_univ _, Fin.ext rfl⟩
  · intro i _
    rfl

/-- After the last step the running total is the sum of the whole table. -/
theorem total_blocks {A B N : ℕ} (h : A * B = N) (G : Fin N → M) (acc : ℕ → M)
    (h0 : ∀ hA : 0 < A, acc 0 = 0 + ∑ r : Fin B, G (row h ⟨0, hA⟩ r))
    (hs : ∀ n (hn : n + 1 < A), acc (n + 1) = acc n + ∑ r : Fin B, G (row h ⟨n + 1, hn⟩ r))
    (n : ℕ) (hA : n + 1 = A) :
    acc n = ∑ e : Fin N, G e := by
  subst hA
  rw [partial_blocks h G acc h0 hs n (Nat.lt_succ_self n), sum_rows h G]

/-! ## 100 tiles of 8000 edges -/

/-- Edge `8000·t + r` of tile `t < 100`, position `r < 8000`, is one of the 800000 edges. -/
theorem tile_bound (t : ℕ) (ht : t < 100) (r : Fin 8000) : 8000 * t + r.val < 800000 := by
  have := r.isLt
  omega

/-- After tile n the running total is the sum over the edges numbered below 8000·(n+1), -/
theorem partial_total (G : Fin 800000 → M) (a : ℕ → M)
    (h0 : a 0 = 0 + ∑ r : Fin 8000, G ⟨8000 * 0 + r.val, tile_bound 0 (by norm_num) r⟩)
    (hs : ∀ n (hn : n + 1 < 100), a (n + 1) = a n + ∑ r : Fin 8000, G ⟨8000 * (n + 1) + r.val, tile_bound (n + 1) hn r⟩)
    (n : ℕ) (hn : n < 100) :
    a n = ∑ e ∈ Finset.univ.filter (fun e : Fin 800000 => e.val < 8000 * (n + 1)), G e :=
  partial_below (A := 100) (B := 8000) (N := 800000) (by norm_num) G a (fun _ => h0) hs n hn

/-- equally the sum over the first 8000·(n+1) edges, -/
theorem partial_total_prefix (G : Fin 800000 → M) (a : ℕ → M)
    (h0 : a 0 = 0 + ∑ r : Fin 8000, G ⟨8000 * 0 + r.val, tile_bound 0 (by norm_num) r⟩)
    (hs : ∀ n (hn : n + 1 < 100), a (n + 1) = a n + ∑ r : Fin 8000, G ⟨8000 * (n + 1) + r.val, tile_bound (n + 1) hn r⟩)
    (n : ℕ) (hn : n < 100) :
    a n = ∑ i : Fin (8000 * (n + 1)), G (Fin.castLE (prefix_le (A := 100) (B := 8000) (N := 800000) (by norm_num) hn) i) :=
  partial_prefix (A := 100) (B := 8000) (N := 800000) (by norm_num) G a (fun _ => h0) hs n hn

/-- and after the last tile it is the sum over all 800000 edges. -/
theorem running_total (G : Fin 800000 → M) (a : ℕ → M)
    (h0 : a 0 = 0 + ∑ r : Fin 8000, G ⟨8000 * 0 + r.val, tile_bound 0 (by norm_num) r⟩)
    (hs : ∀ n (hn : n + 1 < 100), a (n + 1) = a n + ∑ r : Fin 8000, G ⟨8000 * (n + 1) + r.val, tile_bound (n + 1) hn r⟩) :
    a 99 = ∑ e : Fin 800000, G e :=
  total_blocks (A := 100) (B := 8000) (N := 800000) (by norm_num) G a (fun _ => h0) hs 99 rfl

end Cert.EdgeSums
-- ==== Proof.EdgePassFinal.lean ====
/- The edge pass's five result arrays, each as one function of the arrays the region finds.

   With m(e,c) the pre-activation of edge e, channel c (a function of the edge features, the two gathered arrays
   added in, the weights and the bias), the region leaves:
     * in its first [800000,64] result, m;  in the second, logistic m;  in the third, h · logistic m with h the
       third gathered array — each tile writes back its 8000 edges' rows, and the 100 tiles cover the array;
     * in its two [1,64] results, the channel sums Σ_e m(e,c) and Σ_e m(e,c)² over all 800000 edges: the running
       rows start from the first tile's sums over rows just cleared, receive one tile's sums per tile, and the
       last tile stores them — after tile n the rows hold the sums over the edges below 8000·(n+1).
   No finiteness of any entry is used: the sums are re-indexed, never rearranged term against term. -/
import proofs.«175570_j5823975653421_2_alg».proof.Proof.EdgePassState
import proofs.«175570_j5823975653421_2_alg».proof.Proof.EdgePassWhole
import proofs.«175570_j5823975653421_2_alg».proof.Proof.EdgeSums
import Idealize.ShloMosaic.Lib.Pipeline.Value

set_option maxRecDepth 16384

noncomputable section

namespace Cert.KernelIdeal.R0F

open Cert.KernelIdeal.Gen Cert.KernelIdeal.R0 Cert.KernelIdeal.R0V Cert.KernelIdeal.R0B
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The pre-activations of all edges, of the arrays the region finds. -/
abbrev mOf : S800000x64.Idx → EReal :=
  mWhole (V c main_arg1) (V c main_v22) (V c main_v29) (V c main_arg8) (V c main_arg9)

/-- The third gathered array, as the region finds it; the gated message of all edges; the two rows of channel sums. -/
abbrev hOf : S800000x64.Idx → EReal := V c main_v36
def gatedOf : S800000x64.Idx → EReal := fun j => hOf V c j * Ideal.logistic (mOf V c j)
def sumRow : S1x64.Idx → EReal := fun j => ∑ e : Fin 800000, mOf V c (ix2 e (lane j))
def sumsqRow : S1x64.Idx → EReal :=
  fun j => ∑ e : Fin 800000, mOf V c (ix2 e (lane j)) * mOf V c (ix2 e (lane j))

theorem gatedOf_apply (j : S800000x64.Idx) : gatedOf V c j = hOf V c j * Ideal.logistic (mOf V c j) := rfl
theorem sumRow_ix2 (u : Fin 1) (c' : Fin 64) : sumRow V c (ix2 u c') = ∑ e : Fin 800000, mOf V c (ix2 e c') := rfl
theorem sumsqRow_ix2 (u : Fin 1) (c' : Fin 64) :
    sumsqRow V c (ix2 u c') = ∑ e : Fin 800000, mOf V c (ix2 e c') * mOf V c (ix2 e c') := rfl

/-! ## One tile, at the region's own blocks -/

/-- The tile's pre-activation at (r, c') is that of edge `8000·t + r`. -/
theorem preact_at (t : Fin cfg0.N) (r : Fin 8000) (c' : Fin 64) :
    preact V c t (ix2 r c') = mOf V c (ix2 ⟨8000 * t.val + r.val, row_lt t r⟩ c') := by
  have h4 := whole_block4 (F := Ideal) (V c main_arg8) t
  have h5 := whole_block5 (F := Ideal) (V c main_arg9) t
  show k0_pay4 (F := Ideal) (((cfg0.win 0).blk t).view.read (Elt Ideal) (V c main_arg1))
      (((cfg0.win 4).blk t).view.read (Elt Ideal) (V c main_arg8))
      (((cfg0.win 5).blk t).view.read (Elt Ideal) (V c main_arg9))
      (((cfg0.win 1).blk t).view.read (Elt Ideal) (V c main_v22))
      (((cfg0.win 2).blk t).view.read (Elt Ideal) (V c main_v29)) (ix2 r c')
    = mOf V c (ix2 ⟨8000 * t.val + r.val, row_lt t r⟩ c')
  rw [h4, h5]
  exact preact_tile_apply (V c main_arg1) (V c main_v22) (V c main_v29) (V c main_arg8) (V c main_arg9) t r c'

/-! ## The three [800000,64] results -/

/-- What tile `t` writes back to the first result is block `t` of m, -/
theorem m_flushed (t : Fin cfg0.N) :
    (dat V c).flushed 6 t = ((cfg0.win 6).blk t).view.read (Elt Ideal) (mOf V c) := by
  show (cfg0.win 6).cut (grid0.coords t) ((dat V c).after 6 t) = _
  rw [after_6, state_m]
  have h4 := whole_block4 (F := Ideal) (V c main_arg8) t
  have h5 := whole_block5 (F := Ideal) (V c main_arg9) t
  funext y
  show k0_pay4 (F := Ideal) (((cfg0.win 0).blk t).view.read (Elt Ideal) (V c main_arg1))
      (((cfg0.win 4).blk t).view.read (Elt Ideal) (V c main_arg8))
      (((cfg0.win 5).blk t).view.read (Elt Ideal) (V c main_arg9))
      (((cfg0.win 1).blk t).view.read (Elt Ideal) (V c main_v22))
      (((cfg0.win 2).blk t).view.read (Elt Ideal) (V c main_v29)) y
    = mOf V c (((cfg0.win 6).blk t).view.emb y)
  rw [h4, h5]
  exact preact_tile_eq (V c main_arg1) (V c main_v22) (V c main_v29) (V c main_arg8) (V c main_arg9) t y

/-- to the second, block `t` of logistic m, -/
theorem s_flushed (t : Fin cfg0.N) :
    (dat V c).flushed 7 t = ((cfg0.win 7).blk t).view.read (Elt Ideal) (fun j => Ideal.logistic (mOf V c j)) := by
  show (cfg0.win 7).cut (grid0.coords t) ((dat V c).after 7 t) = _
  rw [after_7, state_s]
  have h4 := whole_block4 (F := Ideal) (V c main_arg8) t
  have h5 := whole_block5 (F := Ideal) (V c main_arg9) t
  funext y
  show k0_pay5 (F := Ideal) (((cfg0.win 0).blk t).view.read (Elt Ideal) (V c main_arg1))
      (((cfg0.win 4).blk t).view.read (Elt Ideal) (V c main_arg8))
      (((cfg0.win 5).blk t).view.read (Elt Ideal) (V c main_arg9))
      (((cfg0.win 1).blk t).view.read (Elt Ideal) (V c main_v22))
      (((cfg0.win 2).blk t).view.read (Elt Ideal) (V c main_v29)) y
    = Ideal.logistic (mOf V c (((cfg0.win 7).blk t).view.emb y))
  rw [h4, h5]
  exact gate_tile_eq (V c main_arg1) (V c main_v22) (V c main_v29) (V c main_arg8) (V c main_arg9) t y

/-- to the third, block `t` of h · logistic m. -/
theorem g_flushed (t : Fin cfg0.N) :
    (dat V c).flushed 8 t = ((cfg0.win 8).blk t).view.read (Elt Ideal) (gatedOf V c) := by
  show (cfg0.win 8).cut (grid0.coords t) ((dat V c).after 8 t) = _
  rw [after_8, state_g]
  have h4 := whole_block4 (F := Ideal) (V c main_arg8) t
  have h5 := whole_block5 (F := Ideal) (V c main_arg9) t
  funext y
  show k0_pay6 (F := Ideal) (((cfg0.win 0).blk t).view.read (Elt Ideal) (V c main_arg1))
      (((cfg0.win 4).blk t).view.read (Elt Ideal) (V c main_arg8))
      (((cfg0.win 5).blk t).view.read (Elt Ideal) (V c main_arg9))
      (((cfg0.win 1).blk t).view.read (Elt Ideal) (V c main_v22))
      (((cfg0.win 2).blk t).view.read (Elt Ideal) (V c main_v29))
      (((cfg0.win 3).blk t).view.read (Elt Ideal) (V c main_v36)) y
    = gatedOf V c (((cfg0.win 8).blk t).view.emb y)
  rw [h4, h5]
  exact gated_tile_eq (V c main_arg1) (V c main_v22) (V c main_v29) (V c main_v36) (V c main_arg8) (V c main_arg9) t y

/-- THE FIRST RESULT after the region: the pre-activations of all edges. -/
theorem m_final : (dat V c).arrAt 6 cfg0.N = mOf V c :=
  (dat V c).arrAt_eq_of_cover 6 _ (fun t _ => m_flushed V c t) covered6

/-- THE SECOND: their logistic. -/
theorem s_final : (dat V c).arrAt 7 cfg0.N = fun j => Ideal.logistic (mOf V c j) :=
  (dat V c).arrAt_eq_of_cover 7 _ (fun t _ => s_flushed V c t) covered7

/-- THE THIRD: the third gathered array times the logistic. -/
theorem g_final : (dat V c).arrAt 8 cfg0.N = gatedOf V c :=
  (dat V c).arrAt_eq_of_cover 8 _ (fun t _ => g_flushed V c t) covered8

/-! ## The running rows -/

/-- The number of tiles. -/
theorem tiles : cfg0.N = 100 := N_0

/-- Lane c' of the running sum row after tile n (zero past the last tile, where nothing consults it). -/
def accAt (c' : Fin 64) (n : ℕ) : EReal :=
  if h : n < cfg0.N then (stateAt V c n h).acc (ix2 (0 : Fin 1) c') else 0
def accSqAt (c' : Fin 64) (n : ℕ) : EReal :=
  if h : n < cfg0.N then (stateAt V c n h).accSq (ix2 (0 : Fin 1) c') else 0

/-- The first tile: the cleared row plus the tile's column sum. -/
theorem acc_first (t : Fin cfg0.N) (h : t.val = 0) (c' : Fin 64) :
    (stateAt V c t.val t.isLt).acc (ix2 (0 : Fin 1) c')
      = 0 + ∑ r : Fin 8000, mOf V c (ix2 ⟨8000 * t.val + r.val, row_lt t r⟩ c') := by
  rw [acc_zero V c t h]
  refine (sum_step_apply (blk V c 0 t) (blk V c 4 t) (blk V c 5 t) (blk V c 1 t) (blk V c 2 t) (k0_pay2 (F := Ideal)) (0 : Fin 1) c').trans ?_
  rw [cleared_sum_apply]
  exact congrArg (fun z => 0 + z) (Finset.sum_congr rfl fun r _ => preact_at V c t r c')

/-- A later tile: the row the tile before left plus the tile's column sum. -/
theorem acc_next (t : Fin cfg0.N) (h : t.val ≠ 0) (c' : Fin 64) :
    (stateAt V c t.val t.isLt).acc (ix2 (0 : Fin 1) c')
      = (stateAt V c (t.val - 1) (by have := t.isLt; omega)).acc (ix2 (0 : Fin 1) c')
        + ∑ r : Fin 8000, mOf V c (ix2 ⟨8000 * t.val + r.val, row_lt t r⟩ c') := by
  rw [acc_succ V c t h]
  refine (sum_step_apply (blk V c 0 t) (blk V c 4 t) (blk V c 5 t) (blk V c 1 t) (blk V c 2 t)
    (stateAt V c (t.val - 1) (by have := t.isLt; omega)).acc (0 : Fin 1) c').trans ?_
  exact congrArg (fun z => _ + z) (Finset.sum_congr rfl fun r _ => preact_at V c t r c')

/-- The same two for the row of squares. -/
theorem accSq_first (t : Fin cfg0.N) (h : t.val = 0) (c' : Fin 64) :
    (stateAt V c t.val t.isLt).accSq (ix2 (0 : Fin 1) c')
      = 0 + ∑ r : Fin 8000, mOf V c (ix2 ⟨8000 * t.val + r.val, row_lt t r⟩ c')
          * mOf V c (ix2 ⟨8000 * t.val + r.val, row_lt t r⟩ c') := by
  rw [accSq_zero V c t h]
  refine (sumsq_step_apply (preact V c t) (k0_pay3 (F := Ideal)) (0 : Fin 1) c').trans ?_
  rw [cleared_sumsq_apply]
  exact congrArg (fun z => 0 + z) (Finset.sum_congr rfl fun r _ => by rw [preact_at V c t r c'])

theorem accSq_next (t : Fin cfg0.N) (h : t.val ≠ 0) (c' : Fin 64) :
    (stateAt V c t.val t.isLt).accSq (ix2 (0 : Fin 1) c')
      = (stateAt V c (t.val - 1) (by have := t.isLt; omega)).accSq (ix2 (0 : Fin 1) c')
        + ∑ r : Fin 8000, mOf V c (ix2 ⟨8000 * t.val + r.val, row_lt t r⟩ c')
            * mOf V c (ix2 ⟨8000 * t.val + r.val, row_lt t r⟩ c') := by
  rw [accSq_succ V c t h]
  refine (sumsq_step_apply (preact V c t)
    (stateAt V c (t.val - 1) (by have := t.isLt; omega)).accSq (0 : Fin 1) c').trans ?_
  exact congrArg (fun z => _ + z) (Finset.sum_congr rfl fun r _ => by rw [preact_at V c t r c'])

/-- The running rows as the abstract running total asks for them. -/
theorem accAt_zero (c' : Fin 64) :
    accAt V c c' 0 = 0 + ∑ r : Fin 8000,
      mOf V c (ix2 ⟨8000 * 0 + r.val, Cert.EdgeSums.tile_bound 0 (by norm_num) r⟩ c') := by
  have h0 : 0 < cfg0.N := by rw [tiles]; norm_num
  unfold accAt
  rw [dif_pos h0]
  exact acc_first V c ⟨0, h0⟩ rfl c'

theorem accAt_succ (c' : Fin 64) (n : ℕ) (hn : n + 1 < 100) :
    accAt V c c' (n + 1) = accAt V c c' n + ∑ r : Fin 8000,
      mOf V c (ix2 ⟨8000 * (n + 1) + r.val, Cert.EdgeSums.tile_bound (n + 1) hn r⟩ c') := by
  have h1 : n + 1 < cfg0.N := by rw [tiles]; exact hn
  unfold accAt
  rw [dif_pos h1, dif_pos (Nat.lt_of_succ_lt h1)]
  exact acc_next V c ⟨n + 1, h1⟩ (Nat.succ_ne_zero n) c'

theorem accSqAt_zero (c' : Fin 64) :
    accSqAt V c c' 0 = 0 + ∑ r : Fin 8000,
      mOf V c (ix2 ⟨8000 * 0 + r.val, Cert.EdgeSums.tile_bound 0 (by norm_num) r⟩ c')
        * mOf V c (ix2 ⟨8000 * 0 + r.val, Cert.EdgeSums.tile_bound 0 (by norm_num) r⟩ c') := by
  have h0 : 0 < cfg0.N := by rw [tiles]; norm_num
  unfold accSqAt
  rw [dif_pos h0]
  exact accSq_first V c ⟨0, h0⟩ rfl c'

theorem accSqAt_succ (c' : Fin 64) (n : ℕ) (hn : n + 1 < 100) :
    accSqAt V c c' (n + 1) = accSqAt V c c' n + ∑ r : Fin 8000,
      mOf V c (ix2 ⟨8000 * (n + 1) + r.val, Cert.EdgeSums.tile_bound (n + 1) hn r⟩ c')
        * mOf V c (ix2 ⟨8000 * (n + 1) + r.val, Cert.EdgeSums.tile_bound (n + 1) hn r⟩ c') := by
  have h1 : n + 1 < cfg0.N := by rw [tiles]; exact hn
  unfold accSqAt
  rw [dif_pos h1, dif_pos (Nat.lt_of_succ_lt h1)]
  exact accSq_next V c ⟨n + 1, h1⟩ (Nat.succ_ne_zero n) c'

/-- After tile n the running rows hold the sums over the edges below 8000·(n+1), -/
theorem acc_partial (c' : Fin 64) (n : ℕ) (hn : n < 100) :
    accAt V c c' n = ∑ e ∈ Finset.univ.filter (fun e : Fin 800000 => e.val < 8000 * (n + 1)), mOf V c (ix2 e c') :=
  Cert.EdgeSums.partial_total (fun e : Fin 800000 => mOf V c (ix2 e c')) (accAt V c c')
    (accAt_zero V c c') (accAt_succ V c c') n hn
theorem accSq_partial (c' : Fin 64) (n : ℕ) (hn : n < 100) :
    accSqAt V c c' n = ∑ e ∈ Finset.univ.filter (fun e : Fin 800000 => e.val < 8000 * (n + 1)),
      mOf V c (ix2 e c') * mOf V c (ix2 e c') :=
  Cert.EdgeSums.partial_total (fun e : Fin 800000 => mOf V c (ix2 e c') * mOf V c (ix2 e c')) (accSqAt V c c')
    (accSqAt_zero V c c') (accSqAt_succ V c c') n hn

/-- and after the last tile the sums over all edges. -/
theorem acc_total (c' : Fin 64) (h : 99 < cfg0.N) :
    (stateAt V c 99 h).acc (ix2 (0 : Fin 1) c') = ∑ e : Fin 800000, mOf V c (ix2 e c') := by
  have e := Cert.EdgeSums.running_total (fun e : Fin 800000 => mOf V c (ix2 e c')) (accAt V c c')
    (accAt_zero V c c') (accAt_succ V c c')
  unfold accAt at e
  rw [dif_pos h] at e
  exact e
theorem accSq_total (c' : Fin 64) (h : 99 < cfg0.N) :
    (stateAt V c 99 h).accSq (ix2 (0 : Fin 1) c')
      = ∑ e : Fin 800000, mOf V c (ix2 e c') * mOf V c (ix2 e c') := by
  have e := Cert.EdgeSums.running_total (fun e : Fin 800000 => mOf V c (ix2 e c') * mOf V c (ix2 e c'))
    (accSqAt V c c') (accSqAt_zero V c c') (accSqAt_succ V c c')
  unfold accSqAt at e
  rw [dif_pos h] at e
  exact e

/-! ## The two [1,64] results -/

/-- A tile that writes the row of sums back is the last one, and what it writes is the row of sums over all edges. -/
theorem sum_flushed (t : Fin cfg0.N) (hf : (cfg0.win 9).flush t = true) :
    (dat V c).flushed 9 t = ((cfg0.win 9).blk t).view.read (Elt Ideal) (sumRow V c) := by
  have h99 : t.val = 99 := by
    have := (flush0_9 t).mp hf
    have := lt_of_lt_of_eq t.isLt tiles
    omega
  have h9 := whole_block9 (F := Ideal) (sumRow V c) t
  show (cfg0.win 9).cut (grid0.coords t) ((dat V c).after 9 t) = _
  rw [after_9, sumOut_last V c t h99, h9]
  obtain ⟨n, hn⟩ := t
  obtain rfl : n = 99 := h99
  funext j
  obtain ⟨u, c', rfl⟩ : ∃ (u : Fin 1) (c' : Fin 64), j = ix2 u c' := ⟨j 0, j 1, eq_ix2 j⟩
  obtain rfl : u = 0 := Subsingleton.elim _ _
  exact acc_total V c c' hn

theorem sumsq_flushed (t : Fin cfg0.N) (hf : (cfg0.win 10).flush t = true) :
    (dat V c).flushed 10 t = ((cfg0.win 10).blk t).view.read (Elt Ideal) (sumsqRow V c) := by
  have h99 : t.val = 99 := by
    have := (flush0_10 t).mp hf
    have := lt_of_lt_of_eq t.isLt tiles
    omega
  have h10 := whole_block10 (F := Ideal) (sumsqRow V c) t
  show (cfg0.win 10).cut (grid0.coords t) ((dat V c).after 10 t) = _
  rw [after_10, sqOut_last V c t h99, h10]
  obtain ⟨n, hn⟩ := t
  obtain rfl : n = 99 := h99
  funext j
  obtain ⟨u, c', rfl⟩ : ∃ (u : Fin 1) (c' : Fin 64), j = ix2 u c' := ⟨j 0, j 1, eq_ix2 j⟩
  obtain rfl : u = 0 := Subsingleton.elim _ _
  exact accSq_total V c c' hn

/-- THE ROW OF CHANNEL SUMS after the region: at lane c', the sum of m(e,c') over all 800000 edges. -/
theorem sum_final : (dat V c).arrAt 9 cfg0.N = sumRow V c :=
  (dat V c).arrAt_eq_of_cover 9 _ (fun t hf => sum_flushed V c t hf) covered9

/-- THE ROW OF CHANNEL SUMS OF SQUARES: at lane c', the sum of m(e,c')² over all edges. -/
theorem sumsq_final : (dat V c).arrAt 10 cfg0.N = sumsqRow V c :=
  (dat V c).arrAt_eq_of_cover 10 _ (fun t hf => sumsq_flushed V c t hf) covered10

end Cert.KernelIdeal.R0F

end
-- ==== Proof.KHostStages.lean ====
/-
  The kernel program's host stretches, one buffer at a time.

  Between its two kernel regions the program runs five stretches of whole-table host operations. For every buffer
  that a later step reads, this module states what the stretch that writes it leaves there, as the operations' term
  over the contents the stretch started from — an ARBITRARY valuation W of the buffers, so that nothing here
  depends on what earlier stretches or regions did. The terms are named after what they compute:
    - a linear layer on the node table (matrix product plus a bias row broadcast down the rows);
    - the wrapped index column (compare with 0, move up by 50000 where negative, reshape to a column);
    - a row gather of a linear layer at a wrapped index column;
    - the column statistics from a column total and a column total of squares: mean = total / 800000 and
      var = max (squares / 800000 − mean·mean) 0;
    - the node branch from the two segment sums to the normalised, scaled and shifted table;
    - x·(1 / (1 + exp (−x)));
    - the re-layouts between [800000, 64] and [400000, 128], and a row or a vector concatenated with itself.
-/
import proofs.«175570_j5823975653421_2_alg».proof.Proof.Gen.KernelIdeal.Regions
import Idealize.ShloMosaic.Lib.StableHlo.Run

noncomputable section

namespace Cert.KernelIdeal.HostSide

open Cert.KernelIdeal Cert.KernelIdeal.Gen Idealize.ShloMosaic Idealize.ShloMosaic.StableHlo Idealize.ShloMosaic.TcCoe
  Idealize.SL.Sem

variable {F : FTy → Type} [FloatOps F]

/-- A node-shaped table … -/
abbrev KN (F : FTy → Type) : Type := (⟨S50000x64, .f32⟩ : BufTy).Contents (Elt F)
/-- … an edge-shaped one … -/
abbrev KE (F : FTy → Type) : Type := (⟨S800000x64, .f32⟩ : BufTy).Contents (Elt F)
/-- … an edge vector of 32-bit integers … -/
abbrev KI (F : FTy → Type) : Type := (⟨S800000, .i32⟩ : BufTy).Contents (Elt F)
/-- … a weight matrix … -/
abbrev KW (F : FTy → Type) : Type := (⟨S64x64, .f32⟩ : BufTy).Contents (Elt F)
/-- … a channel vector … -/
abbrev KV (F : FTy → Type) : Type := (⟨S64, .f32⟩ : BufTy).Contents (Elt F)
/-- … a one-row table … -/
abbrev KR (F : FTy → Type) : Type := (⟨S1x64, .f32⟩ : BufTy).Contents (Elt F)
/-- … a packed edge table, two edges per row … -/
abbrev KP (F : FTy → Type) : Type := (⟨S400000x128, .f32⟩ : BufTy).Contents (Elt F)
/-- … a doubled row … -/
abbrev KR2 (F : FTy → Type) : Type := (⟨S1x128, .f32⟩ : BufTy).Contents (Elt F)
/-- … and a doubled channel vector. -/
abbrev KV2 (F : FTy → Type) : Type := (⟨S128, .f32⟩ : BufTy).Contents (Elt F)

/-! ## The named terms -/

/-- A linear layer on the node table: t·w + b, the bias broadcast down the rows. -/
def linK (t : KN F) (w : KW F) (b : KV F) : KN F :=
  addf (Host.dotGeneral dot_S50000x64_S64x64_S50000x64_1_0_0_1_n_n none t w)
    (broadcastInDim S50000x64 ![0, 1] Gen.bcast_S1x64_S50000x64_0_1 (broadcastInDim S1x64 ![1] Gen.bcast_S64_S1x64_1 b))

/-- The wrapped index column of an index vector. -/
def colK (i : KI F) : (⟨S800000x1, .i32⟩ : BufTy).Contents (Elt F) :=
  broadcastInDim S800000x1 ![0] Gen.bcast_S800000_S800000x1_0
    (select (cmpi .slt i (broadcastInDim S800000 ![] Gen.bcast_S_S800000 (constantI S_ 32 0#32)))
      (addi i (broadcastInDim S800000 ![] Gen.bcast_S_S800000 (constantI S_ 32 50000#32))) i)

/-- The rows of a linear layer at a wrapped index column. -/
def gathK (t : KN F) (w : KW F) (b : KV F) (i : KI F) : KE F :=
  Host.gather gather_S50000x64_S800000x1_S800000x64_1_0_n_n_0_1_164 (linK t w b) (colK i)

/-- The literal 800000 as a row. -/
def cntRowK : KR F := broadcastInDim S1x64 ![] Gen.bcast_S_S1x64 (constant (F := F) S_ .f32 0x49435000#32)

/-- The column mean from the column totals: total / 800000. -/
def meanK (tot : KR F) : KR F := Host.divf tot cntRowK

/-- The column variance from the totals: max (squares / 800000 − mean·mean) 0. -/
def varK (tot sq : KR F) : KR F :=
  maximumf (subf (Host.divf sq cntRowK) (mulf (meanK tot) (meanK tot)))
    (broadcastInDim S1x64 ![] Gen.bcast_S_S1x64 (constant (F := F) S_ .f32 0x00000000#32))

/-- The node branch from the two gated edge tables to the normalised, scaled and shifted node table: the segment
    sums over the destination index, h = ssh / (ss + 1e-6), the update layer's table plus h, the two-pass batch
    statistics over the 50000 rows, scale and shift. -/
def normK (sg sgh : KE F) (x3 : KI F) (xsu : KN F) (x14 x15 : KV F) : KN F :=
  let zeroN : KN F := broadcastInDim S50000x64 ![] Gen.bcast_S_S50000x64 (constant (F := F) S_ .f32 0x00000000#32)
  let dstCol : (⟨S800000x1, .i32⟩ : BufTy).Contents (Elt F) := broadcastInDim S800000x1 ![0] Gen.bcast_S800000_S800000x1_0 x3
  let ssh : KN F := Host.scatterAdd (F := F) scatter_S50000x64_S800000x1_S800000x64_1_0_0_1 zeroN dstCol sgh
  let ss : KN F := Host.scatterAdd (F := F) scatter_S50000x64_S800000x1_S800000x64_1_0_0_1 zeroN dstCol sg
  let tiny : KN F := broadcastInDim S50000x64 ![] Gen.bcast_S_S50000x64 (constant (F := F) S_ .f32 0x358637BD#32)
  let h : KN F := Host.divf (F := F) ssh (addf ss tiny)
  let xp : KN F := addf xsu h
  let cnt : KV F := broadcastInDim S64 ![] Gen.bcast_S_S64 (constant (F := F) S_ .f32 0x47435000#32)
  let mean : KV F := Host.divf (F := F)
    (Host.reduceAdd (F := F) xp (constant (F := F) S_ .f32 0x00000000#32) Gen.reducesTo_S50000x64_S64_d0 Gen.h_S_) cnt
  let meanN : KN F := broadcastInDim S50000x64 ![0, 1] Gen.bcast_S1x64_S50000x64_0_1
    (broadcastInDim S1x64 ![1] Gen.bcast_S64_S1x64_1 mean)
  let dev : KN F := subf xp meanN
  let var : KV F := Host.divf (F := F)
    (Host.reduceAdd (F := F) (mulf dev dev) (constant (F := F) S_ .f32 0x00000000#32) Gen.reducesTo_S50000x64_S64_d0 Gen.h_S_) cnt
  let eps : KV F := broadcastInDim S64 ![] Gen.bcast_S_S64 (constant (F := F) S_ .f32 0x3727C5AC#32)
  let rs : KV F := Host.rsqrt (F := F) (addf var eps)
  let rsN : KN F := broadcastInDim S50000x64 ![0, 1] Gen.bcast_S1x64_S50000x64_0_1 (broadcastInDim S1x64 ![1] Gen.bcast_S64_S1x64_1 rs)
  let gN : KN F := broadcastInDim S50000x64 ![0, 1] Gen.bcast_S1x64_S50000x64_0_1 (broadcastInDim S1x64 ![1] Gen.bcast_S64_S1x64_1 x14)
  let bN : KN F := broadcastInDim S50000x64 ![0, 1] Gen.bcast_S1x64_S50000x64_0_1 (broadcastInDim S1x64 ![1] Gen.bcast_S64_S1x64_1 x15)
  addf (mulf (mulf dev rsN) gN) bN

/-- z·(1 / (1 + exp (−z))), both ones the float literal 1.0. -/
def siluK (z : KN F) : KN F :=
  let oneN : KN F := broadcastInDim S50000x64 ![] Gen.bcast_S_S50000x64 (constant (F := F) S_ .f32 0x3F800000#32)
  mulf z (Host.divf (F := F) oneN (addf oneN (Host.exp (F := F) (Host.negf (F := F) z))))

/-- An edge table re-laid two edges per row. -/
def packK (x : KE F) : KP F := fun i => shapeCast S400000x128 x Gen.shapeCasts_S800000x64_S400000x128 i

/-- A packed edge table re-laid one edge per row. -/
def unpackK (x : KP F) : KE F := fun i => shapeCast S800000x64 x Gen.shapeCasts_S400000x128_S800000x64 i

/-- A row concatenated with itself along its lanes. -/
def dblRowK (r : KR F) : KR2 F := concatenate S1x128 1 [⟨S1x64, r⟩, ⟨S1x64, r⟩] Gen.concatenates_S1x64_S1x64_S1x128_d1

/-- A channel vector concatenated with itself. -/
def dblVecK (v : KV F) : KV2 F := concatenate S128 0 [⟨S64, v⟩, ⟨S64, v⟩] Gen.concatenates_S64_S64_S128_d0

/-! ## What each stretch leaves, over an arbitrary starting valuation -/

variable (W : Valuation τ sig (Elt F))

/-- The update layer's table x_su. -/
theorem s0_v15 : StableHlo.after hostOps0 W (Proc.devRef .tc main_v15)
    = linK (W (Proc.devRef .tc main_arg0)) (W (Proc.devRef .tc main_arg10)) (W (Proc.devRef .tc main_arg11)) := by
  after_results_simp
  try rfl

/-- The gathered source layer e_src[src]. -/
theorem s0_v22 : StableHlo.after hostOps0 W (Proc.devRef .tc main_v22)
    = gathK (W (Proc.devRef .tc main_arg0)) (W (Proc.devRef .tc main_arg4)) (W (Proc.devRef .tc main_arg5))
        (W (Proc.devRef .tc main_arg2)) := by
  after_results_simp
  try rfl

/-- The gathered destination layer e_dst[dst]. -/
theorem s0_v29 : StableHlo.after hostOps0 W (Proc.devRef .tc main_v29)
    = gathK (W (Proc.devRef .tc main_arg0)) (W (Proc.devRef .tc main_arg6)) (W (Proc.devRef .tc main_arg7))
        (W (Proc.devRef .tc main_arg3)) := by
  after_results_simp
  try rfl

/-- The gathered message layer Bh[src]. -/
theorem s0_v36 : StableHlo.after hostOps0 W (Proc.devRef .tc main_v36)
    = gathK (W (Proc.devRef .tc main_arg0)) (W (Proc.devRef .tc main_arg12)) (W (Proc.devRef .tc main_arg13))
        (W (Proc.devRef .tc main_arg2)) := by
  after_results_simp
  try rfl

/-- The column mean of the pre-activation, from the first region's column totals. -/
theorem s1_v39 : StableHlo.after hostOps1 W (Proc.devRef .tc main_v39) = meanK (W (Proc.devRef .tc main_v37_3)) := by
  after_results_simp
  try rfl

/-- The column variance of the pre-activation, from the first region's two rows of totals. -/
theorem s1_v45 : StableHlo.after hostOps1 W (Proc.devRef .tc main_v45)
    = varK (W (Proc.devRef .tc main_v37_3)) (W (Proc.devRef .tc main_v37_4)) := by
  after_results_simp
  try rfl

/-- The normalised node table, before the activation. -/
theorem s1_v80 : StableHlo.after hostOps1 W (Proc.devRef .tc main_v80)
    = normK (W (Proc.devRef .tc main_v37_1)) (W (Proc.devRef .tc main_v37_2)) (W (Proc.devRef .tc main_arg3))
        (W (Proc.devRef .tc main_v15)) (W (Proc.devRef .tc main_arg14)) (W (Proc.devRef .tc main_arg15)) := by
  after_results_simp
  try rfl

/-- The activated node table. -/
theorem s11_v81 : StableHlo.after hostOps1_1 W (Proc.devRef .tc main_v81) = siluK (W (Proc.devRef .tc main_v80)) := by
  after_results
  try rfl

/-- The node result: the residual. -/
theorem s12_v82 : StableHlo.after hostOps1_2 W (Proc.devRef .tc main_v82)
    = addf (W (Proc.devRef .tc main_arg0)) (W (Proc.devRef .tc main_v81)) := by
  after_results

/-- The pre-activation, packed. -/
theorem s12_v83 : StableHlo.after hostOps1_2 W (Proc.devRef .tc main_v83) = packK (W (Proc.devRef .tc main_v37_0)) := by
  after_results
  try rfl

/-- The edge table, packed. -/
theorem s12_v84 : StableHlo.after hostOps1_2 W (Proc.devRef .tc main_v84) = packK (W (Proc.devRef .tc main_arg1)) := by
  after_results
  try rfl

/-- The mean row, doubled. -/
theorem s12_v85 : StableHlo.after hostOps1_2 W (Proc.devRef .tc main_v85) = dblRowK (W (Proc.devRef .tc main_v39)) := by
  after_results
  try rfl

/-- The variance row, doubled. -/
theorem s12_v86 : StableHlo.after hostOps1_2 W (Proc.devRef .tc main_v86) = dblRowK (W (Proc.devRef .tc main_v45)) := by
  after_results
  try rfl

/-- The scale vector, doubled. -/
theorem s12_v87 : StableHlo.after hostOps1_2 W (Proc.devRef .tc main_v87) = dblVecK (W (Proc.devRef .tc main_arg16)) := by
  after_results
  try rfl

/-- The shift vector, doubled. -/
theorem s12_v88 : StableHlo.after hostOps1_2 W (Proc.devRef .tc main_v88) = dblVecK (W (Proc.devRef .tc main_arg17)) := by
  after_results
  try rfl

/-- The edge result, unpacked. -/
theorem s2_v90 : StableHlo.after hostOps2 W (Proc.devRef .tc main_v90) = unpackK (W (Proc.devRef .tc main_v89)) := by
  after_results
  try rfl

end Cert.KernelIdeal.HostSide

end
-- ==== Proof.GatherRows.lean ====
/-
  A gather of whole rows, read at an index.

  What x[idx] of a table x : [N, D] at an integer vector idx : [E] lowers to: a gather over the indices as
  [E, 1] with offset axis 1, collapsed axis 0, start index map [0], index vector axis 1 and slices of one row,
  [1, D]. Result element (e, c) is x at (r, c), where r is the start index idx[e, 0] read as a signed integer
  and clamped into [0, N − 1] (a gather clamps every start index so that its slice fits): on the row axis the
  operand coordinate is the clamped start alone (the axis is collapsed, so it carries no offset), on the
  column axis it is the result's own column (the start index map does not name that axis, so its start is 0).
-/
import Idealize.ShloMosaic.Lib.ValueIdx

namespace Cert.GatherRows

open Idealize.ShloMosaic Idealize.ShloMosaic.ValueIdx

variable {α : Type}

/-- The dimension numbers of a row gather, for an operand [N, D], start indices [E, 1] and a result [E, D]. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into [0, N − 1]. -/
def clampRow {w : Nat} (N : Nat) (hN : 0 < N) (v : BitVec w) : Fin N := ⟨min v.toInt.toNat (N - 1), by omega⟩

theorem clampRow_val {w : Nat} (N : Nat) (hN : 0 < N) (v : BitVec w) :
    (clampRow N hN v).val = min v.toInt.toNat (N - 1) := rfl

/-- On the row axis the operand coordinate of result (e, c) is the clamped start index idx[e, 0]. -/
theorem operandIdx_row {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    ((rowsDims N E D wf).operandIdx (ix2 e c) idx (0 : Fin 2)).val
      = min (idx (ix2 e (0 : Fin 1))).toInt.toNat (N - 1) := by
  show (rowsDims N E D wf).start (ix2 e c) idx (0 : Fin 2) + (rowsDims N E D wf).batchCoord (ix2 e c) (0 : Fin 2)
      + (rowsDims N E D wf).offCoord (ix2 e c) (0 : Fin 2) = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowsDims N E D wf).startIndexMap from List.mem_singleton.mpr rfl)]
  have hsi : (rowsDims N E D wf).siIdx (ix2 e c) ⟨List.idxOf (0 : Fin 2) (rowsDims N E D wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand coordinate of result (e, c) is c. -/
theorem operandIdx_col {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    ((rowsDims N E D wf).operandIdx (ix2 e c) idx (1 : Fin 2)).val = c.val := by
  show (rowsDims N E D wf).start (ix2 e c) idx (1 : Fin 2) + (rowsDims N E D wf).batchCoord (ix2 e c) (1 : Fin 2)
      + (rowsDims N E D wf).offCoord (ix2 e c) (1 : Fin 2) = _
  have hs : (rowsDims N E D wf).start (ix2 e c) idx (1 : Fin 2) = 0 := by
    unfold GatherDims.start
    exact dif_neg (show ¬ (1 : Fin 2) ∈ ([0] : List (Fin 2)) by decide)
  have ho : (rowsDims N E D wf).offCoord (ix2 e c) (1 : Fin 2) = c.val := by
    unfold GatherDims.offCoord
    rw [dif_pos ((GatherDims.mem_sKept _ _).mpr
      ⟨show ¬ (1 : Fin 2) ∈ ([0] : List (Fin 2)) by decide, List.not_mem_nil⟩)]
    rfl
  rw [GatherDims.batchCoord_eq_zero _ _ _ List.not_mem_nil, hs, ho]
  omega

/-- THE ROW GATHER READ AT (e, c): the operand at the clamped row idx[e, 0], column c. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c) = x (ix2 (clampRow N hN (idx (ix2 e (0 : Fin 1)))) c) := by
  unfold Host.gather
  congr 1
  funext a
  refine Fin.ext ?_
  match a with
  | ⟨0, _⟩ => exact operandIdx_row wf idx e c
  | ⟨1, _⟩ => exact operandIdx_col wf idx e c

end Cert.GatherRows
-- ==== Proof.LibMoments.lean ====
/-
  Second moments on the extended reals. For finitely many REAL entries x i (an extended-real table all of
  whose entries are finite) and their count n > 0:

    max (Σ x² / n − (Σ x / n)·(Σ x / n)) 0  =  Σ (x − Σ x / n)·(x − Σ x / n) / n

  — the "mean of squares minus squared mean, clamped at zero" form of a variance equals the "mean squared
  deviation" form. Over the reals the two are one polynomial identity (expand the square, use Σ 1 = n) and the
  common value is a sum of squares over a positive number, so the clamp is the identity; the extended-real
  statement follows because every operation involved (sum, product, difference, quotient by the nonzero real
  n) sends finite values to the finite value the reals give. Finiteness is NEEDED: at an infinite entry the
  left side is ⊤ − ⊤ = ⊥, clamped to 0, while the right side is ⊤.
  The quotient is Ideal.div (the quotient of the ideal float instance), so the statement applies verbatim to
  a batch-normalisation's statistics computed either way.
-/
import Idealize.ShloMosaic.PureOps.Ideal
import Mathlib.Algebra.BigOperators.Ring.Finset
import Mathlib.Algebra.Order.BigOperators.Ring.Finset
import Mathlib.Tactic.FieldSimp
import Mathlib.Tactic.Ring
import Mathlib.Tactic.Positivity

namespace Cert.LibMoments

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, in the ideal instance, is the real quotient. -/
theorem div_coe_coe (a : ℝ) {n : ℝ} (hn : n ≠ 0) : Ideal.div (a : EReal) (n : EReal) = ((a / n : ℝ) : EReal) := by
  rw [Ideal.div_coe hn, ← EReal.coe_mul]; congr 1; field_simp

/-- Over the reals: mean of squares minus squared mean is the mean squared deviation. -/
theorem real_moments {ι : Type*} [Fintype ι] (x : ι → ℝ) {n : ℝ} (hn : n = (Fintype.card ι : ℝ)) (h0 : n ≠ 0) :
    (∑ i, x i * x i) / n - (∑ i, x i) / n * ((∑ i, x i) / n)
      = (∑ i, (x i - (∑ j, x j) / n) * (x i - (∑ j, x j) / n)) / n := by
  have hexp : ∀ i, (x i - (∑ j, x j) / n) * (x i - (∑ j, x j) / n)
      = x i * x i - 2 * ((∑ j, x j) / n) * x i + ((∑ j, x j) / n) * ((∑ j, x j) / n) := fun i => by ring
  simp only [hexp, Finset.sum_add_distrib, Finset.sum_sub_distrib, ← Finset.mul_sum, Finset.sum_const,
    Finset.card_univ, nsmul_eq_mul, ← hn]
  field_simp
  ring

/-- … and that common value is not negative. -/
theorem real_moments_nonneg {ι : Type*} [Fintype ι] (x : ι → ℝ) {n : ℝ} (hn : n = (Fintype.card ι : ℝ)) (h0 : 0 < n) :
    0 ≤ (∑ i, x i * x i) / n - (∑ i, x i) / n * ((∑ i, x i) / n) := by
  rw [real_moments x hn h0.ne']
  exact div_nonneg (Finset.sum_nonneg fun i _ => mul_self_nonneg _) h0.le

/-- The two forms of the variance of finitely many finite entries agree on the extended reals. -/
theorem moments {ι : Type*} [Fintype ι] (x : ι → ℝ) {n : ℝ} (hn : n = (Fintype.card ι : ℝ)) (h0 : 0 < n) :
    max (Ideal.div (∑ i, (x i : EReal) * (x i : EReal)) (n : EReal)
          - Ideal.div (∑ i, (x i : EReal)) (n : EReal) * Ideal.div (∑ i, (x i : EReal)) (n : EReal)) 0
      = Ideal.div (∑ i, ((x i : EReal) - Ideal.div (∑ j, (x j : EReal)) (n : EReal))
          * ((x i : EReal) - Ideal.div (∑ j, (x j : EReal)) (n : EReal))) (n : EReal) := by
  have hs : (∑ i, (x i : EReal)) = ((∑ i, x i : ℝ) : EReal) := (coe_sum _ _).symm
  have hq : (∑ i, (x i : EReal) * (x i : EReal)) = ((∑ i, x i * x i : ℝ) : EReal) := by
    rw [coe_sum]; exact Finset.sum_congr rfl fun i _ => (EReal.coe_mul _ _).symm
  rw [hs, hq, div_coe_coe _ h0.ne', div_coe_coe _ h0.ne']
  have hd : (∑ i, ((x i : EReal) - (((∑ j, x j) / n : ℝ) : EReal)) * ((x i : EReal) - (((∑ j, x j) / n : ℝ) : EReal)))
      = ((∑ i, (x i - (∑ j, x j) / n) * (x i - (∑ j, x j) / n) : ℝ) : EReal) := by
    rw [coe_sum]; exact Finset.sum_congr rfl fun i _ => by rw [← EReal.coe_sub, ← EReal.coe_mul]
  rw [hd, div_coe_coe _ h0.ne', ← EReal.coe_mul, ← EReal.coe_sub, ← real_moments x hn h0.ne']
  exact max_eq_left (by exact_mod_cast real_moments_nonneg x hn h0)

end Cert.LibMoments
-- ==== Proof.LibFinite.lean ====
/-
  Finite extended reals: the entries of a table that are real numbers, and the operations that keep them so.

  An extended real is FINITE when it is the image of a real. Sums (binary and over a finite index set),
  differences, products and maxima of finite values are finite, and each is the image of the real sum,
  difference, product, maximum; the quotient by a nonzero real is finite; the reciprocal square root of a
  positive real is a positive real. These are the steps by which finiteness of a program's inputs is carried
  through its arithmetic to the place where an algebraic law (one that fails at the infinities) is used.
-/
import Idealize.ShloMosaic.PureOps.Ideal
import Mathlib.Algebra.BigOperators.Ring.Finset
import Mathlib.Tactic.FieldSimp
import Mathlib.Tactic.Positivity

namespace Cert.LibFinite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.neg {x : EReal} (hx : IsReal x) : IsReal (-x) := by
  obtain ⟨a, rfl⟩ := hx; exact ⟨-a, (EReal.coe_neg a).symm⟩

/-- A finite sum of finite values is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero real is finite. -/
theorem IsReal.div_coe {x : EReal} (hx : IsReal x) {n : ℝ} (hn : n ≠ 0) : IsReal (Ideal.div x (n : EReal)) := by
  obtain ⟨a, rfl⟩ := hx
  rw [Ideal.div_coe hn]; exact ⟨a * (1 / n), (EReal.coe_mul _ _).symm⟩

/-- The reciprocal square root of a positive real is a positive real. -/
theorem rsqrt_pos {r : ℝ} (hr : 0 < r) : ∃ s : ℝ, 0 < s ∧ Ideal.rsqrt (r : EReal) = (s : EReal) := by
  refine ⟨(Real.sqrt r)⁻¹, inv_pos.mpr (Real.sqrt_pos.mpr hr), ?_⟩
  show (if r < 0 then (⊥ : EReal) else if r = 0 then ⊤ else ((Real.sqrt r)⁻¹ : ℝ)) = _
  rw [if_neg (not_lt.mpr hr.le), if_neg hr.ne']

theorem isReal_rsqrt_pos {r : ℝ} (hr : 0 < r) : IsReal (Ideal.rsqrt (r : EReal)) := by
  obtain ⟨s, -, hs⟩ := rsqrt_pos hr; exact ⟨s, hs⟩

/-- A finite table, as a table of reals. -/
theorem exists_real {ι : Type*} (f : ι → EReal) (h : ∀ i, IsReal (f i)) : ∃ g : ι → ℝ, ∀ i, f i = (g i : EReal) :=
  ⟨fun i => (h i).choose, fun i => (h i).choose_spec⟩

/-- A value strictly between the two infinities in absolute value is finite: |x| < +∞ means x is a real. -/
theorem isReal_of_abs_lt_top {x : EReal} (h : max x (-x) < ⊤) : IsReal x := by
  induction x using EReal.rec with
  | bot => simp at h
  | coe r => exact ⟨r, rfl⟩
  | top => simp at h

end Cert.LibFinite
-- ==== Proof.LibBatchNorm.lean ====
/-
  Batch statistics: the two ways of computing a column's mean and variance agree on finite entries.

  From the column total s and the total of squares q of n finite entries the kernel's host code computes the mean s / n
  and the variance max (q / n − (s / n)²) 0; the reference computes the mean (0 + Σ y) / n and the variance
  (0 + Σ (y − mean)²) / n. The means are one value; the variances are equal because the entries are real numbers
  (LibMoments), and the common value is a non-negative real. Also: the literal 100000.0.
-/
import proofs.«175570_j5823975653421_2_alg».proof.Proof.LibMoments
import proofs.«175570_j5823975653421_2_alg».proof.Proof.LibFinite
import Mathlib.Tactic.NormNum
import Mathlib.Tactic.Positivity

noncomputable section

open scoped BigOperators

namespace Cert.LibBatchNorm

open Idealize.ShloMosaic Cert.LibFinite

/-- The float literal 0x47C35000 is 100000. -/
theorem ofBits_100000 : Ideal.ofBits .f32 0x47C35000#32 = ((100000 : ℝ) : EReal) := by
  simp [Ideal.ofBits, Ideal.ieee]
  rw [← EReal.coe_mul]; norm_num

/-- The two variance forms of n finite entries agree. -/
theorem var_eq {n : ℕ} (y : Fin n → EReal) (hy : ∀ r, IsReal (y r)) (hn : 0 < n) (N : EReal) (hN : N = ((n : ℝ) : EReal)) :
    max (Ideal.div (∑ r, y r * y r) N - Ideal.div (∑ r, y r) N * Ideal.div (∑ r, y r) N) 0
      = Ideal.div (0 + ∑ r, (y r - Ideal.div (0 + ∑ r', y r') N) * (y r - Ideal.div (0 + ∑ r', y r') N)) N := by
  obtain ⟨x, hx⟩ := exists_real y hy
  have hyx : y = fun r => (x r : EReal) := funext hx
  subst hyx hN
  simp only [zero_add]
  exact Cert.LibMoments.moments x (by simp) (by exact_mod_cast hn)

/-- The kernel's variance of n finite entries is a non-negative real. -/
theorem var_nonneg {n : ℕ} (y : Fin n → EReal) (hy : ∀ r, IsReal (y r)) (hn : 0 < n) (N : EReal) (hN : N = ((n : ℝ) : EReal)) :
    ∃ v : ℝ, 0 ≤ v ∧ max (Ideal.div (∑ r, y r * y r) N - Ideal.div (∑ r, y r) N * Ideal.div (∑ r, y r) N) 0 = (v : EReal) := by
  have hn0 : (n : ℝ) ≠ 0 := by exact_mod_cast hn.ne'
  have h1 : IsReal (Ideal.div (∑ r, y r * y r) N - Ideal.div (∑ r, y r) N * Ideal.div (∑ r, y r) N) := by
    subst hN
    exact ((isReal_sum _ _ fun r _ => (hy r).mul (hy r)).div_coe hn0).sub
      (((isReal_sum _ _ fun r _ => hy r).div_coe hn0).mul ((isReal_sum _ _ fun r _ => hy r).div_coe hn0))
  obtain ⟨a, ha⟩ := h1
  refine ⟨max a 0, le_max_right _ _, ?_⟩
  rw [ha]
  rcases le_total a 0 with h | h
  · rw [max_eq_right h, max_eq_right (by exact_mod_cast h)]; rfl
  · rw [max_eq_left h, max_eq_left (by exact_mod_cast h)]

/-- The mean of n finite entries is finite. -/
theorem mean_real {n : ℕ} (y : Fin n → EReal) (hy : ∀ r, IsReal (y r)) (hn : 0 < n) (N : EReal) (hN : N = ((n : ℝ) : EReal)) :
    IsReal (Ideal.div (∑ r, y r) N) := by
  subst hN
  exact (isReal_sum _ _ fun r _ => hy r).div_coe (by exact_mod_cast hn.ne')

end Cert.LibBatchNorm

end
-- ==== Proof.Literals.lean ====
/-
  Float literals as real numbers.

  A 32-bit pattern with sign 0, biased exponent E and fraction T denotes (2^23 + T) · 2^(E − 127 − 23).
  0x49435000 has E = 146 and T = 0x435000 = 4411392, so it denotes 12800000 · 2^(−4) = 800000: the number of
  rows a per-channel mean over the edge table divides by. 0x47435000 has the same fraction and E = 142, so it
  denotes 12800000 · 2^(−8) = 50000: the number of rows of the node table.
-/
import Idealize.ShloMosaic.PureOps.Ideal
import Mathlib.Tactic.NormNum

namespace Cert.Literals

open Idealize.ShloMosaic

/-- The float literal 0x49435000 is 800000. -/
theorem ofBits_800000 : Ideal.ofBits .f32 0x49435000#32 = ((800000 : ℝ) : EReal) := by
  simp [Ideal.ofBits, Ideal.ieee]
  rw [← EReal.coe_mul]; norm_num

/-- The float literal 0x47435000 is 50000. -/
theorem ofBits_50000 : Ideal.ofBits .f32 0x47435000#32 = ((50000 : ℝ) : EReal) := by
  simp [Ideal.ofBits, Ideal.ieee]
  rw [← EReal.coe_mul]; norm_num

end Cert.Literals
-- ==== Proof.Spec.lean ====
/-
  The edge branch of a gated graph convolution, as a function of its argument tables, index by index.

  For a node table nf : [50000, 64], an edge table ef : [800000, 64], two integer vectors src, dst : [800000]
  naming each edge's end nodes, and linear layers (W, b):

    m[e, c]  = (nf·Wsg + bsg)[row src e, c] + (nf·Wdg + bdg)[row dst e, c] + (ef·Weg + beg)[e, c]
    y[e, c]  = ef[e, c] + z·logistic z,   z = ((m[e, c] − mean c)·rsqrt (var c + eps))·gamma c + beta c

  where row w is the row a node index selects (a negative index is moved up by 50000, and the result is clamped
  into [0, 49999], as reading a table at that index does), and mean c, var c are the mean and the variance of
  column c of m over all 800000 edges.

  Two groupings of the three summands of m are stated; they are equal because addition of extended reals is
  commutative and associative (no finiteness is involved).

  Two ways of computing the column statistics are stated. The two-pass way forms the mean first and then the
  mean of the squared deviations from it; the one-pass way forms the column total and the column total of squares
  together and takes max (mean of squares − squared mean) 0. The means are one value. The variances are one
  value when every entry of m is a real number: over the reals the two are one polynomial identity whose common
  value is not negative, so the clamp at 0 is the identity; at an infinite entry they differ (⊤ − ⊤ = ⊥ is clamped
  to 0 on one side and the other side is ⊤), so finiteness is needed exactly here.
-/
import Idealize.ShloMosaic.Lib.ValueIdx
import Idealize.ShloMosaic.PureOps.Ideal.Laws
import proofs.«175570_j5823975653421_2_alg».proof.Proof.GatherRows
import proofs.«175570_j5823975653421_2_alg».proof.Proof.LibBatchNorm
import proofs.«175570_j5823975653421_2_alg».proof.Proof.Literals

noncomputable section

open scoped BigOperators

namespace Cert.Spec

open Idealize.ShloMosaic Idealize.ShloMosaic.ValueIdx

/-- The node table's shape … -/
abbrev SN : Shape := ⟨2, ![50000, 64]⟩
/-- … the edge table's … -/
abbrev SE : Shape := ⟨2, ![800000, 64]⟩
/-- … an edge vector's … -/
abbrev SI : Shape := ⟨1, ![800000]⟩
/-- … a weight matrix's … -/
abbrev SW : Shape := ⟨2, ![64, 64]⟩
/-- … and a channel vector's. -/
abbrev SV : Shape := ⟨1, ![64]⟩

/-! ## Which node row an edge reads -/

/-- A node index as it is read: a negative one is first moved up by the number of nodes. -/
def wrapNode (w : BitVec 32) : BitVec 32 := Scalar.select (IntOp.cmpi .slt w 0#32) (IntOp.addi w 50000#32) w

/-- The row of the node table a node index selects: the wrapped index, read signed and clamped into [0, 49999]. -/
def nodeRow (w : BitVec 32) : Fin 50000 := Cert.GatherRows.clampRow 50000 (by decide) (wrapNode w)

/-! ## The pre-activation m -/

/-- A linear layer on the node table: (t·W + b)[n, c]. -/
def projN (t : SN.Idx → EReal) (W : SW.Idx → EReal) (b : SV.Idx → EReal) (n : Fin 50000) (c : Fin 64) : EReal :=
  (∑ k : Fin 64, t (ix2 n k) * W (ix2 k c)) + b (ix1 c)

/-- A linear layer on the edge table: (t·W + b)[e, c]. -/
def projE (t : SE.Idx → EReal) (W : SW.Idx → EReal) (b : SV.Idx → EReal) (e : Fin 800000) (c : Fin 64) : EReal :=
  (∑ k : Fin 64, t (ix2 e k) * W (ix2 k c)) + b (ix1 c)

/-- The pre-activation, grouped (source term + destination term) + edge term. -/
def mRef (nf : SN.Idx → EReal) (ef : SE.Idx → EReal) (src dst : SI.Idx → BitVec 32)
    (Wsg : SW.Idx → EReal) (bsg : SV.Idx → EReal) (Wdg : SW.Idx → EReal) (bdg : SV.Idx → EReal)
    (Weg : SW.Idx → EReal) (beg : SV.Idx → EReal) (e : Fin 800000) (c : Fin 64) : EReal :=
  (projN nf Wsg bsg (nodeRow (src (ix1 e))) c + projN nf Wdg bdg (nodeRow (dst (ix1 e))) c) + projE ef Weg beg e c

/-- The pre-activation, grouped (edge term + source term) + destination term. -/
def mKer (nf : SN.Idx → EReal) (ef : SE.Idx → EReal) (src dst : SI.Idx → BitVec 32)
    (Wsg : SW.Idx → EReal) (bsg : SV.Idx → EReal) (Wdg : SW.Idx → EReal) (bdg : SV.Idx → EReal)
    (Weg : SW.Idx → EReal) (beg : SV.Idx → EReal) (e : Fin 800000) (c : Fin 64) : EReal :=
  (projE ef Weg beg e c + projN nf Wsg bsg (nodeRow (src (ix1 e))) c) + projN nf Wdg bdg (nodeRow (dst (ix1 e))) c

/-- The two groupings are one value: (P + S) + D = P + (S + D) = (S + D) + P. -/
theorem mKer_eq_mRef (nf : SN.Idx → EReal) (ef : SE.Idx → EReal) (src dst : SI.Idx → BitVec 32)
    (Wsg : SW.Idx → EReal) (bsg : SV.Idx → EReal) (Wdg : SW.Idx → EReal) (bdg : SV.Idx → EReal)
    (Weg : SW.Idx → EReal) (beg : SV.Idx → EReal) :
    mKer nf ef src dst Wsg bsg Wdg bdg Weg beg = mRef nf ef src dst Wsg bsg Wdg bdg Weg beg := by
  funext e c
  unfold mKer mRef
  rw [add_assoc, add_comm]

/-- The gate: the logistic function of the pre-activation. -/
def sigma (m : Fin 800000 → Fin 64 → EReal) (e : Fin 800000) (c : Fin 64) : EReal := Ideal.logistic (m e c)

/-! ## Column statistics, two ways -/

/-- The column mean, seeded: (0 + Σ_e m[e, c]) / 800000. -/
def meanTwo (m : Fin 800000 → Fin 64 → EReal) (c : Fin 64) : EReal :=
  Ideal.div (Ideal.ofBits .f32 0x00000000#32 + ∑ e : Fin 800000, m e c) (Ideal.ofBits .f32 0x49435000#32)

/-- The column variance as the mean squared deviation, seeded: (0 + Σ_e (m[e, c] − mean c)²) / 800000. -/
def varTwo (m : Fin 800000 → Fin 64 → EReal) (c : Fin 64) : EReal :=
  Ideal.div (Ideal.ofBits .f32 0x00000000#32 + ∑ e : Fin 800000, (m e c - meanTwo m c) * (m e c - meanTwo m c))
    (Ideal.ofBits .f32 0x49435000#32)

/-- The column mean from the column total: (Σ_e m[e, c]) / 800000. -/
def meanOne (m : Fin 800000 → Fin 64 → EReal) (c : Fin 64) : EReal :=
  Ideal.div (∑ e : Fin 800000, m e c) (Ideal.ofBits .f32 0x49435000#32)

/-- The column variance from the totals: max ((Σ_e m[e, c]²) / 800000 − mean c · mean c) 0. -/
def varOne (m : Fin 800000 → Fin 64 → EReal) (c : Fin 64) : EReal :=
  max (Ideal.div (∑ e : Fin 800000, m e c * m e c) (Ideal.ofBits .f32 0x49435000#32) - meanOne m c * meanOne m c) 0

/-- The means are one value (adding the seed 0 changes nothing). -/
theorem meanOne_eq_meanTwo (m : Fin 800000 → Fin 64 → EReal) (c : Fin 64) : meanOne m c = meanTwo m c := by
  unfold meanOne meanTwo
  rw [Ideal.ofBits_zero_f32, zero_add]

/-- The variances are one value when every entry of the column is a real number. -/
theorem varOne_eq_varTwo (m : Fin 800000 → Fin 64 → EReal) (hm : ∀ e c, ∃ r : ℝ, m e c = (r : EReal)) (c : Fin 64) :
    varOne m c = varTwo m c := by
  unfold varOne varTwo meanOne meanTwo
  rw [Ideal.ofBits_zero_f32]
  exact Cert.LibBatchNorm.var_eq (fun e => m e c) (fun e => hm e c) (by norm_num) _
    (by rw [Cert.Literals.ofBits_800000]; norm_num)

/-! ## Normalisation, activation, residual -/

/-- x · logistic x. -/
def silu (z : EReal) : EReal := z * Ideal.logistic z

/-- The normalised, scaled and shifted pre-activation for given column statistics. -/
def norm (m : Fin 800000 → Fin 64 → EReal) (mean var : Fin 64 → EReal) (gamma beta : SV.Idx → EReal)
    (e : Fin 800000) (c : Fin 64) : EReal :=
  ((m e c - mean c) * Ideal.rsqrt (var c + Ideal.ofBits .f32 0x3727C5AC#32)) * gamma (ix1 c) + beta (ix1 c)

/-- The edge result for given column statistics: the edge table plus the activated normalised pre-activation. -/
def yOf (ef : SE.Idx → EReal) (m : Fin 800000 → Fin 64 → EReal) (mean var : Fin 64 → EReal)
    (gamma beta : SV.Idx → EReal) (e : Fin 800000) (c : Fin 64) : EReal :=
  ef (ix2 e c) + silu (norm m mean var gamma beta e c)

/-- The edge result with the two-pass statistics. -/
def yTwoPass (ef : SE.Idx → EReal) (m : Fin 800000 → Fin 64 → EReal) (gamma beta : SV.Idx → EReal) :
    Fin 800000 → Fin 64 → EReal := yOf ef m (meanTwo m) (varTwo m) gamma beta

/-- The edge result with the one-pass statistics. -/
def yOnePass (ef : SE.Idx → EReal) (m : Fin 800000 → Fin 64 → EReal) (gamma beta : SV.Idx → EReal) :
    Fin 800000 → Fin 64 → EReal := yOf ef m (meanOne m) (varOne m) gamma beta

/-- THE LAW: on a pre-activation all of whose entries are real numbers, the two ways give one edge result. -/
theorem yOnePass_eq_yTwoPass (ef : SE.Idx → EReal) (m : Fin 800000 → Fin 64 → EReal) (gamma beta : SV.Idx → EReal)
    (hm : ∀ e c, ∃ r : ℝ, m e c = (r : EReal)) :
    yOnePass ef m gamma beta = yTwoPass ef m gamma beta := by
  unfold yOnePass yTwoPass
  rw [show meanOne m = meanTwo m from funext (meanOne_eq_meanTwo m),
    show varOne m = varTwo m from funext (varOne_eq_varTwo m hm)]

end Cert.Spec

end
-- ==== Proof.RefM.lean ====
/-
  The reference's pre-activation, read at an index.

  The reference forms, on whole tables, e_src = nf·Wsg + bsg and e_dst = nf·Wdg + bdg (a matrix product plus a
  bias row broadcast down the rows), reads their rows at the wrapped source and destination indices of every edge
  (a row gather), and adds the edge layer ef·Weg + beg:  m = (e_src[src] + e_dst[dst]) + (ef·Weg + beg).
  Read at (e, c) this is the specification's pre-activation in its first grouping:
    - a matrix product's entry is the sum over the contracted coordinate k of left[row, k]·right[k, col];
    - a bias row broadcast to [1, 64] and then to all rows reads the bias at the column;
    - the index vector is compared with 0, moved up by 50000 where negative, and reshaped to a column, so its
      entry at (e, 0) is the wrapped index of edge e;
    - the row gather reads the operand at the clamped wrapped index, same column.
-/
import proofs.«175570_j5823975653421_2_alg».proof.Proof.RefGen
import proofs.«175570_j5823975653421_2_alg».proof.Proof.Spec

noncomputable section

open scoped BigOperators

namespace Cert.RefSide

open Cert.ReferenceIdeal Cert.ReferenceIdeal.Read Idealize.ShloMosaic Idealize.ShloMosaic.ValueIdx Cert.Spec

/-- A node-shaped table of extended reals … -/
abbrev TN : Type := (⟨S50000x64, .f32⟩ : BufTy).Contents (Elt Ideal)
/-- … an edge-shaped one … -/
abbrev TE : Type := (⟨S800000x64, .f32⟩ : BufTy).Contents (Elt Ideal)
/-- … an edge vector of 32-bit integers … -/
abbrev TI : Type := (⟨S800000, .i32⟩ : BufTy).Contents (Elt Ideal)
/-- … a weight matrix … -/
abbrev TW : Type := (⟨S64x64, .f32⟩ : BufTy).Contents (Elt Ideal)
/-- … and a channel vector. -/
abbrev TV : Type := (⟨S64, .f32⟩ : BufTy).Contents (Elt Ideal)

/-- A rank-2 index is determined by its two coordinates' values. -/
theorem eq_ix2_of_val {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index is determined by its coordinate's value. -/
theorem eq_ix1_of_val {n : Nat} (f : (⟨1, ![n]⟩ : Shape).Idx) (a : Fin n) (h0 : (f 0).val = a.val) : f = ix1 a :=
  funext fun d => Fin.ext (by match d with | ⟨0, _⟩ => exact h0)

/-! ## The node layers nf·W + b at (n, c) -/

/-- The source layer e_src = nf·Wsg + bsg at (n, c). -/
theorem v3_ix (x0 : TN) (x4 : TW) (x5 : TV) (n : Fin 50000) (c : Fin 64) :
    val_main_v3 (F := Ideal) x0 x4 x5 (ix2 n c) = projN x0 x4 x5 n c := by
  rw [val_main_v3_apply, val_main_v0_apply, val_main_v2_apply, val_main_v1_apply]
  have hl : ∀ k : Fin 64, lidx_main_v0 (ix2 n c) k = ix2 n k := fun k => eq_ix2_of_val _ _ _ rfl rfl
  have hr : ∀ k : Fin 64, ridx_main_v0 (ix2 n c) k = ix2 k c := fun k => eq_ix2_of_val _ _ _ rfl rfl
  have hb : idx_main_v1 (idx_main_v2 (ix2 n c)) = ix1 c := eq_ix1_of_val _ _ rfl
  simp only [hl, hr, hb]
  rfl

/-- The destination layer e_dst = nf·Wdg + bdg at (n, c). -/
theorem v7_ix (x0 : TN) (x6 : TW) (x7 : TV) (n : Fin 50000) (c : Fin 64) :
    val_main_v7 (F := Ideal) x0 x6 x7 (ix2 n c) = projN x0 x6 x7 n c := by
  rw [val_main_v7_apply, val_main_v4_apply, val_main_v6_apply, val_main_v5_apply]
  have hl : ∀ k : Fin 64, lidx_main_v4 (ix2 n c) k = ix2 n k := fun k => eq_ix2_of_val _ _ _ rfl rfl
  have hr : ∀ k : Fin 64, ridx_main_v4 (ix2 n c) k = ix2 k c := fun k => eq_ix2_of_val _ _ _ rfl rfl
  have hb : idx_main_v5 (idx_main_v6 (ix2 n c)) = ix1 c := eq_ix1_of_val _ _ rfl
  simp only [hl, hr, hb]
  rfl

/-- The edge layer ef·Weg + beg at (e, c). -/
theorem v26_ix (x1 : TE) (x8 : TW) (x9 : TV) (e : Fin 800000) (c : Fin 64) :
    val_main_v26 (F := Ideal) x1 x8 x9 (ix2 e c) = projE x1 x8 x9 e c := by
  rw [val_main_v26_apply, val_main_v23_apply, val_main_v25_apply, val_main_v24_apply]
  have hl : ∀ k : Fin 64, lidx_main_v23 (ix2 e c) k = ix2 e k := fun k => eq_ix2_of_val _ _ _ rfl rfl
  have hr : ∀ k : Fin 64, ridx_main_v23 (ix2 e c) k = ix2 k c := fun k => eq_ix2_of_val _ _ _ rfl rfl
  have hb : idx_main_v24 (idx_main_v25 (ix2 e c)) = ix1 c := eq_ix1_of_val _ _ rfl
  simp only [hl, hr, hb]
  rfl

/-! ## The wrapped index columns at (e, 0) -/

/-- The source index column at (e, 0) is the wrapped source index of edge e. -/
theorem v13_ix (x2 : TI) (e : Fin 800000) :
    val_main_v13 (F := Ideal) x2 (ix2 e (0 : Fin 1)) = wrapNode (x2 (ix1 e)) := by
  rw [val_main_v13_apply, val_main_v12_apply, val_main_v9_apply, val_main_v11_apply, val_main_v8_apply,
    val_main_v10_apply, val_main_c_apply, val_main_c_0_apply]
  have hi : idx_main_v13 (ix2 e (0 : Fin 1)) = ix1 e := eq_ix1_of_val _ _ rfl
  rw [hi]
  rfl

/-- The destination index column at (e, 0) is the wrapped destination index of edge e. -/
theorem v20_ix (x3 : TI) (e : Fin 800000) :
    val_main_v20 (F := Ideal) x3 (ix2 e (0 : Fin 1)) = wrapNode (x3 (ix1 e)) := by
  rw [val_main_v20_apply, val_main_v19_apply, val_main_v16_apply, val_main_v18_apply, val_main_v15_apply,
    val_main_v17_apply, val_main_c_1_apply, val_main_c_2_apply]
  have hi : idx_main_v20 (ix2 e (0 : Fin 1)) = ix1 e := eq_ix1_of_val _ _ rfl
  rw [hi]
  rfl

/-! ## The row gathers -/

/-- The printed gather's dimension numbers are the row gather's. -/
theorem gather_dims_eq :
    gather_S50000x64_S800000x1_S800000x64_1_0_n_n_0_1_164
      = Cert.GatherRows.rowsDims 50000 800000 64 Facts₀.gather_S50000x64_S800000x1_S800000x64_1_0_n_n_0_1_164_wf := rfl

/-- e_src[src] at (e, c): the source layer at the row edge e's source index selects. -/
theorem v14_ix (x0 : TN) (x2 : TI) (x4 : TW) (x5 : TV) (e : Fin 800000) (c : Fin 64) :
    val_main_v14 (F := Ideal) x0 x2 x4 x5 (ix2 e c) = projN x0 x4 x5 (nodeRow (x2 (ix1 e))) c := by
  unfold val_main_v14
  rw [gather_dims_eq, Cert.GatherRows.gather_rows_apply (by decide : 0 < 50000), v3_ix, v13_ix]
  rfl

/-- e_dst[dst] at (e, c): the destination layer at the row edge e's destination index selects. -/
theorem v21_ix (x0 : TN) (x3 : TI) (x6 : TW) (x7 : TV) (e : Fin 800000) (c : Fin 64) :
    val_main_v21 (F := Ideal) x0 x3 x6 x7 (ix2 e c) = projN x0 x6 x7 (nodeRow (x3 (ix1 e))) c := by
  unfold val_main_v21
  rw [gather_dims_eq, Cert.GatherRows.gather_rows_apply (by decide : 0 < 50000), v7_ix, v20_ix]
  rfl

/-! ## The pre-activation -/

/-- THE REFERENCE'S PRE-ACTIVATION AT (e, c) is the specification's, in its first grouping. -/
theorem v27_ix (x0 : TN) (x1 : TE) (x2 x3 : TI) (x4 : TW) (x5 : TV) (x6 : TW) (x7 : TV) (x8 : TW) (x9 : TV)
    (e : Fin 800000) (c : Fin 64) :
    val_main_v27 (F := Ideal) x0 x1 x2 x3 x4 x5 x6 x7 x8 x9 (ix2 e c) = mRef x0 x1 x2 x3 x4 x5 x6 x7 x8 x9 e c := by
  rw [val_main_v27_apply, val_main_v22_apply, v14_ix, v21_ix, v26_ix]
  rfl

/-- The same at a whole index. -/
theorem v27_apply (x0 : TN) (x1 : TE) (x2 x3 : TI) (x4 : TW) (x5 : TV) (x6 : TW) (x7 : TV) (x8 : TW) (x9 : TV)
    (i : S800000x64.Idx) :
    val_main_v27 (F := Ideal) x0 x1 x2 x3 x4 x5 x6 x7 x8 x9 i = mRef x0 x1 x2 x3 x4 x5 x6 x7 x8 x9 (i 0) (i 1) := by
  rw [eq_ix2 i]
  exact v27_ix x0 x1 x2 x3 x4 x5 x6 x7 x8 x9 (i 0) (i 1)

end Cert.RefSide

end
-- ==== Proof.RefX.lean ====
/-
  The reference's node result as one tail applied to the two gated edge tables.

  After the gate sigma = logistic m and the gated messages sigma_h = Bh[src]·sigma are formed on the edges, the node
  result depends on them only through a fixed chain of whole-table operations: the two segment sums over the
  destination index (an accumulating scatter into a zero table), h = ssh / (ss + 1e-6), the update layer
  nf·Wsu + bsu plus h, a batch normalisation over the 50000 rows with its two-pass statistics (the mean, then the
  mean squared deviation, each a seeded column sum over the literal 50000), scale and shift by the channel
  vectors, x·(1 / (1 + exp (−x))), and the residual nf + ·. That chain is named here once, as a function of the two
  edge tables and the arguments it reads; nothing in it is opened. Two programs that apply this same chain to
  equal edge tables have equal node results by congruence.
-/
import proofs.«175570_j5823975653421_2_alg».proof.Proof.RefM

noncomputable section

namespace Cert.RefSide

open Cert.ReferenceIdeal Cert.ReferenceIdeal.Read Cert.ReferenceIdeal.Facts₀ Idealize.ShloMosaic

variable {F : FTy → Type} [FloatOps F]

/-- A node-shaped table at a float instance … -/
abbrev GN (F : FTy → Type) : Type := (⟨S50000x64, .f32⟩ : BufTy).Contents (Elt F)
/-- … an edge-shaped one … -/
abbrev GE (F : FTy → Type) : Type := (⟨S800000x64, .f32⟩ : BufTy).Contents (Elt F)
/-- … an edge vector of 32-bit integers … -/
abbrev GI (F : FTy → Type) : Type := (⟨S800000, .i32⟩ : BufTy).Contents (Elt F)
/-- … a weight matrix … -/
abbrev GW (F : FTy → Type) : Type := (⟨S64x64, .f32⟩ : BufTy).Contents (Elt F)
/-- … a channel vector … -/
abbrev GV (F : FTy → Type) : Type := (⟨S64, .f32⟩ : BufTy).Contents (Elt F)
/-- … and a one-row table. -/
abbrev GR (F : FTy → Type) : Type := (⟨S1x64, .f32⟩ : BufTy).Contents (Elt F)

/-- The node branch after the edge tables: segment sums, h, update layer, normalisation, activation, residual. -/
def Tail (sg sgh : GE F) (x0 : GN F) (x3 : GI F) (x10 : GW F) (x11 x14 x15 : GV F) : GN F :=
  let zeroN : GN F := broadcastInDim S50000x64 ![] bcast_S_S50000x64 (constant (F := F) S_ .f32 0x00000000#32)
  let dstCol : (⟨S800000x1, .i32⟩ : BufTy).Contents (Elt F) := broadcastInDim S800000x1 ![0] bcast_S800000_S800000x1_0 x3
  let ssh : GN F := Host.scatterAdd (F := F) scatter_S50000x64_S800000x1_S800000x64_1_0_0_1 zeroN dstCol sgh
  let ss : GN F := Host.scatterAdd (F := F) scatter_S50000x64_S800000x1_S800000x64_1_0_0_1 zeroN dstCol sg
  let tiny : GN F := broadcastInDim S50000x64 ![] bcast_S_S50000x64 (constant (F := F) S_ .f32 0x358637BD#32)
  let h : GN F := Host.divf (F := F) ssh (addf ss tiny)
  let biasRow : GR F := broadcastInDim S1x64 ![1] bcast_S64_S1x64_1 x11
  let xsu : GN F := addf (Host.dotGeneral (F := F) dot_S50000x64_S64x64_S50000x64_1_0_0_1_n_n none x0 x10)
    (broadcastInDim S50000x64 ![0, 1] bcast_S1x64_S50000x64_0_1 biasRow)
  let xp : GN F := addf xsu h
  let cnt : GV F := broadcastInDim S64 ![] bcast_S_S64 (constant (F := F) S_ .f32 0x47435000#32)
  let mean : GV F := Host.divf (F := F)
    (Host.reduceAdd (F := F) xp (constant (F := F) S_ .f32 0x00000000#32) reducesTo_S50000x64_S64_d0 h_S_) cnt
  let meanN : GN F := broadcastInDim S50000x64 ![0, 1] bcast_S1x64_S50000x64_0_1
    (broadcastInDim S1x64 ![1] bcast_S64_S1x64_1 mean)
  let dev : GN F := subf xp meanN
  let var : GV F := Host.divf (F := F)
    (Host.reduceAdd (F := F) (mulf dev dev) (constant (F := F) S_ .f32 0x00000000#32) reducesTo_S50000x64_S64_d0 h_S_) cnt
  let eps : GV F := broadcastInDim S64 ![] bcast_S_S64 (constant (F := F) S_ .f32 0x3727C5AC#32)
  let rs : GV F := Host.rsqrt (F := F) (addf var eps)
  let rsN : GN F := broadcastInDim S50000x64 ![0, 1] bcast_S1x64_S50000x64_0_1 (broadcastInDim S1x64 ![1] bcast_S64_S1x64_1 rs)
  let gN : GN F := broadcastInDim S50000x64 ![0, 1] bcast_S1x64_S50000x64_0_1 (broadcastInDim S1x64 ![1] bcast_S64_S1x64_1 x14)
  let bN : GN F := broadcastInDim S50000x64 ![0, 1] bcast_S1x64_S50000x64_0_1 (broadcastInDim S1x64 ![1] bcast_S64_S1x64_1 x15)
  let z : GN F := addf (mulf (mulf dev rsN) gN) bN
  let oneN : GN F := broadcastInDim S50000x64 ![] bcast_S_S50000x64 (constant (F := F) S_ .f32 0x3F800000#32)
  let act : GN F := mulf z (Host.divf (F := F) oneN (addf oneN (Host.exp (F := F) (Host.negf (F := F) z))))
  addf x0 act

/-- THE REFERENCE'S NODE RESULT is the tail applied to its gate table and its gated-message table. -/
theorem ref_x (x0 : GN F) (x1 : GE F) (x2 x3 : GI F) (x4 : GW F) (x5 : GV F) (x6 : GW F) (x7 : GV F) (x8 : GW F) (x9 : GV F)
    (x10 : GW F) (x11 : GV F) (x12 : GW F) (x13 : GV F) (x14 x15 : GV F) :
    val_main_v112 (F := F) x0 x1 x2 x3 x4 x5 x6 x7 x8 x9 x10 x11 x12 x13 x14 x15
      = Tail (val_main_v33 (F := F) x0 x1 x2 x3 x4 x5 x6 x7 x8 x9)
          (val_main_v45 (F := F) x0 x1 x2 x3 x4 x5 x6 x7 x8 x9 x12 x13) x0 x3 x10 x11 x14 x15 := rfl

end Cert.RefSide

end
-- ==== Proof.KHostX.lean ====
/-
  The kernel program's two results, over the launch contents and the regions' outputs.

  The node result. Along the program's boundaries: the update layer's table is written by the first host stretch
  and survives the first region (which may change only its five outputs); the second stretch forms, from that
  table, the first region's gate and gated-message tables and three arguments, the normalised node table; the
  third applies x·(1 / (1 + exp (−x))); the fourth adds the node table. The chain so obtained is, operation for
  operation, the node branch the reference applies to ITS two edge tables (the two programs' shape records are
  different constants with the same fields, so the terms are equal by unfolding): the kernel program's node
  result is that one tail applied to the first region's gate table and gated-message table.

  The edge result is the second region's output, re-laid from two edges per row of 128 lanes to one edge per row
  of 64: entry (e, c) is the packed table's entry (e / 2, 64·(e mod 2) + c), the same row-major position.
-/
import proofs.«175570_j5823975653421_2_alg».proof.Proof.KHostStages
import proofs.«175570_j5823975653421_2_alg».proof.Proof.RefX

noncomputable section

namespace Cert.KernelIdeal.HostSide

open Cert.KernelIdeal Cert.KernelIdeal.Gen Idealize.ShloMosaic Idealize.ShloMosaic.StableHlo Idealize.ShloMosaic.TcCoe
  Idealize.ShloMosaic.ValueIdx Idealize.SL.Sem

variable {F : FTy → Type} [FloatOps F]

/-! ## Congruences over plain variables -/

theorem normK_congr {sg sg' sgh sgh' : KE F} {x3 x3' : KI F} {xsu xsu' : KN F} {x14 x14' x15 x15' : KV F}
    (h1 : sg = sg') (h2 : sgh = sgh') (h3 : x3 = x3') (h4 : xsu = xsu') (h5 : x14 = x14') (h6 : x15 = x15') :
    normK sg sgh x3 xsu x14 x15 = normK sg' sgh' x3' xsu' x14' x15' := by
  subst h1 h2 h3 h4 h5 h6; rfl

theorem linK_congr {t t' : KN F} {w w' : KW F} {b b' : KV F} (h1 : t = t') (h2 : w = w') (h3 : b = b') :
    linK t w b = linK t' w' b' := by
  subst h1 h2 h3; rfl

theorem addf_congr {a a' b b' : KN F} (h1 : a = a') (h2 : b = b') : addf a b = addf a' b' := by
  subst h1 h2; rfl

/-- The node branch in the kernel program's vocabulary is the reference's tail. -/
theorem tail_eq (sg sgh : KE F) (x0 : KN F) (x3 : KI F) (x10 : KW F) (x11 x14 x15 : KV F) :
    addf x0 (siluK (normK sg sgh x3 (linK x0 x10 x11) x14 x15))
      = Cert.RefSide.Tail (F := F) sg sgh x0 x3 x10 x11 x14 x15 := rfl

/-! ## The boundaries' contents at the buffers the results read -/

variable (m : (ℓ : Loc nD τ sig) → Buf (Elt F) ℓ) (o : Outs (F := F)) (c : Dev nD)

/-- A buffer that neither the first stretch writes nor the first region may change holds its launch contents
    after the first region. -/
theorem V2_launch (r : Ref sig .tc) (h0 : r ∉ hostOps0_W)
    (h2 : r ∉ ([main_v37_0, main_v37_1, main_v37_2, main_v37_3, main_v37_4] : List (Ref sig .tc))) :
    V2 m o c r = m ((c : Thread nD τ).loc r) :=
  (V2_of m o c r h2).trans (V1_of m c r h0)

/-- … and, if the next two stretches do not write it either, after them. -/
theorem V4_launch (r : Ref sig .tc) (h0 : r ∉ hostOps0_W)
    (h2 : r ∉ ([main_v37_0, main_v37_1, main_v37_2, main_v37_3, main_v37_4] : List (Ref sig .tc)))
    (h1 : r ∉ hostOps1_W) (h11 : r ∉ hostOps1_1_W) : V4 m o c r = m ((c : Thread nD τ).loc r) :=
  (V4_of m o c r h11).trans ((V3_of m o c r h1).trans (V2_launch m o c r h0 h2))

/-- After the first region its gate table is what the region left there. -/
theorem V2_v37_1 : V2 m o c main_v37_1 = o 2 main_v37_1 c :=
  (Function.update_of_ne (devRef_ne_of_ne (by decide : main_v37_1 ≠ main_v37_4)) _ _).trans
    ((Function.update_of_ne (devRef_ne_of_ne (by decide : main_v37_1 ≠ main_v37_3)) _ _).trans
      ((Function.update_of_ne (devRef_ne_of_ne (by decide : main_v37_1 ≠ main_v37_2)) _ _).trans
        (Function.update_self _ _ _)))

/-- After the first region its gated-message table is what the region left there. -/
theorem V2_v37_2 : V2 m o c main_v37_2 = o 2 main_v37_2 c :=
  (Function.update_of_ne (devRef_ne_of_ne (by decide : main_v37_2 ≠ main_v37_4)) _ _).trans
    ((Function.update_of_ne (devRef_ne_of_ne (by decide : main_v37_2 ≠ main_v37_3)) _ _).trans
      (Function.update_self _ _ _))

/-! ## The node result -/

/-- THE KERNEL PROGRAM'S NODE RESULT is the reference's tail applied to the first region's gate table and
    gated-message table and to the launch contents of the node table, the destination indices, the update layer
    and the node normalisation's scale and shift. -/
theorem x_eq :
    V7 m o c main_v82
      = Cert.RefSide.Tail (F := F) (o 2 main_v37_1 c) (o 2 main_v37_2 c)
          (m ((c : Thread nD τ).loc main_arg0)) (m ((c : Thread nD τ).loc main_arg3))
          (m ((c : Thread nD τ).loc main_arg10)) (m ((c : Thread nD τ).loc main_arg11))
          (m ((c : Thread nD τ).loc main_arg14)) (m ((c : Thread nD τ).loc main_arg15)) := by
  have hxsu : V2 m o c main_v15
      = linK (m ((c : Thread nD τ).loc main_arg0)) (m ((c : Thread nD τ).loc main_arg10))
          (m ((c : Thread nD τ).loc main_arg11)) :=
    (V2_of m o c main_v15 (by decide)).trans (s0_v15 (V0 m c))
  have h80 := (s1_v80 (V2 m o c)).trans
    (normK_congr (V2_v37_1 m o c) (V2_v37_2 m o c) (V2_launch m o c main_arg3 (by decide) (by decide)) hxsu
      (V2_launch m o c main_arg14 (by decide) (by decide)) (V2_launch m o c main_arg15 (by decide) (by decide)))
  have h81 := (s11_v81 (V3 m o c)).trans (congrArg siluK h80)
  have h82 := (s12_v82 (V4 m o c)).trans
    (addf_congr (V4_launch m o c main_arg0 (by decide) (by decide) (by decide) (by decide)) h81)
  exact (V7_of m o c main_v82 (by decide)).trans ((V6_of m o c main_v82 (by decide)).trans
    (h82.trans (tail_eq _ _ _ _ _ _ _ _)))

/-! ## The edge result -/

/-- The unpacking read at (e, c): the packed table at row e / 2, lane 64·(e mod 2) + c. -/
theorem unpackK_apply (x : KP F) (e : Fin 800000) (k : Fin 64) :
    unpackK x (ix2 e k)
      = x (ix2 (⟨e.val / 2, by omega⟩ : Fin 400000) (⟨64 * (e.val % 2) + k.val, by omega⟩ : Fin 128)) := by
  unfold unpackK
  refine shapeCast_apply x _ _ _ ?_
  rw [Shape.rowMajor_val_two, Shape.rowMajor_val_two]
  show e.val / 2 * 128 + (64 * (e.val % 2) + k.val) = e.val * 64 + k.val
  omega

/-- THE KERNEL PROGRAM'S EDGE RESULT is the second region's output, unpacked. -/
theorem y_eq : V7 m o c main_v90 = unpackK (o 6 main_v89 c) :=
  (s2_v90 (V6 m o c)).trans (congrArg unpackK (Function.update_self _ _ _))

/-- … and at (e, c) it is that output's entry (e / 2, 64·(e mod 2) + c). -/
theorem y_ix (e : Fin 800000) (k : Fin 64) :
    V7 m o c main_v90 (ix2 e k)
      = o 6 main_v89 c (ix2 (⟨e.val / 2, by omega⟩ : Fin 400000) (⟨64 * (e.val % 2) + k.val, by omega⟩ : Fin 128)) :=
  (congrFun (y_eq m o c) (ix2 e k)).trans (unpackK_apply _ e k)

end Cert.KernelIdeal.HostSide

end
-- ==== Proof.RefTables.lean ====
/-
  The reference's two gated edge tables, read at an index.

  The gate is sigma = 1 / (1 + exp (−m)), the logistic function written out with both ones the float literal 1.0,
  so at (e, c) it is the logistic function of the pre-activation there. The gated message is Bh[src]·sigma, where
  Bh = nf·Wdu + bdu is read at the row the edge's wrapped source index selects — the same wrap, reshape to a column
  and row gather as for the source layer of the pre-activation.
-/
import Idealize.ShloMosaic.Lib.IdealHost
import proofs.«175570_j5823975653421_2_alg».proof.Proof.RefM

noncomputable section

open scoped BigOperators

namespace Cert.RefSide

open Cert.ReferenceIdeal Cert.ReferenceIdeal.Read Idealize.ShloMosaic Idealize.ShloMosaic.ValueIdx Cert.Spec

variable (x0 : TN) (x1 : TE) (x2 x3 : TI) (x4 : TW) (x5 : TV) (x6 : TW) (x7 : TV) (x8 : TW) (x9 : TV) (x12 : TW) (x13 : TV)

/-- THE GATE AT (e, c): the logistic function of the pre-activation. -/
theorem v33_ix (e : Fin 800000) (c : Fin 64) :
    val_main_v33 (F := Ideal) x0 x1 x2 x3 x4 x5 x6 x7 x8 x9 (ix2 e c)
      = sigma (mRef x0 x1 x2 x3 x4 x5 x6 x7 x8 x9) e c := by
  rw [val_main_v33_apply, val_main_v32_apply, val_main_cst_3_apply, val_main_v31_apply, val_main_v30_apply,
    val_main_cst_apply, val_main_v29_apply, val_main_v28_apply, v27_ix]
  simp only [Ideal.ofBits_def, Ideal.ofBits_one_f32]
  rfl

/-- The message layer Bh = nf·Wdu + bdu at (n, c). -/
theorem v37_ix (n : Fin 50000) (c : Fin 64) :
    val_main_v37 (F := Ideal) x0 x12 x13 (ix2 n c) = projN x0 x12 x13 n c := by
  rw [val_main_v37_apply, val_main_v34_apply, val_main_v36_apply, val_main_v35_apply]
  have hl : ∀ k : Fin 64, lidx_main_v34 (ix2 n c) k = ix2 n k := fun k => eq_ix2_of_val _ _ _ rfl rfl
  have hr : ∀ k : Fin 64, ridx_main_v34 (ix2 n c) k = ix2 k c := fun k => eq_ix2_of_val _ _ _ rfl rfl
  have hb : idx_main_v35 (idx_main_v36 (ix2 n c)) = ix1 c := eq_ix1_of_val _ _ rfl
  simp only [hl, hr, hb]
  rfl

/-- The source index column of the message gather at (e, 0) is the wrapped source index of edge e. -/
theorem v43_ix (e : Fin 800000) :
    val_main_v43 (F := Ideal) x2 (ix2 e (0 : Fin 1)) = wrapNode (x2 (ix1 e)) := by
  rw [val_main_v43_apply, val_main_v42_apply, val_main_v39_apply, val_main_v41_apply, val_main_v38_apply,
    val_main_v40_apply, val_main_c_4_apply, val_main_c_5_apply]
  have hi : idx_main_v43 (ix2 e (0 : Fin 1)) = ix1 e := eq_ix1_of_val _ _ rfl
  rw [hi]
  rfl

/-- Bh[src] at (e, c): the message layer at the row edge e's source index selects. -/
theorem v44_ix (e : Fin 800000) (c : Fin 64) :
    val_main_v44 (F := Ideal) x0 x2 x12 x13 (ix2 e c) = projN x0 x12 x13 (nodeRow (x2 (ix1 e))) c := by
  unfold val_main_v44
  rw [gather_dims_eq, Cert.GatherRows.gather_rows_apply (by decide : 0 < 50000), v37_ix, v43_ix]
  rfl

/-- THE GATED MESSAGE AT (e, c): the message layer's entry at the source row times the gate. -/
theorem v45_ix (e : Fin 800000) (c : Fin 64) :
    val_main_v45 (F := Ideal) x0 x1 x2 x3 x4 x5 x6 x7 x8 x9 x12 x13 (ix2 e c)
      = projN x0 x12 x13 (nodeRow (x2 (ix1 e))) c * sigma (mRef x0 x1 x2 x3 x4 x5 x6 x7 x8 x9) e c := by
  rw [val_main_v45_apply, v44_ix, v33_ix]
  rfl

end Cert.RefSide

end
-- ==== Proof.KHostY.lean ====
/-
  The arrays the two kernel regions read, over the launch contents and the first region's outputs.

  The second region reads six arrays the fourth host stretch writes: the pre-activation and the edge table, each
  re-laid from one edge per row of 64 to two edges per row of 128 (entry (R, l) is the entry (2R + l / 64, l mod 64),
  the same row-major position); the mean row and the variance row of the pre-activation, each concatenated with
  itself along the lanes (lane l holds channel l mod 64) — the mean being the first region's column totals over
  800000, the variance max (its column totals of squares over 800000 − mean·mean) 0 —; and the edge normalisation's
  scale and shift vectors, each concatenated with itself.

  The first region reads three arrays the first host stretch writes: the source, destination and message layers of
  the node table, each gathered at the wrapped source or destination index of every edge. These are the same
  operations as the reference's (the two programs' shape records are different constants with the same fields), so
  at (e, c) each is the specification's linear layer at the row the edge's index selects.
-/
import proofs.«175570_j5823975653421_2_alg».proof.Proof.KHostX
import proofs.«175570_j5823975653421_2_alg».proof.Proof.RefTables

noncomputable section

namespace Cert.KernelIdeal.HostSide

open Cert.KernelIdeal Cert.KernelIdeal.Gen Idealize.ShloMosaic Idealize.ShloMosaic.StableHlo Idealize.ShloMosaic.TcCoe
  Idealize.ShloMosaic.ValueIdx Idealize.SL.Sem

variable {F : FTy → Type} [FloatOps F]

/-! ## Layouts read at an index -/

/-- The packing read at (R, l): the table at row 2R + l / 64, column l mod 64. -/
theorem packK_apply (x : KE F) (R : Fin 400000) (l : Fin 128) :
    packK x (ix2 R l)
      = x (ix2 (⟨2 * R.val + l.val / 64, by omega⟩ : Fin 800000) (⟨l.val % 64, by omega⟩ : Fin 64)) := by
  unfold packK
  refine shapeCast_apply x _ _ _ ?_
  rw [Shape.rowMajor_val_two, Shape.rowMajor_val_two]
  show (2 * R.val + l.val / 64) * 64 + l.val % 64 = R.val * 128 + l.val
  omega

/-- A row concatenated with itself read at lane l: the row at channel l mod 64. -/
theorem dblRowK_apply (r : KR F) (u : Fin 1) (l : Fin 128) :
    dblRowK r (ix2 u l) = r (ix2 u (⟨l.val % 64, by omega⟩ : Fin 64)) := by
  unfold dblRowK
  by_cases hl : l.val < 64
  · refine (concatenate_pair_apply_left (1 : Fin 2) r r _ (ix2 u l) rfl (ix2 u (⟨l.val, hl⟩ : Fin 64)) ?_).trans ?_
    · intro b; match b with | ⟨0, _⟩ => rfl | ⟨1, _⟩ => rfl
    · exact congrArg r (congrArg (ix2 u) (Fin.ext (by show l.val = l.val % 64; omega)))
  · refine (concatenate_pair_apply_right (1 : Fin 2) r r _ (ix2 u l) rfl rfl (ix2 u (⟨l.val - 64, by omega⟩ : Fin 64))
      ?_ ?_).trans ?_
    · intro b hb; match b with | ⟨0, _⟩ => rfl | ⟨1, _⟩ => exact absurd rfl hb
    · show l.val - 64 + 64 = l.val; omega
    · exact congrArg r (congrArg (ix2 u) (Fin.ext (by show l.val - 64 = l.val % 64; omega)))

/-- A channel vector concatenated with itself read at lane l: the vector at channel l mod 64. -/
theorem dblVecK_apply (v : KV F) (l : Fin 128) :
    dblVecK v (ix1 l) = v (ix1 (⟨l.val % 64, by omega⟩ : Fin 64)) := by
  unfold dblVecK
  by_cases hl : l.val < 64
  · refine (concatenate_pair_apply_left (0 : Fin 1) v v _ (ix1 l) rfl (ix1 (⟨l.val, hl⟩ : Fin 64)) ?_).trans ?_
    · intro b; match b with | ⟨0, _⟩ => rfl
    · exact congrArg v (congrArg ix1 (Fin.ext (by show l.val = l.val % 64; omega)))
  · refine (concatenate_pair_apply_right (0 : Fin 1) v v _ (ix1 l) rfl rfl (ix1 (⟨l.val - 64, by omega⟩ : Fin 64))
      ?_ ?_).trans ?_
    · intro b hb; match b with | ⟨0, _⟩ => exact absurd rfl hb
    · show l.val - 64 + 64 = l.val; omega
    · exact congrArg v (congrArg ix1 (Fin.ext (by show l.val - 64 = l.val % 64; omega)))

/-- The mean row at channel k, on the extended reals: the total over the literal 800000. -/
theorem meanK_apply (tot : KR Ideal) (u : Fin 1) (k : Fin 64) :
    meanK tot (ix2 u k) = Ideal.div (tot (ix2 u k)) (Ideal.ofBits .f32 0x49435000#32) := rfl

/-- The variance row at channel k, on the extended reals. -/
theorem varK_apply (tot sq : KR Ideal) (u : Fin 1) (k : Fin 64) :
    varK tot sq (ix2 u k)
      = max (Ideal.div (sq (ix2 u k)) (Ideal.ofBits .f32 0x49435000#32)
              - Ideal.div (tot (ix2 u k)) (Ideal.ofBits .f32 0x49435000#32)
                * Ideal.div (tot (ix2 u k)) (Ideal.ofBits .f32 0x49435000#32))
          (Ideal.ofBits .f32 0x00000000#32) := rfl

/-! ## From an edge's packed position back to the edge -/

/-- Entry (e, k) of an edge table is its packing's entry at row e / 2, lane 64·(e mod 2) + k. -/
theorem packK_at (x : KE F) (e : Fin 800000) (k : Fin 64) :
    packK x (ix2 (⟨e.val / 2, by omega⟩ : Fin 400000) (⟨64 * (e.val % 2) + k.val, by omega⟩ : Fin 128))
      = x (ix2 e k) := by
  refine (packK_apply x _ _).trans (congrArg x (funext fun d => Fin.ext ?_))
  match d with
  | ⟨0, _⟩ => show 2 * (e.val / 2) + (64 * (e.val % 2) + k.val) / 64 = e.val; omega
  | ⟨1, _⟩ => show (64 * (e.val % 2) + k.val) % 64 = k.val; omega

/-- A doubled row at lane 64·(e mod 2) + k is the row at channel k. -/
theorem dblRowK_at (r : KR F) (u : Fin 1) (e : Fin 800000) (k : Fin 64) :
    dblRowK r (ix2 u (⟨64 * (e.val % 2) + k.val, by omega⟩ : Fin 128)) = r (ix2 u k) := by
  refine (dblRowK_apply r u _).trans (congrArg r (congrArg (ix2 u) (Fin.ext ?_)))
  show (64 * (e.val % 2) + k.val) % 64 = k.val
  omega

/-- A doubled channel vector at lane 64·(e mod 2) + k is the vector at channel k. -/
theorem dblVecK_at (v : KV F) (e : Fin 800000) (k : Fin 64) :
    dblVecK v (ix1 (⟨64 * (e.val % 2) + k.val, by omega⟩ : Fin 128)) = v (ix1 k) := by
  refine (dblVecK_apply v _).trans (congrArg v (congrArg ix1 (Fin.ext ?_)))
  show (64 * (e.val % 2) + k.val) % 64 = k.val
  omega

/-! ## The first region's outputs at the later boundaries -/

variable (m : (ℓ : Loc nD τ sig) → Buf (Elt F) ℓ) (o : Outs (F := F)) (c : Dev nD)

theorem V2_v37_0 : V2 m o c main_v37_0 = o 2 main_v37_0 c :=
  (Function.update_of_ne (devRef_ne_of_ne (by decide : main_v37_0 ≠ main_v37_4)) _ _).trans
    ((Function.update_of_ne (devRef_ne_of_ne (by decide : main_v37_0 ≠ main_v37_3)) _ _).trans
      ((Function.update_of_ne (devRef_ne_of_ne (by decide : main_v37_0 ≠ main_v37_2)) _ _).trans
        ((Function.update_of_ne (devRef_ne_of_ne (by decide : main_v37_0 ≠ main_v37_1)) _ _).trans
          (Function.update_self _ _ _))))

theorem V2_v37_3 : V2 m o c main_v37_3 = o 2 main_v37_3 c :=
  (Function.update_of_ne (devRef_ne_of_ne (by decide : main_v37_3 ≠ main_v37_4)) _ _).trans
    (Function.update_self _ _ _)

theorem V2_v37_4 : V2 m o c main_v37_4 = o 2 main_v37_4 c := Function.update_self _ _ _

/-- The pre-activation the first region left is still there when the fourth stretch starts. -/
theorem V4_v37_0 : V4 m o c main_v37_0 = o 2 main_v37_0 c :=
  (V4_of m o c main_v37_0 (by decide)).trans ((V3_of m o c main_v37_0 (by decide)).trans (V2_v37_0 m o c))

/-- The mean row when the fourth stretch starts. -/
theorem V4_v39 : V4 m o c main_v39 = meanK (o 2 main_v37_3 c) :=
  (V4_of m o c main_v39 (by decide)).trans ((s1_v39 (V2 m o c)).trans (congrArg meanK (V2_v37_3 m o c)))

theorem varK_congr {a a' b b' : KR F} (h1 : a = a') (h2 : b = b') : varK a b = varK a' b' := by
  subst h1 h2; rfl

/-- The variance row when the fourth stretch starts. -/
theorem V4_v45 : V4 m o c main_v45 = varK (o 2 main_v37_3 c) (o 2 main_v37_4 c) :=
  (V4_of m o c main_v45 (by decide)).trans
    ((s1_v45 (V2 m o c)).trans (varK_congr (V2_v37_3 m o c) (V2_v37_4 m o c)))

/-! ## The six arrays the second region reads -/

/-- The packed pre-activation. -/
theorem v83_eq : V5 m o c main_v83 = packK (o 2 main_v37_0 c) :=
  (s12_v83 (V4 m o c)).trans (congrArg packK (V4_v37_0 m o c))

/-- The packed edge table. -/
theorem v84_eq : V5 m o c main_v84 = packK (m ((c : Thread nD τ).loc main_arg1)) :=
  (s12_v84 (V4 m o c)).trans
    (congrArg packK (V4_launch m o c main_arg1 (by decide) (by decide) (by decide) (by decide)))

/-- The doubled mean row. -/
theorem v85_eq : V5 m o c main_v85 = dblRowK (meanK (o 2 main_v37_3 c)) :=
  (s12_v85 (V4 m o c)).trans (congrArg dblRowK (V4_v39 m o c))

/-- The doubled variance row. -/
theorem v86_eq : V5 m o c main_v86 = dblRowK (varK (o 2 main_v37_3 c) (o 2 main_v37_4 c)) :=
  (s12_v86 (V4 m o c)).trans (congrArg dblRowK (V4_v45 m o c))

/-- The doubled scale vector. -/
theorem v87_eq : V5 m o c main_v87 = dblVecK (m ((c : Thread nD τ).loc main_arg16)) :=
  (s12_v87 (V4 m o c)).trans
    (congrArg dblVecK (V4_launch m o c main_arg16 (by decide) (by decide) (by decide) (by decide)))

/-- The doubled shift vector. -/
theorem v88_eq : V5 m o c main_v88 = dblVecK (m ((c : Thread nD τ).loc main_arg17)) :=
  (s12_v88 (V4 m o c)).trans
    (congrArg dblVecK (V4_launch m o c main_arg17 (by decide) (by decide) (by decide) (by decide)))

/-! ## The three gathered tables the first region reads -/

/-- The gathered source layer. -/
theorem v22_eq (m : (ℓ : Loc nD τ sig) → Buf (Elt F) ℓ) (c : Dev nD) :
    V1 m c main_v22
      = gathK (m ((c : Thread nD τ).loc main_arg0)) (m ((c : Thread nD τ).loc main_arg4))
          (m ((c : Thread nD τ).loc main_arg5)) (m ((c : Thread nD τ).loc main_arg2)) := s0_v22 (V0 m c)

/-- The gathered destination layer. -/
theorem v29_eq (m : (ℓ : Loc nD τ sig) → Buf (Elt F) ℓ) (c : Dev nD) :
    V1 m c main_v29
      = gathK (m ((c : Thread nD τ).loc main_arg0)) (m ((c : Thread nD τ).loc main_arg6))
          (m ((c : Thread nD τ).loc main_arg7)) (m ((c : Thread nD τ).loc main_arg3)) := s0_v29 (V0 m c)

/-- The gathered message layer. -/
theorem v36_eq (m : (ℓ : Loc nD τ sig) → Buf (Elt F) ℓ) (c : Dev nD) :
    V1 m c main_v36
      = gathK (m ((c : Thread nD τ).loc main_arg0)) (m ((c : Thread nD τ).loc main_arg12))
          (m ((c : Thread nD τ).loc main_arg13)) (m ((c : Thread nD τ).loc main_arg2)) := s0_v36 (V0 m c)

/-- A gathered linear layer at (e, c), on the extended reals: the specification's linear layer at the row the
    edge's index selects (the kernel program's gather of a linear layer is the reference's, term for term). -/
theorem gathK_ix (t : KN Ideal) (w : KW Ideal) (b : KV Ideal) (i : KI Ideal) (e : Fin 800000) (k : Fin 64) :
    gathK t w b i (ix2 e k) = Cert.Spec.projN t w b (Cert.Spec.nodeRow (i (ix1 e))) k :=
  (congrFun (rfl : gathK t w b i = Cert.ReferenceIdeal.Read.val_main_v14 (F := Ideal) t i w b) (ix2 e k)).trans
    (Cert.RefSide.v14_ix t i w b e k)

end Cert.KernelIdeal.HostSide

end
-- ==== Proof.BridgeM.lean ====
/- The kernel's pre-activation table is the specification's.

   The first region is entered from the launch contents after the first host stretch. That stretch writes neither
   the edge table nor the edge layer's weights and bias, so the region finds them as launched; and it writes the two
   gathered tables the region adds in: the source layer and the destination layer of the node table, each read at
   the row the edge's wrapped source or destination index selects. So entry (e, k) of the region's pre-activation,
       ((Σ_j ef(e,j)·Weg(j,k) + beg(k)) + gathered source layer (e,k)) + gathered destination layer (e,k),
   is the specification's pre-activation in its (edge term + source term) + destination term grouping. -/
import proofs.«175570_j5823975653421_2_alg».proof.Proof.KernelFold
import proofs.«175570_j5823975653421_2_alg».proof.Proof.EdgePassFinal
import proofs.«175570_j5823975653421_2_alg».proof.Proof.KHostY
import proofs.«175570_j5823975653421_2_alg».proof.Proof.Spec

set_option maxRecDepth 16384

noncomputable section

namespace Cert.Bridge

open Cert.KernelIdeal Cert.KernelIdeal.Gen Cert.KernelIdeal.Whole Cert.KernelIdeal.HostSide
open Idealize.ShloMosaic Idealize.ShloMosaic.TcCoe Idealize.ShloMosaic.ValueIdx
open scoped BigOperators

variable (m : (ℓ : Loc nD τ sig) → Buf (Elt Ideal) ℓ) (c : Dev nD)

/-- The first host stretch writes none of the edge table, the edge layer's weights, the edge layer's bias. -/
theorem entry_arg1 : V1 m c main_arg1 = m ((c : Thread nD τ).loc main_arg1) := V1_of m c main_arg1 (by decide)
theorem entry_arg8 : V1 m c main_arg8 = m ((c : Thread nD τ).loc main_arg8) := V1_of m c main_arg8 (by decide)
theorem entry_arg9 : V1 m c main_arg9 = m ((c : Thread nD τ).loc main_arg9) := V1_of m c main_arg9 (by decide)

/-- THE PRE-ACTIVATION the first region computes, at (e, k), is the specification's, grouped
    (edge term + source term) + destination term. -/
theorem mOf_eq_mKer (e : Fin 800000) (k : Fin 64) :
    R0F.mOf (entry0 m) c (ix2 e k) = Cert.Spec.mKer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e k := by
  show R0F.mWhole (V1 m c main_arg1) (V1 m c main_v22) (V1 m c main_v29) (V1 m c main_arg8) (V1 m c main_arg9) (ix2 e k) = _
  rw [entry_arg1, entry_arg8, entry_arg9, v22_eq, v29_eq, R0F.mWhole_ix2, gathK_ix, gathK_ix]
  rfl

end Cert.Bridge

end
-- ==== Proof.Region1Value.lean ====
/- One entry of the edge normalisation's output block, on the extended reals.

   The body's arithmetic is entry-wise except for how the four per-lane rows reach an entry: the [1,128] means
   and variances are spread over the 8000 rows of the block, and the [128] scale and shift are first seen as
   [1,128] rows and then spread the same way. So entry (r, l) of the output block depends on entry (r, l) of the
   two [8000,128] input blocks and on lane l of the four rows, and on nothing else:
       out(r,l) = ef(r,l) + z · logistic z,
       z = ((x(r,l) − mean(0,l)) · rsqrt (var(0,l) + ε)) · scale(l) + shift(l),
   with ε the literal word 0x3727C5AC, never evaluated. -/
import proofs.«175570_j5823975653421_2_alg».proof.Proof.Region1
import Idealize.ShloMosaic.Lib.ValueIdx
import Idealize.ShloMosaic.Lib.ValueLayout
import Idealize.ShloMosaic.Lib.Pipeline.Value

set_option maxRecDepth 16384

noncomputable section

namespace Cert.KernelIdeal.R1

open Cert.KernelIdeal.Gen
open Idealize.ShloMosaic Idealize.ShloMosaic.ValueIdx

/-- The offsets of a whole-block access, as the constant zero function (rank 2 and rank 1). -/
theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

/-- A block cast to its own shape is the block. -/
theorem tile_cast (v : Vec Ideal S8000x128 .f32) (j : S8000x128.Idx) :
    shapeCast S8000x128 v shapeCasts_S8000x128_S8000x128 j = v j :=
  congrFun (shapeCast_self v shapeCasts_S8000x128_S8000x128) j

/-- A [1,128] row spread over 8000 rows reads, at (r, l), the row at lane l. -/
theorem spread_row (v : Vec Ideal S1x128 .f32) (r : Fin 8000) (l : Fin 128) :
    broadcastTo S8000x128 (shapeCast S1x128 v shapeCasts_S1x128_S1x128) broadcasts_S1x128_S8000x128 (ix2 r l)
      = v (ix2 (0 : Fin 1) l) :=
  (broadcastTo_1b_ab_apply _ broadcasts_S1x128_S8000x128 r l).trans
    (congrFun (shapeCast_self v shapeCasts_S1x128_S1x128) _)

/-- A [128] row seen as a [1,128] row and spread over 8000 rows reads, at (r, l), the row at lane l. -/
theorem spread_lane (v : Vec Ideal S128 .f32) (r : Fin 8000) (l : Fin 128) :
    broadcastTo S8000x128 (shapeCast S1x128 (shapeCast S128 v shapeCasts_S128_S128) shapeCasts_S128_S1x128)
        broadcasts_S1x128_S8000x128 (ix2 r l)
      = v (ix1 l) :=
  (broadcastTo_1b_ab_apply _ broadcasts_S1x128_S8000x128 r l).trans
    ((shapeCast_a_1a_apply _ shapeCasts_S128_S1x128 (0 : Fin 1) l).trans
      (congrFun (shapeCast_self v shapeCasts_S128_S128) _))

/-- The reciprocal square root of a [1,128] row plus a constant word, spread over 8000 rows, reads at (r, l)
    the reciprocal square root of the row's lane l plus the word's value. -/
theorem spread_rsqrt (v : Vec Ideal S1x128 .f32) (w : BitVec 32) (r : Fin 8000) (l : Fin 128) :
    broadcastTo S8000x128
        (rsqrt (addf (shapeCast S1x128 v shapeCasts_S1x128_S1x128) (broadcast S1x128 (FloatOps.ofBits (F := Ideal) .f32 w))))
        broadcasts_S1x128_S8000x128 (ix2 r l)
      = Ideal.rsqrt (v (ix2 (0 : Fin 1) l) + Ideal.ofBits .f32 w) :=
  (broadcastTo_1b_ab_apply _ broadcasts_S1x128_S8000x128 r l).trans
    (congrArg (fun u => Ideal.rsqrt (u + Ideal.ofBits .f32 w))
      (congrFun (shapeCast_self v shapeCasts_S1x128_S1x128) (ix2 (0 : Fin 1) l)))

/-- Entry (r, l) of the output block: the edge feature plus `z · logistic z`, `z` the pre-activation centred by
    the lane's mean, scaled by the reciprocal square root of the lane's variance plus ε, then by the lane's scale,
    and shifted by the lane's shift. -/
theorem normOut_apply (x ef : Vec Ideal S8000x128 .f32) (mean var : Vec Ideal S1x128 .f32) (g b : Vec Ideal S128 .f32)
    (r : Fin 8000) (l : Fin 128) :
    normOut (F := Ideal) x ef mean var g b (ix2 r l)
      = ef (ix2 r l) + (((x (ix2 r l) - mean (ix2 (0 : Fin 1) l)) * Ideal.rsqrt (var (ix2 (0 : Fin 1) l) + Ideal.ofBits .f32 0x3727C5AC#32)) * g (ix1 l) + b (ix1 l))
          * Ideal.logistic (((x (ix2 r l) - mean (ix2 (0 : Fin 1) l)) * Ideal.rsqrt (var (ix2 (0 : Fin 1) l) + Ideal.ofBits .f32 0x3727C5AC#32)) * g (ix1 l) + b (ix1 l)) := by
  unfold normOut
  rw [View.canon_unit_zero zeros2]
  simp only [View.ld_unit_zero (S := S8000x128) zeros2, View.ld_unit_zero (S := S1x128) zeros2,
    View.ld_unit_zero (S := S128) zeros1]
  unfold k1_pay1
  simp only [addf, mulf, subf, logistic, Ideal.addf_def, Ideal.subf_def, Ideal.mulf_def, Ideal.logistic_def]
  rw [tile_cast, tile_cast, spread_row, spread_rsqrt, spread_lane, spread_lane]

end Cert.KernelIdeal.R1

end
-- ==== Proof.Region1Blocks.lean ====
/- The edge normalisation region's blocks, read at an index.

   The region walks 50 grid points. Three of its windows — the pre-activations and the edge features it reads and
   the result it writes, each a [400000,128] array holding two edges per row — hand point `t` the 8000 rows
   `8000·t … 8000·t + 7999` of their array: entry (r, l) of the block is entry (8000·t + r, l) of the array
   (a block's coordinate on an axis is always block index × block size + the coordinate inside the block, and
   here the block index is (t, 0)). The other four windows — the [1,128] means and variances, the [128] scale and
   shift — hand every point the whole array, block index 0 on every axis.
   All of it holds for any float instance. -/
import proofs.«175570_j5823975653421_2_alg».proof.Proof.Gen.KernelIdeal.Launch
import Idealize.ShloMosaic.Lib.ValueIdx
import Idealize.ShloMosaic.Lib.Pipeline.Value

set_option maxRecDepth 16384

noncomputable section

namespace Cert.KernelIdeal.R1B

open Cert.KernelIdeal.Gen
open Idealize.ShloMosaic Idealize.ShloMosaic.ValueIdx

variable {F : FTy → Type} [FloatOps F]

/-- Row `8000·t + r` is a row of the [400000,128] array when `t` is one of the 50 points and `r < 8000`. -/
theorem row_lt (t : Fin cfg1.N) (r : Fin 8000) : 8000 * t.val + r.val < 400000 := by
  have ht : t.val < 50 := lt_of_lt_of_eq t.isLt N_1
  have hr := r.isLt
  omega

/-! ## The three tile windows -/

/-- Window 0's block index at point `t` is (t, 0), -/
theorem tile_index0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- so entry (r, l) of its block at point `t` sits in the array at (8000·t + r, l), -/
theorem tile_emb0 (t : Fin cfg1.N) (r : Fin 8000) (l : Fin 128) :
    ((cfg1.win 0).blk t).view.emb (ix2 r l)
      = (ix2 (⟨8000 * t.val + r.val, row_lt t r⟩ : Fin 400000) l : S400000x128.Idx) := by
  obtain ⟨e0, e1⟩ := tile_index0 t
  refine funext fun a => Fin.ext ?_
  match a with
  | ⟨0, _⟩ => show win1_0.index t (0 : Fin 2) * 8000 + 1 * r.val = 8000 * t.val + r.val; omega
  | ⟨1, _⟩ => show win1_0.index t (1 : Fin 2) * 128 + 1 * l.val = l.val; omega

/-- and the block reads, at (r, l), the array there. -/
theorem tile_block0_apply (A : Vec F S400000x128 .f32) (t : Fin cfg1.N) (r : Fin 8000) (l : Fin 128) :
    ((cfg1.win 0).blk t).view.read (Elt F) A (ix2 r l) = A (ix2 ⟨8000 * t.val + r.val, row_lt t r⟩ l) :=
  congrArg A (tile_emb0 t r l)

/-- Window 1's block index at point `t` is (t, 0), -/
theorem tile_index1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- so entry (r, l) of its block at point `t` sits in the array at (8000·t + r, l), -/
theorem tile_emb1 (t : Fin cfg1.N) (r : Fin 8000) (l : Fin 128) :
    ((cfg1.win 1).blk t).view.emb (ix2 r l)
      = (ix2 (⟨8000 * t.val + r.val, row_lt t r⟩ : Fin 400000) l : S400000x128.Idx) := by
  obtain ⟨e0, e1⟩ := tile_index1 t
  refine funext fun a => Fin.ext ?_
  match a with
  | ⟨0, _⟩ => show win1_1.index t (0 : Fin 2) * 8000 + 1 * r.val = 8000 * t.val + r.val; omega
  | ⟨1, _⟩ => show win1_1.index t (1 : Fin 2) * 128 + 1 * l.val = l.val; omega

/-- and the block reads, at (r, l), the array there. -/
theorem tile_block1_apply (A : Vec F S400000x128 .f32) (t : Fin cfg1.N) (r : Fin 8000) (l : Fin 128) :
    ((cfg1.win 1).blk t).view.read (Elt F) A (ix2 r l) = A (ix2 ⟨8000 * t.val + r.val, row_lt t r⟩ l) :=
  congrArg A (tile_emb1 t r l)

/-- Window 6's block index at point `t` is (t, 0), -/
theorem tile_index6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)

/-- so entry (r, l) of its block at point `t` sits in the array at (8000·t + r, l), -/
theorem tile_emb6 (t : Fin cfg1.N) (r : Fin 8000) (l : Fin 128) :
    ((cfg1.win 6).blk t).view.emb (ix2 r l)
      = (ix2 (⟨8000 * t.val + r.val, row_lt t r⟩ : Fin 400000) l : S400000x128.Idx) := by
  obtain ⟨e0, e1⟩ := tile_index6 t
  refine funext fun a => Fin.ext ?_
  match a with
  | ⟨0, _⟩ => show win1_6.index t (0 : Fin 2) * 8000 + 1 * r.val = 8000 * t.val + r.val; omega
  | ⟨1, _⟩ => show win1_6.index t (1 : Fin 2) * 128 + 1 * l.val = l.val; omega

/-- and the block reads, at (r, l), the array there. -/
theorem tile_block6_apply (A : Vec F S400000x128 .f32) (t : Fin cfg1.N) (r : Fin 8000) (l : Fin 128) :
    ((cfg1.win 6).blk t).view.read (Elt F) A (ix2 r l) = A (ix2 ⟨8000 * t.val + r.val, row_lt t r⟩ l) :=
  congrArg A (tile_emb6 t r l)

/-! ## The four whole-array windows -/

/-- Window 2 (the channel means, doubled) hands every point the whole row. -/
theorem whole_index2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem whole_block2 (A : Vec F S1x128 .f32) (t : Fin cfg1.N) :
    ((cfg1.win 2).blk t).view.read (Elt F) A = A := by
  obtain ⟨e0, e1⟩ := whole_index2 t
  funext j
  show A (((cfg1.win 2).blk t).view.emb j) = A j
  refine congrArg A (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- Window 3 (the channel variances, doubled) hands every point the whole row. -/
theorem whole_index3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem whole_block3 (A : Vec F S1x128 .f32) (t : Fin cfg1.N) :
    ((cfg1.win 3).blk t).view.read (Elt F) A = A := by
  obtain ⟨e0, e1⟩ := whole_index3 t
  funext j
  show A (((cfg1.win 3).blk t).view.emb j) = A j
  refine congrArg A (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- Window 4 (the scale, doubled) hands every point the whole vector. -/
theorem whole_index4 : ∀ t : Fin cfg1.N, win1_4.index t (0 : Fin 1) = 0 :=
  (by decide +kernel : ∀ t : Fin grid1.N, win1_4.index t (0 : Fin 1) = 0)
theorem whole_block4 (A : Vec F S128 .f32) (t : Fin cfg1.N) :
    ((cfg1.win 4).blk t).view.read (Elt F) A = A := by
  have e0 := whole_index4 t
  funext j
  show A (((cfg1.win 4).blk t).view.emb j) = A j
  refine congrArg A (funext fun a => Fin.ext ?_)
  match a with
  | ⟨0, _⟩ => show win1_4.index t (0 : Fin 1) * 128 + 1 * (j 0).val = (j 0).val; omega

/-- Window 5 (the shift, doubled) hands every point the whole vector. -/
theorem whole_index5 : ∀ t : Fin cfg1.N, win1_5.index t (0 : Fin 1) = 0 :=
  (by decide +kernel : ∀ t : Fin grid1.N, win1_5.index t (0 : Fin 1) = 0)
theorem whole_block5 (A : Vec F S128 .f32) (t : Fin cfg1.N) :
    ((cfg1.win 5).blk t).view.read (Elt F) A = A := by
  have e0 := whole_index5 t
  funext j
  show A (((cfg1.win 5).blk t).view.emb j) = A j
  refine congrArg A (funext fun a => Fin.ext ?_)
  match a with
  | ⟨0, _⟩ => show win1_5.index t (0 : Fin 1) * 128 + 1 * (j 0).val = (j 0).val; omega

end Cert.KernelIdeal.R1B

end
-- ==== Proof.Region1Final.lean ====
/- The edge normalisation region's result array, as one function of its six input arrays.

   Entry (R, l) of the [400000,128] result depends on entry (R, l) of the pre-activations and of the edge
   features and on lane l of the four per-lane rows:
       out(R,l) = ef(R,l) + z · logistic z,
       z = ((x(R,l) − mean(0,l)) · rsqrt (var(0,l) + ε)) · scale(l) + shift(l).
   Point `t` of the grid writes back rows `8000·t … 8000·t + 7999`, and what it writes is this function
   restricted to those rows (the point's input blocks are those rows of the inputs, and the body computes the
   formula entry by entry). Row R lies in the block of point R / 8000, every point writes its block back, so the
   50 blocks cover the array and the array ends holding the function everywhere. -/
import proofs.«175570_j5823975653421_2_alg».proof.Proof.Region1
import proofs.«175570_j5823975653421_2_alg».proof.Proof.Region1Value
import proofs.«175570_j5823975653421_2_alg».proof.Proof.Region1Blocks
import Idealize.ShloMosaic.Lib.Pipeline.Value

set_option maxRecDepth 16384

noncomputable section

namespace Cert.KernelIdeal.R1

open Cert.KernelIdeal.Gen Cert.KernelIdeal.R1B
open Idealize.ShloMosaic Idealize.ShloMosaic.TcCoe Idealize.ShloMosaic.ValueIdx
open Idealize.ShloMosaic.Pipeline (Dat)

/-- The lane of an entry of a [400000,128] array. -/
def lane (j : S400000x128.Idx) : Fin 128 := ⟨(j 1).val, idx2_lt1 j⟩

theorem lane_ix2 (R : Fin 400000) (l : Fin 128) : lane (ix2 R l) = l := rfl

/-- The result array as a function of the six input arrays, entry by entry. -/
def normWhole (x ef : S400000x128.Idx → EReal) (mean var : S1x128.Idx → EReal) (g b : S128.Idx → EReal) :
    S400000x128.Idx → EReal := fun j =>
  ef j + (((x j - mean (ix2 (0 : Fin 1) (lane j))) * Ideal.rsqrt (var (ix2 (0 : Fin 1) (lane j)) + Ideal.ofBits .f32 0x3727C5AC#32)) * g (ix1 (lane j)) + b (ix1 (lane j)))
    * Ideal.logistic (((x j - mean (ix2 (0 : Fin 1) (lane j))) * Ideal.rsqrt (var (ix2 (0 : Fin 1) (lane j)) + Ideal.ofBits .f32 0x3727C5AC#32)) * g (ix1 (lane j)) + b (ix1 (lane j)))

/-- What the body leaves at entry y of the output block at point `t`, when its two tile inputs are the blocks of
    arrays `X`, `EF` at `t`, is the whole-array function at the place entry y of the block sits in the array. -/
theorem normOut_tile_eq (X EF : Vec Ideal S400000x128 .f32) (M Vr : Vec Ideal S1x128 .f32) (G B : Vec Ideal S128 .f32)
    (t : Fin cfg1.N) (y : S8000x128.Idx) :
    normOut (F := Ideal) (((cfg1.win 0).blk t).view.read (Elt Ideal) X) (((cfg1.win 1).blk t).view.read (Elt Ideal) EF)
        M Vr G B y
      = normWhole X EF M Vr G B (((cfg1.win 6).blk t).view.emb y) := by
  obtain ⟨r, l, rfl⟩ : ∃ (r : Fin 8000) (l : Fin 128), y = ix2 r l := ⟨y 0, y 1, eq_ix2 y⟩
  rw [normOut_apply, tile_block0_apply, tile_block1_apply, tile_emb6]
  unfold normWhole
  simp only [lane_ix2]

/-- WHAT POINT `t` WRITES BACK is block `t` of the whole-array function of the arrays the region finds. -/
theorem norm_flushed (V : (c : Dev nD) → (b : Ref sig .tc) → Buf (Elt Ideal) ((c : Thread nD τ).loc b))
    (c : Dev nD) (t : Fin cfg1.N) :
    (dat1 V c).flushed 6 t = ((cfg1.win 6).blk t).view.read (Elt Ideal)
      (normWhole (V c main_v83) (V c main_v84) (V c main_v85) (V c main_v86) (V c main_v87) (V c main_v88)) := by
  show (cfg1.win 6).cut (grid1.coords t) ((dat1 V c).after 6 t) = _
  rw [after_6]
  unfold blk
  have h2 := whole_block2 (F := Ideal) (V c main_v85) t
  have h3 := whole_block3 (F := Ideal) (V c main_v86) t
  have h4 := whole_block4 (F := Ideal) (V c main_v87) t
  have h5 := whole_block5 (F := Ideal) (V c main_v88) t
  funext y
  show normOut (F := Ideal) (((cfg1.win 0).blk t).view.read (Elt Ideal) (V c main_v83))
      (((cfg1.win 1).blk t).view.read (Elt Ideal) (V c main_v84))
      (((cfg1.win 2).blk t).view.read (Elt Ideal) (V c main_v85))
      (((cfg1.win 3).blk t).view.read (Elt Ideal) (V c main_v86))
      (((cfg1.win 4).blk t).view.read (Elt Ideal) (V c main_v87))
      (((cfg1.win 5).blk t).view.read (Elt Ideal) (V c main_v88)) y
    = normWhole (V c main_v83) (V c main_v84) (V c main_v85) (V c main_v86) (V c main_v87) (V c main_v88)
        (((cfg1.win 6).blk t).view.emb y)
  rw [h2, h3, h4, h5]
  exact normOut_tile_eq (V c main_v83) (V c main_v84) (V c main_v85) (V c main_v86) (V c main_v87) (V c main_v88) t y

/-- An entry of the result array is in point `t`'s block iff each coordinate is in the block's range on its axis. -/
theorem mem_out_block (t : Fin cfg1.N) (i : S400000x128.Idx) :
    i ∈ ((cfg1.win 6).blk t).view.set ↔ ∀ a : Fin 2,
      win1_6.index t a * S8000x128.size a ≤ (i a).val ∧ (i a).val < win1_6.index t a * S8000x128.size a + S8000x128.size a := by
  show i ∈ ((View.whole main_v89).slice (win1_6.rect t)).set ↔ _
  rw [View.set_slice_whole, Rect.mem_set_unit]
  exact Iff.rfl

/-- Every entry of the result array is in the block of some point, which writes it back: row R is in the block of
    point R / 8000. -/
theorem out_covered (i : S400000x128.Idx) :
    ∃ t : Fin cfg1.N, (cfg1.win 6).flush t = true ∧ i ∈ ((cfg1.win 6).blk t).view.set := by
  have hi0 : (i 0).val < 400000 := (i 0).isLt
  have hi1 : (i 1).val < 128 := (i 1).isLt
  have hN : grid1.N = 50 := N_1
  let t : Fin cfg1.N := ⟨(i 0).val / 8000, by show (i 0).val / 8000 < grid1.N; omega⟩
  obtain ⟨e0, e1⟩ := tile_index6 t
  have ht : t.val = (i 0).val / 8000 := rfl
  refine ⟨t, flush1_6 t, ?_⟩
  rw [mem_out_block]
  intro a
  match a with
  | ⟨0, _⟩ =>
    show win1_6.index t (0 : Fin 2) * 8000 ≤ (i 0).val ∧ (i 0).val < win1_6.index t (0 : Fin 2) * 8000 + 8000
    omega
  | ⟨1, _⟩ =>
    show win1_6.index t (1 : Fin 2) * 128 ≤ (i 1).val ∧ (i 1).val < win1_6.index t (1 : Fin 2) * 128 + 128
    omega

/-- THE RESULT ARRAY after the region: the whole-array function of the six arrays the region finds. -/
theorem norm_final (V : (c : Dev nD) → (b : Ref sig .tc) → Buf (Elt Ideal) ((c : Thread nD τ).loc b)) (c : Dev nD) :
    (dat1 V c).arrAt 6 cfg1.N
      = normWhole (V c main_v83) (V c main_v84) (V c main_v85) (V c main_v86) (V c main_v87) (V c main_v88) :=
  (dat1 V c).arrAt_eq_of_cover 6 _ (fun t _ => norm_flushed V c t) out_covered

end Cert.KernelIdeal.R1

end
-- ==== Proof.RegionOutputs.lean ====
/-
  What the two regions leave, as whole-array functions (at the extended reals). The edge pass leaves in its five
  output arrays the pre-activation table m, its logistic, the gated table, and the two rows of column sums of m and
  of m² over all 800000 edges; the normalisation pass leaves the normalised, activated and residual-added table in
  the re-laid [400000,128] shape, as a function of the six arrays it reads.
-/
import proofs.«175570_j5823975653421_2_alg».proof.Proof.KernelEnds
import proofs.«175570_j5823975653421_2_alg».proof.Proof.EdgePassFinal
import proofs.«175570_j5823975653421_2_alg».proof.Proof.Region1Final

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable (m : (ℓ : Loc nD τ sig) → Buf (Elt Ideal) ℓ) (c : Dev nD)

theorem out_m : outs m 2 main_v37_0 c = R0F.mOf (entry0 m) c :=
  (exit0_arr m c 6).trans (R0F.m_final (entry0 m) c)
theorem out_s : outs m 2 main_v37_1 c = fun j => Ideal.logistic (R0F.mOf (entry0 m) c j) :=
  (exit0_arr m c 7).trans (R0F.s_final (entry0 m) c)
theorem out_g : outs m 2 main_v37_2 c = R0F.gatedOf (entry0 m) c :=
  (exit0_arr m c 8).trans (R0F.g_final (entry0 m) c)
theorem out_sum : outs m 2 main_v37_3 c = R0F.sumRow (entry0 m) c :=
  (exit0_arr m c 9).trans (R0F.sum_final (entry0 m) c)
theorem out_sumsq : outs m 2 main_v37_4 c = R0F.sumsqRow (entry0 m) c :=
  (exit0_arr m c 10).trans (R0F.sumsq_final (entry0 m) c)

theorem out_y : outs m 6 main_v89 c
    = R1.normWhole (entry1 m c main_v83) (entry1 m c main_v84) (entry1 m c main_v85) (entry1 m c main_v86) (entry1 m c main_v87) (entry1 m c main_v88) :=
  (exit1_arr m c 6).trans (R1.norm_final (entry1 m) c)

end Cert.KernelIdeal.Whole

end
-- ==== Proof.BridgeX.lean ====
/- The node results of the two programs are one table.

   Both programs finish the node branch with the same chain of whole-table operations applied to two edge
   tables: the gate logistic m and the gated message Bh[src] · logistic m. In the kernel program these two tables
   are what the first region leaves; in the reference they are two stages of its run. Entry by entry they agree:
   the region's pre-activation is the specification's in one grouping of its three summands, the reference's in
   the other, and the two groupings are one value because addition of extended reals is commutative and
   associative; the message layer's gathered table is the same row of the same linear layer on both sides. So the
   chain is applied to equal tables and, the arguments agreeing, the node results are equal. No finiteness of any
   entry is used. -/
import proofs.«175570_j5823975653421_2_alg».proof.Proof.BridgeM
import proofs.«175570_j5823975653421_2_alg».proof.Proof.RegionOutputs
import proofs.«175570_j5823975653421_2_alg».proof.Proof.KHostX
import proofs.«175570_j5823975653421_2_alg».proof.Proof.KHostY
import proofs.«175570_j5823975653421_2_alg».proof.Proof.RefX
import proofs.«175570_j5823975653421_2_alg».proof.Proof.RefTables
import proofs.«175570_j5823975653421_2_alg».proof.Proof.Spec

set_option maxRecDepth 16384

noncomputable section

namespace Cert.Bridge

open Cert.KernelIdeal Cert.KernelIdeal.Gen Cert.KernelIdeal.Whole Cert.KernelIdeal.HostSide
open Idealize.ShloMosaic Idealize.ShloMosaic.TcCoe Idealize.ShloMosaic.ValueIdx
open scoped BigOperators

variable (m : (ℓ : Loc nD τ sig) → Buf (Elt Ideal) ℓ) (c : Dev nD)

/-- The first region's gate table at (e, k) is the reference's gate stage there. -/
theorem gate_table_ix (e : Fin 800000) (k : Fin 64) :
    Ideal.logistic (R0F.mOf (entry0 m) c (ix2 e k))
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 e k) := by
  refine Eq.trans ?_ (Cert.RefSide.v33_ix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e k).symm
  rw [mOf_eq_mKer, Cert.Spec.mKer_eq_mRef]
  rfl

/-- THE GATE TABLE the first region leaves is the reference's gate stage of the launch arguments. -/
theorem gate_table_eq :
    outs m 2 main_v37_1 c
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [out_s]
  funext j
  obtain ⟨e, k, rfl⟩ : ∃ (e : Fin 800000) (k : Fin 64), j = ix2 e k := ⟨j 0, j 1, eq_ix2 j⟩
  exact gate_table_ix m c e k

/-- The first region's gated-message table at (e, k) is the reference's gated-message stage there. -/
theorem gated_table_ix (e : Fin 800000) (k : Fin 64) :
    R0F.gatedOf (entry0 m) c (ix2 e k)
      = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (ix2 e k) := by
  refine Eq.trans ?_ (Cert.RefSide.v45_ix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) e k).symm
  have hh : R0F.hOf (entry0 m) c
      = gathK (m ((c : Thread nD τ).loc main_arg0)) (m ((c : Thread nD τ).loc main_arg12)) (m ((c : Thread nD τ).loc main_arg13)) (m ((c : Thread nD τ).loc main_arg2)) := v36_eq m c
  rw [R0F.gatedOf_apply, hh, gathK_ix, mOf_eq_mKer, Cert.Spec.mKer_eq_mRef]
  rfl

/-- THE GATED-MESSAGE TABLE the first region leaves is the reference's gated-message stage of the launch
    arguments. -/
theorem gated_table_eq :
    outs m 2 main_v37_2 c
      = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  rw [out_g]
  funext j
  obtain ⟨e, k, rfl⟩ : ∃ (e : Fin 800000) (k : Fin 64), j = ix2 e k := ⟨j 0, j 1, eq_ix2 j⟩
  exact gated_table_ix m c e k

/-- THE NODE RESULTS AGREE: from memories that agree on the eighteen arguments, the reference's node result is
    the kernel program's. -/
theorem node_eq (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v112 m' c = nodeOut m c := by
  obtain ⟨h0, h1, h2, h3, h4, h5, h6, h7, h8, h9, h10, h11, h12, h13, h14, h15, h16, h17⟩ := hagree
  rw [Cert.ReferenceIdeal.Read.val_main_v112_eq, h0, h1, h2, h3, h4, h5, h6, h7, h8, h9, h10, h11, h12, h13, h14, h15,
    Cert.RefSide.ref_x]
  show _ = V7 m (outs m) c main_v82
  rw [x_eq m (outs m) c, gate_table_eq, gated_table_eq]

end Cert.Bridge

end
-- ==== Proof.RefY.lean ====
/-
  The reference's edge result, read at an index.

  From its pre-activation m the reference forms, per channel, the mean (0 + Σ_e m[e, c]) / 800000 and then the mean
  squared deviation (0 + Σ_e (m[e, c] − mean c)²) / 800000 — each a sum over the rows seeded with the constant 0 and
  divided by the constant 800000, the mean broadcast back over the rows before it is subtracted —, normalises
  z = ((m − mean)·rsqrt (var + eps))·gamma + beta with the channel vectors broadcast over the rows, and returns
  ef + z·(1 / (1 + exp (−z))). The last factor is the logistic function written out, with both ones the float
  literal 1.0. Read at (e, c), stage by stage, this is the specification's edge result with two-pass statistics
  over the specification's pre-activation.
-/
import Idealize.ShloMosaic.Lib.IdealHost
import proofs.«175570_j5823975653421_2_alg».proof.Proof.RefM

noncomputable section

open scoped BigOperators

namespace Cert.RefSide

open Cert.ReferenceIdeal Cert.ReferenceIdeal.Read Idealize.ShloMosaic Idealize.ShloMosaic.ValueIdx Cert.Spec

variable (x0 : TN) (x1 : TE) (x2 x3 : TI) (x4 : TW) (x5 : TV) (x6 : TW) (x7 : TV) (x8 : TW) (x9 : TV) (x16 x17 : TV)

/-- The reference's column mean at channel c is the specification's seeded mean of its pre-activation. -/
theorem v88_ix (c : Fin 64) :
    val_main_v88 (F := Ideal) x0 x1 x2 x3 x4 x5 x6 x7 x8 x9 (ix1 c) = meanTwo (mRef x0 x1 x2 x3 x4 x5 x6 x7 x8 x9) c := by
  rw [val_main_v88_apply, val_main_v86_apply, val_main_v87_apply, val_main_cst_14_apply, val_main_cst_15_apply]
  have hi : ∀ k : Fin 800000, idx_main_v86 (ix1 c) k = ix2 k c := fun k => eq_ix2_of_val _ _ _ rfl rfl
  simp only [hi, v27_ix]
  rfl

/-- The reference's deviation from the mean at (k, c). -/
theorem v91_ix (k : Fin 800000) (c : Fin 64) :
    val_main_v91 (F := Ideal) x0 x1 x2 x3 x4 x5 x6 x7 x8 x9 (ix2 k c)
      = mRef x0 x1 x2 x3 x4 x5 x6 x7 x8 x9 k c - meanTwo (mRef x0 x1 x2 x3 x4 x5 x6 x7 x8 x9) c := by
  rw [val_main_v91_apply, val_main_v90_apply, val_main_v89_apply, v27_ix]
  have hj : idx_main_v89 (idx_main_v90 (ix2 k c)) = ix1 c := eq_ix1_of_val _ _ rfl
  rw [hj, v88_ix]
  rfl

/-- The reference's column variance at channel c is the specification's seeded mean squared deviation. -/
theorem v95_ix (c : Fin 64) :
    val_main_v95 (F := Ideal) x0 x1 x2 x3 x4 x5 x6 x7 x8 x9 (ix1 c) = varTwo (mRef x0 x1 x2 x3 x4 x5 x6 x7 x8 x9) c := by
  rw [val_main_v95_apply, val_main_v93_apply, val_main_v94_apply, val_main_cst_16_apply, val_main_cst_17_apply]
  have hi : ∀ k : Fin 800000, idx_main_v93 (ix1 c) k = ix2 k c := fun k => eq_ix2_of_val _ _ _ rfl rfl
  simp only [hi, val_main_v92_apply, v91_ix]
  rfl

/-- The reference's normalised, scaled and shifted pre-activation at (e, c). -/
theorem v110_ix (e : Fin 800000) (c : Fin 64) :
    val_main_v110 (F := Ideal) x0 x1 x2 x3 x4 x5 x6 x7 x8 x9 x16 x17 (ix2 e c)
      = norm (mRef x0 x1 x2 x3 x4 x5 x6 x7 x8 x9) (meanTwo (mRef x0 x1 x2 x3 x4 x5 x6 x7 x8 x9)) (varTwo (mRef x0 x1 x2 x3 x4 x5 x6 x7 x8 x9)) x16 x17 e c := by
  rw [val_main_v110_apply, val_main_v107_apply, val_main_v104_apply, val_main_v98_apply, val_main_v97_apply,
    val_main_v96_apply, val_main_v103_apply, val_main_v102_apply, val_main_v101_apply, val_main_v100_apply,
    val_main_v99_apply, val_main_cst_18_apply, val_main_v106_apply, val_main_v105_apply, val_main_v109_apply,
    val_main_v108_apply, v27_ix]
  have h1 : idx_main_v96 (idx_main_v97 (ix2 e c)) = ix1 c := eq_ix1_of_val _ _ rfl
  have h2 : idx_main_v102 (idx_main_v103 (ix2 e c)) = ix1 c := eq_ix1_of_val _ _ rfl
  have h3 : idx_main_v105 (idx_main_v106 (ix2 e c)) = ix1 c := eq_ix1_of_val _ _ rfl
  have h4 : idx_main_v108 (idx_main_v109 (ix2 e c)) = ix1 c := eq_ix1_of_val _ _ rfl
  rw [h1, h2, h3, h4, v88_ix, v95_ix]
  rfl

/-- THE REFERENCE'S EDGE RESULT AT (e, c): the specification's, with two-pass statistics. -/
theorem ref_y_ix (e : Fin 800000) (c : Fin 64) :
    val_main_v113 (F := Ideal) x0 x1 x2 x3 x4 x5 x6 x7 x8 x9 x16 x17 (ix2 e c)
      = yTwoPass x1 (mRef x0 x1 x2 x3 x4 x5 x6 x7 x8 x9) x16 x17 e c := by
  rw [val_main_v113_apply, val_main_v111_apply, val_main_call1_v5_apply, val_main_call1_v4_apply,
    val_main_call1_cst_0_apply, val_main_call1_v3_apply, val_main_call1_v2_apply, val_main_call1_cst_apply,
    val_main_call1_v1_apply, val_main_call1_v0_apply, v110_ix]
  simp only [Ideal.ofBits_def, Ideal.ofBits_one_f32]
  rfl

/-- The same, as an equation between tables. -/
theorem ref_y :
    val_main_v113 (F := Ideal) x0 x1 x2 x3 x4 x5 x6 x7 x8 x9 x16 x17
      = fun i : S800000x64.Idx => yTwoPass x1 (mRef x0 x1 x2 x3 x4 x5 x6 x7 x8 x9) x16 x17 (i 0) (i 1) := by
  funext i
  conv_lhs => rw [eq_ix2 i]
  exact ref_y_ix x0 x1 x2 x3 x4 x5 x6 x7 x8 x9 x16 x17 (i 0) (i 1)

end Cert.RefSide

end
-- ==== Proof.Finite.lean ====
/-
  From the precondition to real entries.

  The precondition is one boolean: for each of the sixteen float arguments a, "every entry of |a| is below +∞" —
  the comparison |a| < +∞ taken entry by entry and reduced by "and" from the constant true over all axes —, and
  these sixteen booleans joined by "and", left to right. That it is true says that each of the sixteen is true;
  a reduction by "and" that is true met only true entries; and |x| = max x (−x) < ⊤ on the extended reals says
  that x is neither infinity, that is, a real number. So every entry of every float argument is a real number.

  The pre-activation of an edge is built from such entries by finite sums, products and binary sums only (a
  linear layer's entry is a sum of 64 products plus a bias entry; the pre-activation is a sum of three such), and
  those keep real numbers real: every entry of the pre-activation is a real number, whatever the edge's end-node
  indices are (a row read at a clamped index is still a row of the table).
-/
import Idealize.ShloMosaic.Lib.ReduceAll
import Idealize.ShloMosaic.Lib.ValueIdx
import proofs.«175570_j5823975653421_2_alg».proof.Pre_finite_inputs
import proofs.«175570_j5823975653421_2_alg».proof.Proof.LibFinite
import proofs.«175570_j5823975653421_2_alg».proof.Proof.Spec

noncomputable section

open scoped BigOperators

namespace Cert.Finite

open Idealize.ShloMosaic Idealize.ShloMosaic.ValueIdx Cert.LibFinite Cert.Spec

/-- The float literal 0x7F800000 is +∞. -/
theorem ofBits_inf : Ideal.ofBits .f32 0x7F800000#32 = (⊤ : EReal) := by simp [Ideal.ofBits, Ideal.ieee]

/-- An ordered "less than" that came out true is the order's. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- "Every entry of |a| is below +∞", reduced over all axes and true: every entry of a is a real number. -/
theorem real_of_all {s : Shape} {axes : List (Fin s.rank)} (a : FVec Ideal s .f32)
    (bc : (⟨0, ![]⟩ : Shape).BroadcastsInDim s (![] : Fin 0 → Fin s.rank))
    (hr : s.ReducesTo axes ⟨0, ![]⟩) (h0 : 0 < (⟨0, ![]⟩ : Shape).numel)
    (h : Host.reduce IntOp.andi
          (cmpf .olt (Host.absf a) (broadcastInDim s ![] bc (constant (F := Ideal) ⟨0, ![]⟩ .f32 0x7F800000#32)))
          (constantI ⟨0, ![]⟩ 1 1#1) hr h0 ix0 = 1#1) (i : s.Idx) : IsReal (a i) := by
  haveI : Subsingleton (⟨0, ![]⟩ : Shape).Idx := ⟨fun p q => funext fun d => d.elim0⟩
  have e := Host.reduce_andi_all _ _ hr h0 ix0 h i
  have e2 : Ideal.cmp .olt (max (a i) (-(a i))) (Ideal.ofBits .f32 0x7F800000#32) = 1#1 := e
  rw [ofBits_inf] at e2
  exact isReal_of_abs_lt_top (lt_of_cmp_olt e2)

/-! ## The sixteen float arguments -/

section Pre

open Cert.Pre_finite_inputs

variable [Cert.Pre_finite_inputs.Facts]

/-- The precondition, opened: every entry of each of the sixteen float arguments is a real number (in the order of
    the arguments: the node table, the edge table, then the five weight matrices each followed by its bias, then
    the four normalisation vectors). -/
theorem pre_real
    (a0 : FVec Ideal S50000x64 .f32) (a1 : FVec Ideal S800000x64 .f32) (a2 a3 : IVec S800000 32)
    (a4 : FVec Ideal S64x64 .f32) (a5 : FVec Ideal S64 .f32) (a6 : FVec Ideal S64x64 .f32) (a7 : FVec Ideal S64 .f32)
    (a8 : FVec Ideal S64x64 .f32) (a9 : FVec Ideal S64 .f32) (a10 : FVec Ideal S64x64 .f32) (a11 : FVec Ideal S64 .f32)
    (a12 : FVec Ideal S64x64 .f32) (a13 : FVec Ideal S64 .f32) (a14 a15 a16 a17 : FVec Ideal S64 .f32)
    (h : Cert.Pre_finite_inputs.fn (F := Ideal) a0 a1 a2 a3 a4 a5 a6 a7 a8 a9 a10 a11 a12 a13 a14 a15 a16 a17
          = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i))
      ∧ (∀ i, IsReal (a15 i)) ∧ (∀ i, IsReal (a16 i)) ∧ (∀ i, IsReal (a17 i)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, h17⟩ := IntOp.andi_eq_one.1 h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h1⟩ := IntOp.andi_eq_one.1 h0
  exact ⟨real_of_all a0 _ _ _ h0, real_of_all a1 _ _ _ h1, real_of_all a4 _ _ _ h4, real_of_all a5 _ _ _ h5,
    real_of_all a6 _ _ _ h6, real_of_all a7 _ _ _ h7, real_of_all a8 _ _ _ h8, real_of_all a9 _ _ _ h9,
    real_of_all a10 _ _ _ h10, real_of_all a11 _ _ _ h11, real_of_all a12 _ _ _ h12, real_of_all a13 _ _ _ h13,
    real_of_all a14 _ _ _ h14, real_of_all a15 _ _ _ h15, real_of_all a16 _ _ _ h16, real_of_all a17 _ _ _ h17⟩

end Pre

/-! ## The pre-activation is real -/

/-- A linear layer on the node table keeps real entries real. -/
theorem projN_real (t : SN.Idx → EReal) (W : SW.Idx → EReal) (b : SV.Idx → EReal)
    (ht : ∀ i, IsReal (t i)) (hW : ∀ i, IsReal (W i)) (hb : ∀ i, IsReal (b i)) (n : Fin 50000) (c : Fin 64) :
    IsReal (projN t W b n c) := by
  unfold projN
  exact (isReal_sum _ _ fun k _ => (ht _).mul (hW _)).add (hb _)

/-- A linear layer on the edge table keeps real entries real. -/
theorem projE_real (t : SE.Idx → EReal) (W : SW.Idx → EReal) (b : SV.Idx → EReal)
    (ht : ∀ i, IsReal (t i)) (hW : ∀ i, IsReal (W i)) (hb : ∀ i, IsReal (b i)) (e : Fin 800000) (c : Fin 64) :
    IsReal (projE t W b e c) := by
  unfold projE
  exact (isReal_sum _ _ fun k _ => (ht _).mul (hW _)).add (hb _)

/-- The pre-activation of real tables is real, whatever the edges' end-node indices. -/
theorem mRef_real (nf : SN.Idx → EReal) (ef : SE.Idx → EReal) (src dst : SI.Idx → BitVec 32)
    (Wsg : SW.Idx → EReal) (bsg : SV.Idx → EReal) (Wdg : SW.Idx → EReal) (bdg : SV.Idx → EReal)
    (Weg : SW.Idx → EReal) (beg : SV.Idx → EReal)
    (hnf : ∀ i, IsReal (nf i)) (hef : ∀ i, IsReal (ef i)) (hWsg : ∀ i, IsReal (Wsg i)) (hbsg : ∀ i, IsReal (bsg i))
    (hWdg : ∀ i, IsReal (Wdg i)) (hbdg : ∀ i, IsReal (bdg i)) (hWeg : ∀ i, IsReal (Weg i)) (hbeg : ∀ i, IsReal (beg i))
    (e : Fin 800000) (c : Fin 64) : IsReal (mRef nf ef src dst Wsg bsg Wdg bdg Weg beg e c) := by
  unfold mRef
  exact ((projN_real nf Wsg bsg hnf hWsg hbsg _ c).add (projN_real nf Wdg bdg hnf hWdg hbdg _ c)).add
    (projE_real ef Weg beg hef hWeg hbeg e c)

/-- UNDER THE PRECONDITION every entry of the pre-activation is a real number. -/
theorem m_real [Cert.Pre_finite_inputs.Facts]
    (a0 : SN.Idx → EReal) (a1 : SE.Idx → EReal) (a2 a3 : SI.Idx → BitVec 32)
    (a4 : SW.Idx → EReal) (a5 : SV.Idx → EReal) (a6 : SW.Idx → EReal) (a7 : SV.Idx → EReal)
    (a8 : SW.Idx → EReal) (a9 : SV.Idx → EReal) (a10 : SW.Idx → EReal) (a11 : SV.Idx → EReal)
    (a12 : SW.Idx → EReal) (a13 : SV.Idx → EReal) (a14 a15 a16 a17 : SV.Idx → EReal)
    (h : Cert.Pre_finite_inputs.fn (F := Ideal) a0 a1 a2 a3 a4 a5 a6 a7 a8 a9 a10 a11 a12 a13 a14 a15 a16 a17
          = fun _ => 1#1) (e : Fin 800000) (c : Fin 64) :
    ∃ r : ℝ, mRef a0 a1 a2 a3 a4 a5 a6 a7 a8 a9 e c = (r : EReal) := by
  obtain ⟨h0, h1, h4, h5, h6, h7, h8, h9, -⟩ := pre_real a0 a1 a2 a3 a4 a5 a6 a7 a8 a9 a10 a11 a12 a13 a14 a15 a16 a17 h
  exact mRef_real a0 a1 a2 a3 a4 a5 a6 a7 a8 a9 h0 h1 h4 h5 h6 h7 h8 h9 e c

end Cert.Finite

end
-- ==== Proof.BridgeY.lean ====
/-
  The edge results of the two programs are equal.

  The kernel program's edge result at edge e, channel k is the second region's output at the packed position of
  (e, k) — row e / 2, lane 64·(e mod 2) + k — and there the region's function of its six input arrays reads: the
  packed pre-activation and edge table at that position, which are the unpacked tables at (e, k); the doubled mean
  and variance rows and the doubled scale and shift vectors at that lane, which are the rows and vectors at channel
  k. The pre-activation table is the first region's first output, whose entry at (e, k) is the specification's
  pre-activation in the kernel's grouping (the gathered tables being the linear layers at the rows the edge's
  indices select); the mean and variance rows come from the first region's column totals of it and of its squares,
  so they are the specification's one-pass statistics. Hence the kernel program's edge result is the
  specification's one-pass edge result of the arguments.

  The reference's edge result is the specification's two-pass edge result of ITS arguments, which are the kernel
  program's. The two groupings of the pre-activation are one table; and under the precondition every entry of it
  is a real number, so the one-pass and the two-pass statistics agree. That is the equality.
-/
import proofs.«175570_j5823975653421_2_alg».proof.Proof.RegionOutputs
import proofs.«175570_j5823975653421_2_alg».proof.Proof.KHostY
import proofs.«175570_j5823975653421_2_alg».proof.Proof.BridgeM
import proofs.«175570_j5823975653421_2_alg».proof.Proof.RefY
import proofs.«175570_j5823975653421_2_alg».proof.Proof.Finite

set_option maxRecDepth 16384

noncomputable section

open scoped BigOperators

namespace Cert.Bridge

open Idealize.ShloMosaic Idealize.ShloMosaic.ValueIdx Idealize.ShloMosaic.TcCoe Idealize.SL.Sem
open Cert.Spec Cert.KernelIdeal.HostSide

/-! ## Over plain tables -/

/-- The packed row of an edge … -/
def prow (e : Fin 800000) : Fin 400000 := ⟨e.val / 2, by omega⟩
/-- … and the packed lane of one of its channels. -/
def plane (e : Fin 800000) (k : Fin 64) : Fin 128 := ⟨64 * (e.val % 2) + k.val, by omega⟩

/-- The mean row from a row of column totals is the one-pass mean. -/
theorem meanK_eq (tot : KR Ideal) (M : Fin 800000 → Fin 64 → EReal)
    (htot : ∀ k : Fin 64, tot (ix2 (0 : Fin 1) k) = ∑ e : Fin 800000, M e k) (k : Fin 64) :
    meanK tot (ix2 (0 : Fin 1) k) = meanOne M k := by
  rw [meanK_apply, htot]
  rfl

/-- The variance row from the rows of column totals and of column totals of squares is the one-pass variance. -/
theorem varK_eq (tot sq : KR Ideal) (M : Fin 800000 → Fin 64 → EReal)
    (htot : ∀ k : Fin 64, tot (ix2 (0 : Fin 1) k) = ∑ e : Fin 800000, M e k)
    (hsq : ∀ k : Fin 64, sq (ix2 (0 : Fin 1) k) = ∑ e : Fin 800000, M e k * M e k) (k : Fin 64) :
    varK tot sq (ix2 (0 : Fin 1) k) = varOne M k := by
  rw [varK_apply, htot, hsq, Ideal.ofBits_zero_f32]
  rfl

/-- The second region's function at an edge's packed position, over inputs that read there what the unpacked
    tables read at the edge, is the specification's one-pass edge result. -/
theorem normWhole_at (x ef : Cert.KernelIdeal.S400000x128.Idx → EReal) (mean var : Cert.KernelIdeal.S1x128.Idx → EReal)
    (g b : Cert.KernelIdeal.S128.Idx → EReal) (M : Fin 800000 → Fin 64 → EReal) (ef' : SE.Idx → EReal)
    (gam bet : SV.Idx → EReal) (e : Fin 800000) (k : Fin 64)
    (hx : x (ix2 (prow e) (plane e k)) = M e k) (hef : ef (ix2 (prow e) (plane e k)) = ef' (ix2 e k))
    (hmean : mean (ix2 (0 : Fin 1) (plane e k)) = meanOne M k) (hvar : var (ix2 (0 : Fin 1) (plane e k)) = varOne M k)
    (hg : g (ix1 (plane e k)) = gam (ix1 k)) (hb : b (ix1 (plane e k)) = bet (ix1 k)) :
    Cert.KernelIdeal.R1.normWhole x ef mean var g b (ix2 (prow e) (plane e k)) = yOnePass ef' M gam bet e k := by
  unfold Cert.KernelIdeal.R1.normWhole
  simp only [Cert.KernelIdeal.R1.lane_ix2]
  rw [hx, hef, hmean, hvar, hg, hb]
  rfl

/-! ## The kernel program's side -/

section Kernel

open Cert.KernelIdeal Cert.KernelIdeal.Gen Cert.KernelIdeal.Whole

variable (m : (ℓ : Loc Cert.KernelIdeal.nD Cert.KernelIdeal.τ Cert.KernelIdeal.sig) → Buf (Elt Ideal) ℓ)
  (c : Dev Cert.KernelIdeal.nD)

/-- The first region's row of column totals. -/
theorem tot_ix (k : Fin 64) :
    outs0 m 2 main_v37_3 c (ix2 (0 : Fin 1) k) = ∑ e : Fin 800000, mKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) e k :=
  (congrFun (out_sum m c) (ix2 (0 : Fin 1) k)).trans
    ((R0F.sumRow_ix2 (entry0 m) c 0 k).trans (Finset.sum_congr rfl fun e _ => mOf_eq_mKer m c e k))

/-- The first region's row of column totals of squares. -/
theorem sq_ix (k : Fin 64) :
    outs0 m 2 main_v37_4 c (ix2 (0 : Fin 1) k)
      = ∑ e : Fin 800000, mKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) e k * mKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) e k :=
  (congrFun (out_sumsq m c) (ix2 (0 : Fin 1) k)).trans
    ((R0F.sumsqRow_ix2 (entry0 m) c 0 k).trans
      (Finset.sum_congr rfl fun e _ => by rw [mOf_eq_mKer m c e k]))

/-- THE KERNEL PROGRAM'S EDGE RESULT AT (e, k) is the specification's one-pass edge result of the arguments. -/
theorem kernel_ix (e : Fin 800000) (k : Fin 64) :
    edgeOut m c (ix2 e k)
      = yOnePass (m ((c.tc : Thread Cert.KernelIdeal.nD Cert.KernelIdeal.τ).loc Cert.KernelIdeal.main_arg1)) (mKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) e k :=
  (y_ix m (outs m) c e k).trans ((congrFun (out_y m c) (ix2 (prow e) (plane e k))).trans
    (normWhole_at _ _ _ _ _ _ _ _ _ _ e k
      ((congrFun (v83_eq m (outs0 m) c) _).trans ((packK_at _ e k).trans
        ((congrFun (out_m m c) (ix2 e k)).trans (mOf_eq_mKer m c e k))))
      ((congrFun (v84_eq m (outs0 m) c) _).trans (packK_at _ e k))
      ((congrFun (v85_eq m (outs0 m) c) _).trans ((dblRowK_at _ 0 e k).trans
        (meanK_eq _ _ (tot_ix m c) k)))
      ((congrFun (v86_eq m (outs0 m) c) _).trans ((dblRowK_at _ 0 e k).trans
        (varK_eq _ _ _ (tot_ix m c) (sq_ix m c) k)))
      ((congrFun (v87_eq m (outs0 m) c) _).trans (dblVecK_at _ e k))
      ((congrFun (v88_eq m (outs0 m) c) _).trans (dblVecK_at _ e k))))

end Kernel

/-! ## The join -/

/-- THE TWO PROGRAMS' EDGE RESULTS ARE EQUAL: under the precondition on the kernel program's launch memory, and
    with the reference's arguments the kernel program's. -/
theorem edge_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v113 m' c = Cert.KernelIdeal.Whole.edgeOut m c := by
  obtain ⟨h0, h1, h2, h3, h4, h5, h6, h7, h8, h9, h10, h11, h12, h13, h14, h15, h16, h17⟩ := hagree
  have hR : Cert.ReferenceIdeal.Value.res_main_v113 m' c
      = fun i : Cert.ReferenceIdeal.S800000x64.Idx =>
          yTwoPass (m ((c.tc : Thread Cert.KernelIdeal.nD Cert.KernelIdeal.τ).loc Cert.KernelIdeal.main_arg1)) (mRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (i 0) (i 1) := by
    rw [Cert.ReferenceIdeal.Read.val_main_v113_eq, Cert.RefSide.ref_y, h0, h1, h2, h3, h4, h5, h6, h7, h8, h9, h16, h17]
  have hJ : yOnePass (m ((c.tc : Thread Cert.KernelIdeal.nD Cert.KernelIdeal.τ).loc Cert.KernelIdeal.main_arg1)) (mKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      = yTwoPass (m ((c.tc : Thread Cert.KernelIdeal.nD Cert.KernelIdeal.τ).loc Cert.KernelIdeal.main_arg1)) (mRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
    rw [mKer_eq_mRef]
    exact yOnePass_eq_yTwoPass _ _ _ _ (fun e k => Cert.Finite.m_real _ _ _ _ _ _ _ _ _ _ _ _ _ _ _ _ _ _ hpre e k)
  refine hR.trans (funext fun i => ?_)
  rw [eq_ix2 i]
  exact ((congrFun (congrFun hJ (i 0)) (i 1)).symm.trans (kernel_ix m c (i 0) (i 1)).symm)

end Cert.Bridge

end
-- ==== Proof.ValueClaim.lean ====
/-
  The value claim. At the extended reals, from memories that agree on the eighteen arguments, the kernel program
  and the reference both run to the end with the same two results and unchanged arguments.

  The kernel program's results are named by its run (the node output and the edge output, read off the last
  boundary's contents); the reference's are its run's two terms. The node outputs agree because both programs apply
  the same chain of host operations to the same gate table and gated-message table, which the edge pass and the
  reference compute from the same pre-activations up to the order of three additions. The edge outputs agree
  because the kernel's one-pass variance max(Σm²/E − (Σm/E)², 0) is the reference's two-pass Σ(m − Σm/E)²/E once
  every pre-activation is a real number — which the finiteness of the inputs gives —, everything else being the
  same arithmetic entry by entry through the tiling and the re-layout.
-/
import proofs.«175570_j5823975653421_2_alg».proof.Defs
import proofs.«175570_j5823975653421_2_alg».proof.Proof.Frames
import proofs.«175570_j5823975653421_2_alg».proof.Proof.KernelEnds
import proofs.«175570_j5823975653421_2_alg».proof.Proof.BridgeX
import proofs.«175570_j5823975653421_2_alg».proof.Proof.BridgeY

noncomputable section

namespace Cert.Proof.Parts

open Idealize.ShloMosaic Idealize.SL.Sem

theorem value_claim : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Whole.nodeOut m c, fun c => Cert.KernelIdeal.Whole.edgeOut m c,
    Cert.KernelIdeal.Whole.run_named m g, ?_⟩
  exact (θ_run Cert.ReferenceIdeal.defs _ _).mono
    (fun _ h c => ⟨(h c).1.trans (Cert.Bridge.node_eq m c m' (hagree c)),
      (h c).2.1.trans (@Cert.Bridge.edge_eq Cert.Pre_finite_inputs.Gen.facts m m' c (hpre c) (hagree c)), (h c).2.2⟩)
    (Cert.ReferenceIdeal.Value.run (F := Ideal) m' g')

end Cert.Proof.Parts

end
-- ==== Proof.lean ====
/-
  The certificate of the edge-gated graph convolution kernel against its reference.

  The kernel program runs two pallas regions among host operations: an edge pass over 100 tiles of 8000 edges,
  which computes the edge pre-activations, their gate and gated messages and accumulates the column sums of the
  pre-activations and of their squares in two scratch rows carried from tile to tile; and a normalisation pass over
  the re-laid edge table. Each program terminates, faults nowhere and leaves its arguments unchanged (the three
  frames); the ideal pass rewrote nothing (preservation); and at the extended reals the kernel program and the
  reference end with equal results (the value claim), the one substantive identity being that the variance
  computed from Σm and Σm² is the variance computed from the deviations, for real m.
-/
import proofs.«175570_j5823975653421_2_alg».proof.Defs
import proofs.«175570_j5823975653421_2_alg».proof.Proof.Frames
import proofs.«175570_j5823975653421_2_alg».proof.Proof.ValueClaim

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_word, Cert.Proof.Parts.frame_ideal, Cert.Proof.Parts.frame_reference,
    Cert.Proof.Parts.preserves, Cert.Proof.Parts.value_claim⟩

end Cert.Proof

end
